-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x36864 : Shape := ⟨2, ![2048, 36864]⟩
abbrev S192x48 : Shape := ⟨2, ![192, 48]⟩
abbrev S256x2304 : Shape := ⟨2, ![256, 2304]⟩
abbrev S48x192 : Shape := ⟨2, ![48, 192]⟩
abbrev S2304x256 : Shape := ⟨2, ![2304, 256]⟩
abbrev S_ : Shape := ⟨0, ![]⟩

class Facts : Prop where
  bcast_S_S2048x36864 : S_.BroadcastsInDim S2048x36864 (![] : Fin 0 → Fin S2048x36864.rank)
  reducesTo_S2048x36864_S_d0_1 : S2048x36864.ReducesTo [0, 1] S_
  h_S_ : 0 < S_.numel
  bcast_S_S192x48 : S_.BroadcastsInDim S192x48 (![] : Fin 0 → Fin S192x48.rank)
  reducesTo_S192x48_S_d0_1 : S192x48.ReducesTo [0, 1] S_
  bcast_S_S256x2304 : S_.BroadcastsInDim S256x2304 (![] : Fin 0 → Fin S256x2304.rank)
  reducesTo_S256x2304_S_d0_1 : S256x2304.ReducesTo [0, 1] S_
  bcast_S_S48x192 : S_.BroadcastsInDim S48x192 (![] : Fin 0 → Fin S48x192.rank)
  reducesTo_S48x192_S_d0_1 : S48x192.ReducesTo [0, 1] S_
  bcast_S_S2304x256 : S_.BroadcastsInDim S2304x256 (![] : Fin 0 → Fin S2304x256.rank)
  reducesTo_S2304x256_S_d0_1 : S2304x256.ReducesTo [0, 1] S_

variable [Facts]

def fn_part1 {F : FTy → Type} [FloatOps F] (main_arg4 : FVec F S48x192 .f32) (main_arg5 : FVec F S48x192 .f32) (main_arg6 : FVec F S2304x256 .f32) (main_v13 : IVec S_ 1) (main_v16 : IVec S256x2304 1) : IVec S_ 1 :=
  let main_c_5 : IVec S_ 1 := constantI S_ 1 1#1
  let main_v17 : IVec S_ 1 := (fun x v => Host.reduce IntOp.andi x v reducesTo_S256x2304_S_d0_1 h_S_) main_v16 main_c_5
  let main_v18 : IVec S_ 1 := andi main_v13 main_v17
  let main_v19 : FVec F S48x192 .f32 := Host.absf main_arg4
  let main_cst_6 : FVec F S_ .f32 := constant S_ .f32 0x7F800000#32
  let main_v20 : FVec F S48x192 .f32 := broadcastInDim S48x192 ![] bcast_S_S48x192 main_cst_6
  let main_v21 : IVec S48x192 1 := cmpf .olt main_v19 main_v20
  let main_c_7 : IVec S_ 1 := constantI S_ 1 1#1
  let main_v22 : IVec S_ 1 := (fun x v => Host.reduce IntOp.andi x v reducesTo_S48x192_S_d0_1 h_S_) main_v21 main_c_7
  let main_v23 : IVec S_ 1 := andi main_v18 main_v22
  let main_v24 : FVec F S48x192 .f32 := Host.absf main_arg5
  let main_cst_8 : FVec F S_ .f32 := constant S_ .f32 0x7F800000#32
  let main_v25 : FVec F S48x192 .f32 := broadcastInDim S48x192 ![] bcast_S_S48x192 main_cst_8
  let main_v26 : IVec S48x192 1 := cmpf .olt main_v24 main_v25
  let main_c_9 : IVec S_ 1 := constantI S_ 1 1#1
  let main_v27 : IVec S_ 1 := (fun x v => Host.reduce IntOp.andi x v reducesTo_S48x192_S_d0_1 h_S_) main_v26 main_c_9
  let main_v28 : IVec S_ 1 := andi main_v23 main_v27
  let main_v29 : FVec F S2304x256 .f32 := Host.absf main_arg6
  let main_cst_10 : FVec F S_ .f32 := constant S_ .f32 0x7F800000#32
  let main_v30 : FVec F S2304x256 .f32 := broadcastInDim S2304x256 ![] bcast_S_S2304x256 main_cst_10
  let main_v31 : IVec S2304x256 1 := cmpf .olt main_v29 main_v30
  let main_c_11 : IVec S_ 1 := constantI S_ 1 1#1
  let main_v32 : IVec S_ 1 := (fun x v => Host.reduce IntOp.andi x v reducesTo_S2304x256_S_d0_1 h_S_) main_v31 main_c_11
  let main_v33 : IVec S_ 1 := andi main_v28 main_v32
  main_v33

def fn {F : FTy → Type} [FloatOps F] (main_arg0 : FVec F S2048x36864 .f32) (main_arg1 : FVec F S192x48 .f32) (main_arg2 : FVec F S192x48 .f32) (main_arg3 : FVec F S256x2304 .f32) (main_arg4 : FVec F S48x192 .f32) (main_arg5 : FVec F S48x192 .f32) (main_arg6 : FVec F S2304x256 .f32) : IVec S_ 1 :=
  let main_v0 : FVec F S2048x36864 .f32 := Host.absf main_arg0
  let main_cst : FVec F S_ .f32 := constant S_ .f32 0x7F800000#32
  let main_v1 : FVec F S2048x36864 .f32 := broadcastInDim S2048x36864 ![] bcast_S_S2048x36864 main_cst
  let main_v2 : IVec S2048x36864 1 := cmpf .olt main_v0 main_v1
  let main_c : IVec S_ 1 := constantI S_ 1 1#1
  let main_v3 : IVec S_ 1 := (fun x v => Host.reduce IntOp.andi x v reducesTo_S2048x36864_S_d0_1 h_S_) main_v2 main_c
  let main_v4 : FVec F S192x48 .f32 := Host.absf main_arg1
  let main_cst_0 : FVec F S_ .f32 := constant S_ .f32 0x7F800000#32
  let main_v5 : FVec F S192x48 .f32 := broadcastInDim S192x48 ![] bcast_S_S192x48 main_cst_0
  let main_v6 : IVec S192x48 1 := cmpf .olt main_v4 main_v5
  let main_c_1 : IVec S_ 1 := constantI S_ 1 1#1
  let main_v7 : IVec S_ 1 := (fun x v => Host.reduce IntOp.andi x v reducesTo_S192x48_S_d0_1 h_S_) main_v6 main_c_1
  let main_v8 : IVec S_ 1 := andi main_v3 main_v7
  let main_v9 : FVec F S192x48 .f32 := Host.absf main_arg2
  let main_cst_2 : FVec F S_ .f32 := constant S_ .f32 0x7F800000#32
  let main_v10 : FVec F S192x48 .f32 := broadcastInDim S192x48 ![] bcast_S_S192x48 main_cst_2
  let main_v11 : IVec S192x48 1 := cmpf .olt main_v9 main_v10
  let main_c_3 : IVec S_ 1 := constantI S_ 1 1#1
  let main_v12 : IVec S_ 1 := (fun x v => Host.reduce IntOp.andi x v reducesTo_S192x48_S_d0_1 h_S_) main_v11 main_c_3
  let main_v13 : IVec S_ 1 := andi main_v8 main_v12
  let main_v14 : FVec F S256x2304 .f32 := Host.absf main_arg3
  let main_cst_4 : FVec F S_ .f32 := constant S_ .f32 0x7F800000#32
  let main_v15 : FVec F S256x2304 .f32 := broadcastInDim S256x2304 ![] bcast_S_S256x2304 main_cst_4
  let main_v16 : IVec S256x2304 1 := cmpf .olt main_v14 main_v15
  fn_part1 (F := F) main_arg4 main_arg5 main_arg6 main_v13 main_v16
-- ==== Kernel.lean ====
abbrev S2048x36864 : Shape := ⟨2, ![2048, 36864]⟩
abbrev S192x48 : Shape := ⟨2, ![192, 48]⟩
abbrev S256x2304 : Shape := ⟨2, ![256, 2304]⟩
abbrev S48x192 : Shape := ⟨2, ![48, 192]⟩
abbrev S2304x256 : Shape := ⟨2, ![2304, 256]⟩
abbrev S48x48x256 : Shape := ⟨3, ![48, 48, 256]⟩
abbrev S_ : Shape := ⟨0, ![]⟩
abbrev S256x48x48 : Shape := ⟨3, ![256, 48, 48]⟩
abbrev S192 : Shape := ⟨1, ![192]⟩
abbrev S192x1 : Shape := ⟨2, ![192, 1]⟩
abbrev S393216x192 : Shape := ⟨2, ![393216, 192]⟩
abbrev S6144x192 : Shape := ⟨2, ![6144, 192]⟩
abbrev S32x2304 : Shape := ⟨2, ![32, 2304]⟩
abbrev S32x48x48 : Shape := ⟨3, ![32, 48, 48]⟩
abbrev S6144x48 : Shape := ⟨2, ![6144, 48]⟩
abbrev S32x192x48 : Shape := ⟨3, ![32, 192, 48]⟩
abbrev S32x48x192 : Shape := ⟨3, ![32, 48, 192]⟩
abbrev S1536x192 : Shape := ⟨2, ![1536, 192]⟩
abbrev S1536x48 : Shape := ⟨2, ![1536, 48]⟩
abbrev S32x1x48 : Shape := ⟨3, ![32, 1, 48]⟩
abbrev S32x48 : Shape := ⟨2, ![32, 48]⟩
abbrev S32x256 : Shape := ⟨2, ![32, 256]⟩
abbrev S32 : Shape := ⟨1, ![32]⟩
abbrev S32x1 : Shape := ⟨2, ![32, 1]⟩
abbrev S32x2x48 : Shape := ⟨3, ![32, 2, 48]⟩

abbrev nBuf : Space → Nat
  | .hbm => 57
  | .vmem => 12
  | .smem => 0
  | _ => 0

abbrev bufTy : (tb : Table) → Fin (tcTables nBuf tb) → BufTy
  | .hbm, ⟨0, _⟩ => ⟨S2048x36864, .f32⟩
  | .hbm, ⟨1, _⟩ => ⟨S192x48, .f32⟩
  | .hbm, ⟨2, _⟩ => ⟨S192x48, .f32⟩
  | .hbm, ⟨3, _⟩ => ⟨S256x2304, .f32⟩
  | .hbm, ⟨4, _⟩ => ⟨S48x192, .f32⟩
  | .hbm, ⟨5, _⟩ => ⟨S48x192, .f32⟩
  | .hbm, ⟨6, _⟩ => ⟨S2304x256, .f32⟩
  | .hbm, ⟨7, _⟩ => ⟨S48x48x256, .f32⟩
  | .hbm, ⟨8, _⟩ => ⟨S48x48x256, .f32⟩
  | .hbm, ⟨9, _⟩ => ⟨S2304x256, .f32⟩
  | .hbm, ⟨10, _⟩ => ⟨S2304x256, .bf16⟩
  | .hbm, ⟨11, _⟩ => ⟨S_, .f32⟩
  | .hbm, ⟨12, _⟩ => ⟨S256x2304, .f32⟩
  | .hbm, ⟨13, _⟩ => ⟨S256x2304, .f32⟩
  | .hbm, ⟨14, _⟩ => ⟨S256x48x48, .f32⟩
  | .hbm, ⟨15, _⟩ => ⟨S256x48x48, .f32⟩
  | .hbm, ⟨16, _⟩ => ⟨S256x2304, .f32⟩
  | .hbm, ⟨17, _⟩ => ⟨S256x2304, .bf16⟩
  | .hbm, ⟨18, _⟩ => ⟨S_, .f32⟩
  | .hbm, ⟨19, _⟩ => ⟨S192, .f32⟩
  | .hbm, ⟨20, _⟩ => ⟨S_, .f32⟩
  | .hbm, ⟨21, _⟩ => ⟨S192, .f32⟩
  | .hbm, ⟨22, _⟩ => ⟨S192, .f32⟩
  | .hbm, ⟨23, _⟩ => ⟨S192x1, .f32⟩
  | .hbm, ⟨24, _⟩ => ⟨S192x48, .f32⟩
  | .hbm, ⟨25, _⟩ => ⟨S192x48, .f32⟩
  | .hbm, ⟨26, _⟩ => ⟨S192x48, .f32⟩
  | .hbm, ⟨27, _⟩ => ⟨S_, .f32⟩
  | .hbm, ⟨28, _⟩ => ⟨S192, .f32⟩
  | .hbm, ⟨29, _⟩ => ⟨S192x1, .f32⟩
  | .hbm, ⟨30, _⟩ => ⟨S192x48, .f32⟩
  | .hbm, ⟨31, _⟩ => ⟨S192x48, .f32⟩
  | .hbm, ⟨32, _⟩ => ⟨S_, .f32⟩
  | .hbm, ⟨33, _⟩ => ⟨S192, .f32⟩
  | .hbm, ⟨34, _⟩ => ⟨S_, .f32⟩
  | .hbm, ⟨35, _⟩ => ⟨S192, .f32⟩
  | .hbm, ⟨36, _⟩ => ⟨S192, .f32⟩
  | .hbm, ⟨37, _⟩ => ⟨S192x1, .f32⟩
  | .hbm, ⟨38, _⟩ => ⟨S192x48, .f32⟩
  | .hbm, ⟨39, _⟩ => ⟨S192x48, .f32⟩
  | .hbm, ⟨40, _⟩ => ⟨S192x48, .f32⟩
  | .hbm, ⟨41, _⟩ => ⟨S_, .f32⟩
  | .hbm, ⟨42, _⟩ => ⟨S192, .f32⟩
  | .hbm, ⟨43, _⟩ => ⟨S192x1, .f32⟩
  | .hbm, ⟨44, _⟩ => ⟨S192x48, .f32⟩
  | .hbm, ⟨45, _⟩ => ⟨S192x48, .f32⟩
  | .hbm, ⟨46, _⟩ => ⟨S192x48, .f32⟩
  | .hbm, ⟨47, _⟩ => ⟨S192x48, .bf16⟩
  | .hbm, ⟨48, _⟩ => ⟨S192x48, .f32⟩
  | .hbm, ⟨49, _⟩ => ⟨S192x48, .bf16⟩
  | .hbm, ⟨50, _⟩ => ⟨S48x192, .f32⟩
  | .hbm, ⟨51, _⟩ => ⟨S48x192, .bf16⟩
  | .hbm, ⟨52, _⟩ => ⟨S48x192, .f32⟩
  | .hbm, ⟨53, _⟩ => ⟨S48x192, .bf16⟩
  | .hbm, ⟨54, _⟩ => ⟨S393216x192, .f32⟩
  | .hbm, ⟨55, _⟩ => ⟨S393216x192, .f32⟩
  | .hbm, ⟨56, _⟩ => ⟨S2048x36864, .f32⟩
  | .local _ .vmem, ⟨0, _⟩ => ⟨S6144x192, .f32⟩
  | .local _ .vmem, ⟨1, _⟩ => ⟨S6144x192, .f32⟩
  | .local _ .vmem, ⟨2, _⟩ => ⟨S192x48, .bf16⟩
  | .local _ .vmem, ⟨3, _⟩ => ⟨S192x48, .bf16⟩
  | .local _ .vmem, ⟨4, _⟩ => ⟨S2304x256, .bf16⟩
  | .local _ .vmem, ⟨5, _⟩ => ⟨S256x2304, .bf16⟩
  | .local _ .vmem, ⟨6, _⟩ => ⟨S48x192, .bf16⟩
  | .local _ .vmem, ⟨7, _⟩ => ⟨S48x192, .bf16⟩
  | .local _ .vmem, ⟨8, _⟩ => ⟨S6144x192, .f32⟩
  | .local _ .vmem, ⟨9, _⟩ => ⟨S6144x192, .f32⟩
  | .local _ .vmem, ⟨10, _⟩ => ⟨S32x2304, .bf16⟩
  | .local _ .vmem, ⟨11, _⟩ => ⟨S32x48x48, .bf16⟩
  | _, _ => ⟨S2048x36864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x48 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6144x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2304x256_S48x48x256 : S2304x256.ShapeCasts S48x48x256
  transposes_S48x48x256_S48x48x256_1_0_2 : S48x48x256.Transposes [1, 0, 2] S48x48x256
  shapeCasts_S48x48x256_S2304x256 : S48x48x256.ShapeCasts S2304x256
  bitsLt_bf16_f32 : FTy.bits .bf16 < FTy.bits .f32
  bcast_S_S256x2304 : S_.BroadcastsInDim S256x2304 (![] : Fin 0 → Fin S256x2304.rank)
  shapeCasts_S256x2304_S256x48x48 : S256x2304.ShapeCasts S256x48x48
  transposes_S256x48x48_S256x48x48_0_2_1 : S256x48x48.Transposes [0, 2, 1] S256x48x48
  shapeCasts_S256x48x48_S256x2304 : S256x48x48.ShapeCasts S256x2304
  reducesTo_S192x48_S192_d1 : S192x48.ReducesTo [1] S192
  h_S_ : 0 < S_.numel
  bcast_S_S192 : S_.BroadcastsInDim S192 (![] : Fin 0 → Fin S192.rank)
  bcast_S192_S192x1_0 : S192.BroadcastsInDim S192x1 (![0] : Fin 1 → Fin S192x1.rank)
  bcast_S192x1_S192x48_0_1 : S192x1.BroadcastsInDim S192x48 (![0, 1] : Fin 2 → Fin S192x48.rank)
  transposes_S48x192_S192x48_1_0 : S48x192.Transposes [1, 0] S192x48
  transposes_S192x48_S48x192_1_0 : S192x48.Transposes [1, 0] S48x192
  shapeCasts_S2048x36864_S393216x192 : S2048x36864.ShapeCasts S393216x192
  inb_S6144x192_S6144x192_0_0 : ∀ a, (![0, 0] : Fin 2 → Nat) a + S6144x192.size a ≤ S6144x192.size a
  h_S6144x192 : 0 < S6144x192.numel
  shapeCasts_S6144x192_S6144x192 : S6144x192.ShapeCasts S6144x192
  inb_S192x48_S192x48_0_0 : ∀ a, (![0, 0] : Fin 2 → Nat) a + S192x48.size a ≤ S192x48.size a
  h_S192x48 : 0 < S192x48.numel
  shapeCasts_S192x48_S192x48 : S192x48.ShapeCasts S192x48
  shapeCasts_S6144x48_S32x192x48 : S6144x48.ShapeCasts S32x192x48
  transposes_S32x192x48_p0_2_1_S32x48x192 : S32x192x48.Transposes [0, 2, 1] S32x48x192
  shapeCasts_S32x48x192_S1536x192 : S32x48x192.ShapeCasts S1536x192
  shapeCasts_S1536x48_S32x48x48 : S1536x48.ShapeCasts S32x48x48
  slices_S32x48x48_o0_0_0_S32x1x48 : S32x48x48.Slices ![0, 0, 0] S32x1x48
  shapeCasts_S32x1x48_S32x48 : S32x1x48.ShapeCasts S32x48
  inb_S32x2304_S32x48_0_0 : ∀ a, (![0, 0] : Fin 2 → Nat) a + S32x48.size a ≤ S32x2304.size a
  h_S32x48 : 0 < S32x48.numel
  shapeCasts_S32x48_S32x48 : S32x48.ShapeCasts S32x48
  packedbf16_S32x2304_S32x48_0_0 : (Rect.unit (s := S32x2304) ![0, 0] S32x48.size inb_S32x2304_S32x48_0_0).PackedRows (EltTy.packing .bf16)
  slices_S32x48x48_o0_1_0_S32x1x48 : S32x48x48.Slices ![0, 1, 0] S32x1x48
  inb_S32x2304_S32x48_0_48 : ∀ a, (![0, 48] : Fin 2 → Nat) a + S32x48.size a ≤ S32x2304.size a
  packedbf16_S32x2304_S32x48_0_48 : (Rect.unit (s := S32x2304) ![0, 48] S32x48.size inb_S32x2304_S32x48_0_48).PackedRows (EltTy.packing .bf16)
  slices_S32x48x48_o0_2_0_S32x1x48 : S32x48x48.Slices ![0, 2, 0] S32x1x48
  inb_S32x2304_S32x48_0_96 : ∀ a, (![0, 96] : Fin 2 → Nat) a + S32x48.size a ≤ S32x2304.size a
  packedbf16_S32x2304_S32x48_0_96 : (Rect.unit (s := S32x2304) ![0, 96] S32x48.size inb_S32x2304_S32x48_0_96).PackedRows (EltTy.packing .bf16)
  slices_S32x48x48_o0_3_0_S32x1x48 : S32x48x48.Slices ![0, 3, 0] S32x1x48
  inb_S32x2304_S32x48_0_144 : ∀ a, (![0, 144] : Fin 2 → Nat) a + S32x48.size a ≤ S32x2304.size a
  packedbf16_S32x2304_S32x48_0_144 : (Rect.unit (s := S32x2304) ![0, 144] S32x48.size inb_S32x2304_S32x48_0_144).PackedRows (EltTy.packing .bf16)
  slices_S32x48x48_o0_4_0_S32x1x48 : S32x48x48.Slices ![0, 4, 0] S32x1x48
  inb_S32x2304_S32x48_0_192 : ∀ a, (![0, 192] : Fin 2 → Nat) a + S32x48.size a ≤ S32x2304.size a
  packedbf16_S32x2304_S32x48_0_192 : (Rect.unit (s := S32x2304) ![0, 192] S32x48.size inb_S32x2304_S32x48_0_192).PackedRows (EltTy.packing .bf16)
  slices_S32x48x48_o0_5_0_S32x1x48 : S32x48x48.Slices ![0, 5, 0] S32x1x48
  inb_S32x2304_S32x48_0_240 : ∀ a, (![0, 240] : Fin 2 → Nat) a + S32x48.size a ≤ S32x2304.size a
  packedbf16_S32x2304_S32x48_0_240 : (Rect.unit (s := S32x2304) ![0, 240] S32x48.size inb_S32x2304_S32x48_0_240).PackedRows (EltTy.packing .bf16)
  slices_S32x48x48_o0_6_0_S32x1x48 : S32x48x48.Slices ![0, 6, 0] S32x1x48
  inb_S32x2304_S32x48_0_288 : ∀ a, (![0, 288] : Fin 2 → Nat) a + S32x48.size a ≤ S32x2304.size a
  packedbf16_S32x2304_S32x48_0_288 : (Rect.unit (s := S32x2304) ![0, 288] S32x48.size inb_S32x2304_S32x48_0_288).PackedRows (EltTy.packing .bf16)
  slices_S32x48x48_o0_7_0_S32x1x48 : S32x48x48.Slices ![0, 7, 0] S32x1x48
  inb_S32x2304_S32x48_0_336 : ∀ a, (![0, 336] : Fin 2 → Nat) a + S32x48.size a ≤ S32x2304.size a
  packedbf16_S32x2304_S32x48_0_336 : (Rect.unit (s := S32x2304) ![0, 336] S32x48.size inb_S32x2304_S32x48_0_336).PackedRows (EltTy.packing .bf16)
  slices_S32x48x48_o0_8_0_S32x1x48 : S32x48x48.Slices ![0, 8, 0] S32x1x48
  inb_S32x2304_S32x48_0_384 : ∀ a, (![0, 384] : Fin 2 → Nat) a + S32x48.size a ≤ S32x2304.size a
  packedbf16_S32x2304_S32x48_0_384 : (Rect.unit (s := S32x2304) ![0, 384] S32x48.size inb_S32x2304_S32x48_0_384).PackedRows (EltTy.packing .bf16)
  slices_S32x48x48_o0_9_0_S32x1x48 : S32x48x48.Slices ![0, 9, 0] S32x1x48
  inb_S32x2304_S32x48_0_432 : ∀ a, (![0, 432] : Fin 2 → Nat) a + S32x48.size a ≤ S32x2304.size a
  packedbf16_S32x2304_S32x48_0_432 : (Rect.unit (s := S32x2304) ![0, 432] S32x48.size inb_S32x2304_S32x48_0_432).PackedRows (EltTy.packing .bf16)
  slices_S32x48x48_o0_10_0_S32x1x48 : S32x48x48.Slices ![0, 10, 0] S32x1x48
  inb_S32x2304_S32x48_0_480 : ∀ a, (![0, 480] : Fin 2 → Nat) a + S32x48.size a ≤ S32x2304.size a
  packedbf16_S32x2304_S32x48_0_480 : (Rect.unit (s := S32x2304) ![0, 480] S32x48.size inb_S32x2304_S32x48_0_480).PackedRows (EltTy.packing .bf16)
  slices_S32x48x48_o0_11_0_S32x1x48 : S32x48x48.Slices ![0, 11, 0] S32x1x48
  inb_S32x2304_S32x48_0_528 : ∀ a, (![0, 528] : Fin 2 → Nat) a + S32x48.size a ≤ S32x2304.size a
  packedbf16_S32x2304_S32x48_0_528 : (Rect.unit (s := S32x2304) ![0, 528] S32x48.size inb_S32x2304_S32x48_0_528).PackedRows (EltTy.packing .bf16)
  slices_S32x48x48_o0_12_0_S32x1x48 : S32x48x48.Slices ![0, 12, 0] S32x1x48
  inb_S32x2304_S32x48_0_576 : ∀ a, (![0, 576] : Fin 2 → Nat) a + S32x48.size a ≤ S32x2304.size a
  packedbf16_S32x2304_S32x48_0_576 : (Rect.unit (s := S32x2304) ![0, 576] S32x48.size inb_S32x2304_S32x48_0_576).PackedRows (EltTy.packing .bf16)
  slices_S32x48x48_o0_13_0_S32x1x48 : S32x48x48.Slices ![0, 13, 0] S32x1x48
  inb_S32x2304_S32x48_0_624 : ∀ a, (![0, 624] : Fin 2 → Nat) a + S32x48.size a ≤ S32x2304.size a
  packedbf16_S32x2304_S32x48_0_624 : (Rect.unit (s := S32x2304) ![0, 624] S32x48.size inb_S32x2304_S32x48_0_624).PackedRows (EltTy.packing .bf16)
  slices_S32x48x48_o0_14_0_S32x1x48 : S32x48x48.Slices ![0, 14, 0] S32x1x48
  inb_S32x2304_S32x48_0_672 : ∀ a, (![0, 672] : Fin 2 → Nat) a + S32x48.size a ≤ S32x2304.size a
  packedbf16_S32x2304_S32x48_0_672 : (Rect.unit (s := S32x2304) ![0, 672] S32x48.size inb_S32x2304_S32x48_0_672).PackedRows (EltTy.packing .bf16)
  slices_S32x48x48_o0_15_0_S32x1x48 : S32x48x48.Slices ![0, 15, 0] S32x1x48
  inb_S32x2304_S32x48_0_720 : ∀ a, (![0, 720] : Fin 2 → Nat) a + S32x48.size a ≤ S32x2304.size a
  packedbf16_S32x2304_S32x48_0_720 : (Rect.unit (s := S32x2304) ![0, 720] S32x48.size inb_S32x2304_S32x48_0_720).PackedRows (EltTy.packing .bf16)
  slices_S32x48x48_o0_16_0_S32x1x48 : S32x48x48.Slices ![0, 16, 0] S32x1x48
  inb_S32x2304_S32x48_0_768 : ∀ a, (![0, 768] : Fin 2 → Nat) a + S32x48.size a ≤ S32x2304.size a
  packedbf16_S32x2304_S32x48_0_768 : (Rect.unit (s := S32x2304) ![0, 768] S32x48.size inb_S32x2304_S32x48_0_768).PackedRows (EltTy.packing .bf16)
  slices_S32x48x48_o0_17_0_S32x1x48 : S32x48x48.Slices ![0, 17, 0] S32x1x48
  inb_S32x2304_S32x48_0_816 : ∀ a, (![0, 816] : Fin 2 → Nat) a + S32x48.size a ≤ S32x2304.size a
  packedbf16_S32x2304_S32x48_0_816 : (Rect.unit (s := S32x2304) ![0, 816] S32x48.size inb_S32x2304_S32x48_0_816).PackedRows (EltTy.packing .bf16)
  slices_S32x48x48_o0_18_0_S32x1x48 : S32x48x48.Slices ![0, 18, 0] S32x1x48
  inb_S32x2304_S32x48_0_864 : ∀ a, (![0, 864] : Fin 2 → Nat) a + S32x48.size a ≤ S32x2304.size a
  packedbf16_S32x2304_S32x48_0_864 : (Rect.unit (s := S32x2304) ![0, 864] S32x48.size inb_S32x2304_S32x48_0_864).PackedRows (EltTy.packing .bf16)
  slices_S32x48x48_o0_19_0_S32x1x48 : S32x48x48.Slices ![0, 19, 0] S32x1x48
  inb_S32x2304_S32x48_0_912 : ∀ a, (![0, 912] : Fin 2 → Nat) a + S32x48.size a ≤ S32x2304.size a
  packedbf16_S32x2304_S32x48_0_912 : (Rect.unit (s := S32x2304) ![0, 912] S32x48.size inb_S32x2304_S32x48_0_912).PackedRows (EltTy.packing .bf16)
  slices_S32x48x48_o0_20_0_S32x1x48 : S32x48x48.Slices ![0, 20, 0] S32x1x48
  inb_S32x2304_S32x48_0_960 : ∀ a, (![0, 960] : Fin 2 → Nat) a + S32x48.size a ≤ S32x2304.size a
  packedbf16_S32x2304_S32x48_0_960 : (Rect.unit (s := S32x2304) ![0, 960] S32x48.size inb_S32x2304_S32x48_0_960).PackedRows (EltTy.packing .bf16)
  slices_S32x48x48_o0_21_0_S32x1x48 : S32x48x48.Slices ![0, 21, 0] S32x1x48
  inb_S32x2304_S32x48_0_1008 : ∀ a, (![0, 1008] : Fin 2 → Nat) a + S32x48.size a ≤ S32x2304.size a
  packedbf16_S32x2304_S32x48_0_1008 : (Rect.unit (s := S32x2304) ![0, 1008] S32x48.size inb_S32x2304_S32x48_0_1008).PackedRows (EltTy.packing .bf16)
  slices_S32x48x48_o0_22_0_S32x1x48 : S32x48x48.Slices ![0, 22, 0] S32x1x48
  inb_S32x2304_S32x48_0_1056 : ∀ a, (![0, 1056] : Fin 2 → Nat) a + S32x48.size a ≤ S32x2304.size a
  packedbf16_S32x2304_S32x48_0_1056 : (Rect.unit (s := S32x2304) ![0, 1056] S32x48.size inb_S32x2304_S32x48_0_1056).PackedRows (EltTy.packing .bf16)
  slices_S32x48x48_o0_23_0_S32x1x48 : S32x48x48.Slices ![0, 23, 0] S32x1x48
  inb_S32x2304_S32x48_0_1104 : ∀ a, (![0, 1104] : Fin 2 → Nat) a + S32x48.size a ≤ S32x2304.size a
  packedbf16_S32x2304_S32x48_0_1104 : (Rect.unit (s := S32x2304) ![0, 1104] S32x48.size inb_S32x2304_S32x48_0_1104).PackedRows (EltTy.packing .bf16)
  slices_S32x48x48_o0_24_0_S32x1x48 : S32x48x48.Slices ![0, 24, 0] S32x1x48
  inb_S32x2304_S32x48_0_1152 : ∀ a, (![0, 1152] : Fin 2 → Nat) a + S32x48.size a ≤ S32x2304.size a
  packedbf16_S32x2304_S32x48_0_1152 : (Rect.unit (s := S32x2304) ![0, 1152] S32x48.size inb_S32x2304_S32x48_0_1152).PackedRows (EltTy.packing .bf16)
  slices_S32x48x48_o0_25_0_S32x1x48 : S32x48x48.Slices ![0, 25, 0] S32x1x48
  inb_S32x2304_S32x48_0_1200 : ∀ a, (![0, 1200] : Fin 2 → Nat) a + S32x48.size a ≤ S32x2304.size a
  packedbf16_S32x2304_S32x48_0_1200 : (Rect.unit (s := S32x2304) ![0, 1200] S32x48.size inb_S32x2304_S32x48_0_1200).PackedRows (EltTy.packing .bf16)
  slices_S32x48x48_o0_26_0_S32x1x48 : S32x48x48.Slices ![0, 26, 0] S32x1x48
  inb_S32x2304_S32x48_0_1248 : ∀ a, (![0, 1248] : Fin 2 → Nat) a + S32x48.size a ≤ S32x2304.size a
  packedbf16_S32x2304_S32x48_0_1248 : (Rect.unit (s := S32x2304) ![0, 1248] S32x48.size inb_S32x2304_S32x48_0_1248).PackedRows (EltTy.packing .bf16)
  slices_S32x48x48_o0_27_0_S32x1x48 : S32x48x48.Slices ![0, 27, 0] S32x1x48
  inb_S32x2304_S32x48_0_1296 : ∀ a, (![0, 1296] : Fin 2 → Nat) a + S32x48.size a ≤ S32x2304.size a
  packedbf16_S32x2304_S32x48_0_1296 : (Rect.unit (s := S32x2304) ![0, 1296] S32x48.size inb_S32x2304_S32x48_0_1296).PackedRows (EltTy.packing .bf16)
  slices_S32x48x48_o0_28_0_S32x1x48 : S32x48x48.Slices ![0, 28, 0] S32x1x48
  inb_S32x2304_S32x48_0_1344 : ∀ a, (![0, 1344] : Fin 2 → Nat) a + S32x48.size a ≤ S32x2304.size a
  packedbf16_S32x2304_S32x48_0_1344 : (Rect.unit (s := S32x2304) ![0, 1344] S32x48.size inb_S32x2304_S32x48_0_1344).PackedRows (EltTy.packing .bf16)
  slices_S32x48x48_o0_29_0_S32x1x48 : S32x48x48.Slices ![0, 29, 0] S32x1x48
  inb_S32x2304_S32x48_0_1392 : ∀ a, (![0, 1392] : Fin 2 → Nat) a + S32x48.size a ≤ S32x2304.size a
  packedbf16_S32x2304_S32x48_0_1392 : (Rect.unit (s := S32x2304) ![0, 1392] S32x48.size inb_S32x2304_S32x48_0_1392).PackedRows (EltTy.packing .bf16)
  slices_S32x48x48_o0_30_0_S32x1x48 : S32x48x48.Slices ![0, 30, 0] S32x1x48
  inb_S32x2304_S32x48_0_1440 : ∀ a, (![0, 1440] : Fin 2 → Nat) a + S32x48.size a ≤ S32x2304.size a
  packedbf16_S32x2304_S32x48_0_1440 : (Rect.unit (s := S32x2304) ![0, 1440] S32x48.size inb_S32x2304_S32x48_0_1440).PackedRows (EltTy.packing .bf16)
  slices_S32x48x48_o0_31_0_S32x1x48 : S32x48x48.Slices ![0, 31, 0] S32x1x48
  inb_S32x2304_S32x48_0_1488 : ∀ a, (![0, 1488] : Fin 2 → Nat) a + S32x48.size a ≤ S32x2304.size a
  packedbf16_S32x2304_S32x48_0_1488 : (Rect.unit (s := S32x2304) ![0, 1488] S32x48.size inb_S32x2304_S32x48_0_1488).PackedRows (EltTy.packing .bf16)
  slices_S32x48x48_o0_32_0_S32x1x48 : S32x48x48.Slices ![0, 32, 0] S32x1x48
  inb_S32x2304_S32x48_0_1536 : ∀ a, (![0, 1536] : Fin 2 → Nat) a + S32x48.size a ≤ S32x2304.size a
  packedbf16_S32x2304_S32x48_0_1536 : (Rect.unit (s := S32x2304) ![0, 1536] S32x48.size inb_S32x2304_S32x48_0_1536).PackedRows (EltTy.packing .bf16)
  slices_S32x48x48_o0_33_0_S32x1x48 : S32x48x48.Slices ![0, 33, 0] S32x1x48
  inb_S32x2304_S32x48_0_1584 : ∀ a, (![0, 1584] : Fin 2 → Nat) a + S32x48.size a ≤ S32x2304.size a
  packedbf16_S32x2304_S32x48_0_1584 : (Rect.unit (s := S32x2304) ![0, 1584] S32x48.size inb_S32x2304_S32x48_0_1584).PackedRows (EltTy.packing .bf16)
  slices_S32x48x48_o0_34_0_S32x1x48 : S32x48x48.Slices ![0, 34, 0] S32x1x48
  inb_S32x2304_S32x48_0_1632 : ∀ a, (![0, 1632] : Fin 2 → Nat) a + S32x48.size a ≤ S32x2304.size a
  packedbf16_S32x2304_S32x48_0_1632 : (Rect.unit (s := S32x2304) ![0, 1632] S32x48.size inb_S32x2304_S32x48_0_1632).PackedRows (EltTy.packing .bf16)
  slices_S32x48x48_o0_35_0_S32x1x48 : S32x48x48.Slices ![0, 35, 0] S32x1x48
  inb_S32x2304_S32x48_0_1680 : ∀ a, (![0, 1680] : Fin 2 → Nat) a + S32x48.size a ≤ S32x2304.size a
  packedbf16_S32x2304_S32x48_0_1680 : (Rect.unit (s := S32x2304) ![0, 1680] S32x48.size inb_S32x2304_S32x48_0_1680).PackedRows (EltTy.packing .bf16)
  slices_S32x48x48_o0_36_0_S32x1x48 : S32x48x48.Slices ![0, 36, 0] S32x1x48
  inb_S32x2304_S32x48_0_1728 : ∀ a, (![0, 1728] : Fin 2 → Nat) a + S32x48.size a ≤ S32x2304.size a
  packedbf16_S32x2304_S32x48_0_1728 : (Rect.unit (s := S32x2304) ![0, 1728] S32x48.size inb_S32x2304_S32x48_0_1728).PackedRows (EltTy.packing .bf16)
  slices_S32x48x48_o0_37_0_S32x1x48 : S32x48x48.Slices ![0, 37, 0] S32x1x48
  inb_S32x2304_S32x48_0_1776 : ∀ a, (![0, 1776] : Fin 2 → Nat) a + S32x48.size a ≤ S32x2304.size a
  packedbf16_S32x2304_S32x48_0_1776 : (Rect.unit (s := S32x2304) ![0, 1776] S32x48.size inb_S32x2304_S32x48_0_1776).PackedRows (EltTy.packing .bf16)
  slices_S32x48x48_o0_38_0_S32x1x48 : S32x48x48.Slices ![0, 38, 0] S32x1x48
  inb_S32x2304_S32x48_0_1824 : ∀ a, (![0, 1824] : Fin 2 → Nat) a + S32x48.size a ≤ S32x2304.size a
  packedbf16_S32x2304_S32x48_0_1824 : (Rect.unit (s := S32x2304) ![0, 1824] S32x48.size inb_S32x2304_S32x48_0_1824).PackedRows (EltTy.packing .bf16)
  slices_S32x48x48_o0_39_0_S32x1x48 : S32x48x48.Slices ![0, 39, 0] S32x1x48
  inb_S32x2304_S32x48_0_1872 : ∀ a, (![0, 1872] : Fin 2 → Nat) a + S32x48.size a ≤ S32x2304.size a
  packedbf16_S32x2304_S32x48_0_1872 : (Rect.unit (s := S32x2304) ![0, 1872] S32x48.size inb_S32x2304_S32x48_0_1872).PackedRows (EltTy.packing .bf16)
  slices_S32x48x48_o0_40_0_S32x1x48 : S32x48x48.Slices ![0, 40, 0] S32x1x48
  inb_S32x2304_S32x48_0_1920 : ∀ a, (![0, 1920] : Fin 2 → Nat) a + S32x48.size a ≤ S32x2304.size a
  packedbf16_S32x2304_S32x48_0_1920 : (Rect.unit (s := S32x2304) ![0, 1920] S32x48.size inb_S32x2304_S32x48_0_1920).PackedRows (EltTy.packing .bf16)
  slices_S32x48x48_o0_41_0_S32x1x48 : S32x48x48.Slices ![0, 41, 0] S32x1x48
  inb_S32x2304_S32x48_0_1968 : ∀ a, (![0, 1968] : Fin 2 → Nat) a + S32x48.size a ≤ S32x2304.size a
  packedbf16_S32x2304_S32x48_0_1968 : (Rect.unit (s := S32x2304) ![0, 1968] S32x48.size inb_S32x2304_S32x48_0_1968).PackedRows (EltTy.packing .bf16)
  slices_S32x48x48_o0_42_0_S32x1x48 : S32x48x48.Slices ![0, 42, 0] S32x1x48
  inb_S32x2304_S32x48_0_2016 : ∀ a, (![0, 2016] : Fin 2 → Nat) a + S32x48.size a ≤ S32x2304.size a
  packedbf16_S32x2304_S32x48_0_2016 : (Rect.unit (s := S32x2304) ![0, 2016] S32x48.size inb_S32x2304_S32x48_0_2016).PackedRows (EltTy.packing .bf16)
  slices_S32x48x48_o0_43_0_S32x1x48 : S32x48x48.Slices ![0, 43, 0] S32x1x48
  inb_S32x2304_S32x48_0_2064 : ∀ a, (![0, 2064] : Fin 2 → Nat) a + S32x48.size a ≤ S32x2304.size a
  packedbf16_S32x2304_S32x48_0_2064 : (Rect.unit (s := S32x2304) ![0, 2064] S32x48.size inb_S32x2304_S32x48_0_2064).PackedRows (EltTy.packing .bf16)
  slices_S32x48x48_o0_44_0_S32x1x48 : S32x48x48.Slices ![0, 44, 0] S32x1x48
  inb_S32x2304_S32x48_0_2112 : ∀ a, (![0, 2112] : Fin 2 → Nat) a + S32x48.size a ≤ S32x2304.size a
  packedbf16_S32x2304_S32x48_0_2112 : (Rect.unit (s := S32x2304) ![0, 2112] S32x48.size inb_S32x2304_S32x48_0_2112).PackedRows (EltTy.packing .bf16)
  slices_S32x48x48_o0_45_0_S32x1x48 : S32x48x48.Slices ![0, 45, 0] S32x1x48
  inb_S32x2304_S32x48_0_2160 : ∀ a, (![0, 2160] : Fin 2 → Nat) a + S32x48.size a ≤ S32x2304.size a
  packedbf16_S32x2304_S32x48_0_2160 : (Rect.unit (s := S32x2304) ![0, 2160] S32x48.size inb_S32x2304_S32x48_0_2160).PackedRows (EltTy.packing .bf16)
  slices_S32x48x48_o0_46_0_S32x1x48 : S32x48x48.Slices ![0, 46, 0] S32x1x48
  inb_S32x2304_S32x48_0_2208 : ∀ a, (![0, 2208] : Fin 2 → Nat) a + S32x48.size a ≤ S32x2304.size a
  packedbf16_S32x2304_S32x48_0_2208 : (Rect.unit (s := S32x2304) ![0, 2208] S32x48.size inb_S32x2304_S32x48_0_2208).PackedRows (EltTy.packing .bf16)
  slices_S32x48x48_o0_47_0_S32x1x48 : S32x48x48.Slices ![0, 47, 0] S32x1x48
  inb_S32x2304_S32x48_0_2256 : ∀ a, (![0, 2256] : Fin 2 → Nat) a + S32x48.size a ≤ S32x2304.size a
  packedbf16_S32x2304_S32x48_0_2256 : (Rect.unit (s := S32x2304) ![0, 2256] S32x48.size inb_S32x2304_S32x48_0_2256).PackedRows (EltTy.packing .bf16)
  inb_S32x2304_S32x2304_0_0 : ∀ a, (![0, 0] : Fin 2 → Nat) a + S32x2304.size a ≤ S32x2304.size a
  h_S32x2304 : 0 < S32x2304.numel
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  reduces_S32x256_S32 : S32x256.Reduces [1] S32
  shapeCasts_S32_S32x1 : S32.ShapeCasts S32x1
  broadcasts_S32x1_S32x256 : S32x1.Broadcasts S32x256
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  slices_S32x2304_o0_0_S32x48 : S32x2304.Slices ![0, 0] S32x48
  inb_S32x48x48_S32x1x48_0_0_0 : ∀ a, (![0, 0, 0] : Fin 3 → Nat) a + S32x1x48.size a ≤ S32x48x48.size a
  h_S32x1x48 : 0 < S32x1x48.numel
  shapeCasts_S32x48_S32x1x48 : S32x48.ShapeCasts S32x1x48
  inb_S32x48x48_S32x2x48_0_0_0 : ∀ a, (![0, 0, 0] : Fin 3 → Nat) a + S32x2x48.size a ≤ S32x48x48.size a
  h_S32x2x48 : 0 < S32x2x48.numel
  slices_S32x2x48_S32x1x48_0_0_0 : S32x2x48.Slices ![0, 0, 0] S32x1x48
  packedbf16_S32x48x48_S32x2x48_0_0_0 : (Rect.unit (s := S32x48x48) ![0, 0, 0] S32x2x48.size inb_S32x48x48_S32x2x48_0_0_0).PackedRows (EltTy.packing .bf16)
  slices_S32x2304_o0_48_S32x48 : S32x2304.Slices ![0, 48] S32x48
  inb_S32x48x48_S32x1x48_0_1_0 : ∀ a, (![0, 1, 0] : Fin 3 → Nat) a + S32x1x48.size a ≤ S32x48x48.size a
  slices_S32x2x48_S32x1x48_0_1_0 : S32x2x48.Slices ![0, 1, 0] S32x1x48
  slices_S32x2304_o0_96_S32x48 : S32x2304.Slices ![0, 96] S32x48
  inb_S32x48x48_S32x1x48_0_2_0 : ∀ a, (![0, 2, 0] : Fin 3 → Nat) a + S32x1x48.size a ≤ S32x48x48.size a
  inb_S32x48x48_S32x2x48_0_2_0 : ∀ a, (![0, 2, 0] : Fin 3 → Nat) a + S32x2x48.size a ≤ S32x48x48.size a
  packedbf16_S32x48x48_S32x2x48_0_2_0 : (Rect.unit (s := S32x48x48) ![0, 2, 0] S32x2x48.size inb_S32x48x48_S32x2x48_0_2_0).PackedRows (EltTy.packing .bf16)
  slices_S32x2304_o0_144_S32x48 : S32x2304.Slices ![0, 144] S32x48
  inb_S32x48x48_S32x1x48_0_3_0 : ∀ a, (![0, 3, 0] : Fin 3 → Nat) a + S32x1x48.size a ≤ S32x48x48.size a
  slices_S32x2304_o0_192_S32x48 : S32x2304.Slices ![0, 192] S32x48
  inb_S32x48x48_S32x1x48_0_4_0 : ∀ a, (![0, 4, 0] : Fin 3 → Nat) a + S32x1x48.size a ≤ S32x48x48.size a
  inb_S32x48x48_S32x2x48_0_4_0 : ∀ a, (![0, 4, 0] : Fin 3 → Nat) a + S32x2x48.size a ≤ S32x48x48.size a
  packedbf16_S32x48x48_S32x2x48_0_4_0 : (Rect.unit (s := S32x48x48) ![0, 4, 0] S32x2x48.size inb_S32x48x48_S32x2x48_0_4_0).PackedRows (EltTy.packing .bf16)
  slices_S32x2304_o0_240_S32x48 : S32x2304.Slices ![0, 240] S32x48
  inb_S32x48x48_S32x1x48_0_5_0 : ∀ a, (![0, 5, 0] : Fin 3 → Nat) a + S32x1x48.size a ≤ S32x48x48.size a
  slices_S32x2304_o0_288_S32x48 : S32x2304.Slices ![0, 288] S32x48
  inb_S32x48x48_S32x1x48_0_6_0 : ∀ a, (![0, 6, 0] : Fin 3 → Nat) a + S32x1x48.size a ≤ S32x48x48.size a
  inb_S32x48x48_S32x2x48_0_6_0 : ∀ a, (![0, 6, 0] : Fin 3 → Nat) a + S32x2x48.size a ≤ S32x48x48.size a
  packedbf16_S32x48x48_S32x2x48_0_6_0 : (Rect.unit (s := S32x48x48) ![0, 6, 0] S32x2x48.size inb_S32x48x48_S32x2x48_0_6_0).PackedRows (EltTy.packing .bf16)
  slices_S32x2304_o0_336_S32x48 : S32x2304.Slices ![0, 336] S32x48
  inb_S32x48x48_S32x1x48_0_7_0 : ∀ a, (![0, 7, 0] : Fin 3 → Nat) a + S32x1x48.size a ≤ S32x48x48.size a
  slices_S32x2304_o0_384_S32x48 : S32x2304.Slices ![0, 384] S32x48
  inb_S32x48x48_S32x1x48_0_8_0 : ∀ a, (![0, 8, 0] : Fin 3 → Nat) a + S32x1x48.size a ≤ S32x48x48.size a
  inb_S32x48x48_S32x2x48_0_8_0 : ∀ a, (![0, 8, 0] : Fin 3 → Nat) a + S32x2x48.size a ≤ S32x48x48.size a
  packedbf16_S32x48x48_S32x2x48_0_8_0 : (Rect.unit (s := S32x48x48) ![0, 8, 0] S32x2x48.size inb_S32x48x48_S32x2x48_0_8_0).PackedRows (EltTy.packing .bf16)
  slices_S32x2304_o0_432_S32x48 : S32x2304.Slices ![0, 432] S32x48
  inb_S32x48x48_S32x1x48_0_9_0 : ∀ a, (![0, 9, 0] : Fin 3 → Nat) a + S32x1x48.size a ≤ S32x48x48.size a
  slices_S32x2304_o0_480_S32x48 : S32x2304.Slices ![0, 480] S32x48
  inb_S32x48x48_S32x1x48_0_10_0 : ∀ a, (![0, 10, 0] : Fin 3 → Nat) a + S32x1x48.size a ≤ S32x48x48.size a
  inb_S32x48x48_S32x2x48_0_10_0 : ∀ a, (![0, 10, 0] : Fin 3 → Nat) a + S32x2x48.size a ≤ S32x48x48.size a
  packedbf16_S32x48x48_S32x2x48_0_10_0 : (Rect.unit (s := S32x48x48) ![0, 10, 0] S32x2x48.size inb_S32x48x48_S32x2x48_0_10_0).PackedRows (EltTy.packing .bf16)
  slices_S32x2304_o0_528_S32x48 : S32x2304.Slices ![0, 528] S32x48
  inb_S32x48x48_S32x1x48_0_11_0 : ∀ a, (![0, 11, 0] : Fin 3 → Nat) a + S32x1x48.size a ≤ S32x48x48.size a
  slices_S32x2304_o0_576_S32x48 : S32x2304.Slices ![0, 576] S32x48
  inb_S32x48x48_S32x1x48_0_12_0 : ∀ a, (![0, 12, 0] : Fin 3 → Nat) a + S32x1x48.size a ≤ S32x48x48.size a
  inb_S32x48x48_S32x2x48_0_12_0 : ∀ a, (![0, 12, 0] : Fin 3 → Nat) a + S32x2x48.size a ≤ S32x48x48.size a
  packedbf16_S32x48x48_S32x2x48_0_12_0 : (Rect.unit (s := S32x48x48) ![0, 12, 0] S32x2x48.size inb_S32x48x48_S32x2x48_0_12_0).PackedRows (EltTy.packing .bf16)
  slices_S32x2304_o0_624_S32x48 : S32x2304.Slices ![0, 624] S32x48
  inb_S32x48x48_S32x1x48_0_13_0 : ∀ a, (![0, 13, 0] : Fin 3 → Nat) a + S32x1x48.size a ≤ S32x48x48.size a
  slices_S32x2304_o0_672_S32x48 : S32x2304.Slices ![0, 672] S32x48
  inb_S32x48x48_S32x1x48_0_14_0 : ∀ a, (![0, 14, 0] : Fin 3 → Nat) a + S32x1x48.size a ≤ S32x48x48.size a
  inb_S32x48x48_S32x2x48_0_14_0 : ∀ a, (![0, 14, 0] : Fin 3 → Nat) a + S32x2x48.size a ≤ S32x48x48.size a
  packedbf16_S32x48x48_S32x2x48_0_14_0 : (Rect.unit (s := S32x48x48) ![0, 14, 0] S32x2x48.size inb_S32x48x48_S32x2x48_0_14_0).PackedRows (EltTy.packing .bf16)
  slices_S32x2304_o0_720_S32x48 : S32x2304.Slices ![0, 720] S32x48
  inb_S32x48x48_S32x1x48_0_15_0 : ∀ a, (![0, 15, 0] : Fin 3 → Nat) a + S32x1x48.size a ≤ S32x48x48.size a
  slices_S32x2304_o0_768_S32x48 : S32x2304.Slices ![0, 768] S32x48
  inb_S32x48x48_S32x1x48_0_16_0 : ∀ a, (![0, 16, 0] : Fin 3 → Nat) a + S32x1x48.size a ≤ S32x48x48.size a
  inb_S32x48x48_S32x2x48_0_16_0 : ∀ a, (![0, 16, 0] : Fin 3 → Nat) a + S32x2x48.size a ≤ S32x48x48.size a
  packedbf16_S32x48x48_S32x2x48_0_16_0 : (Rect.unit (s := S32x48x48) ![0, 16, 0] S32x2x48.size inb_S32x48x48_S32x2x48_0_16_0).PackedRows (EltTy.packing .bf16)
  slices_S32x2304_o0_816_S32x48 : S32x2304.Slices ![0, 816] S32x48
  inb_S32x48x48_S32x1x48_0_17_0 : ∀ a, (![0, 17, 0] : Fin 3 → Nat) a + S32x1x48.size a ≤ S32x48x48.size a
  slices_S32x2304_o0_864_S32x48 : S32x2304.Slices ![0, 864] S32x48
  inb_S32x48x48_S32x1x48_0_18_0 : ∀ a, (![0, 18, 0] : Fin 3 → Nat) a + S32x1x48.size a ≤ S32x48x48.size a
  inb_S32x48x48_S32x2x48_0_18_0 : ∀ a, (![0, 18, 0] : Fin 3 → Nat) a + S32x2x48.size a ≤ S32x48x48.size a
  packedbf16_S32x48x48_S32x2x48_0_18_0 : (Rect.unit (s := S32x48x48) ![0, 18, 0] S32x2x48.size inb_S32x48x48_S32x2x48_0_18_0).PackedRows (EltTy.packing .bf16)
  slices_S32x2304_o0_912_S32x48 : S32x2304.Slices ![0, 912] S32x48
  inb_S32x48x48_S32x1x48_0_19_0 : ∀ a, (![0, 19, 0] : Fin 3 → Nat) a + S32x1x48.size a ≤ S32x48x48.size a
  slices_S32x2304_o0_960_S32x48 : S32x2304.Slices ![0, 960] S32x48
  inb_S32x48x48_S32x1x48_0_20_0 : ∀ a, (![0, 20, 0] : Fin 3 → Nat) a + S32x1x48.size a ≤ S32x48x48.size a
  inb_S32x48x48_S32x2x48_0_20_0 : ∀ a, (![0, 20, 0] : Fin 3 → Nat) a + S32x2x48.size a ≤ S32x48x48.size a
  packedbf16_S32x48x48_S32x2x48_0_20_0 : (Rect.unit (s := S32x48x48) ![0, 20, 0] S32x2x48.size inb_S32x48x48_S32x2x48_0_20_0).PackedRows (EltTy.packing .bf16)
  slices_S32x2304_o0_1008_S32x48 : S32x2304.Slices ![0, 1008] S32x48
  inb_S32x48x48_S32x1x48_0_21_0 : ∀ a, (![0, 21, 0] : Fin 3 → Nat) a + S32x1x48.size a ≤ S32x48x48.size a
  slices_S32x2304_o0_1056_S32x48 : S32x2304.Slices ![0, 1056] S32x48
  inb_S32x48x48_S32x1x48_0_22_0 : ∀ a, (![0, 22, 0] : Fin 3 → Nat) a + S32x1x48.size a ≤ S32x48x48.size a
  inb_S32x48x48_S32x2x48_0_22_0 : ∀ a, (![0, 22, 0] : Fin 3 → Nat) a + S32x2x48.size a ≤ S32x48x48.size a
  packedbf16_S32x48x48_S32x2x48_0_22_0 : (Rect.unit (s := S32x48x48) ![0, 22, 0] S32x2x48.size inb_S32x48x48_S32x2x48_0_22_0).PackedRows (EltTy.packing .bf16)
  slices_S32x2304_o0_1104_S32x48 : S32x2304.Slices ![0, 1104] S32x48
  inb_S32x48x48_S32x1x48_0_23_0 : ∀ a, (![0, 23, 0] : Fin 3 → Nat) a + S32x1x48.size a ≤ S32x48x48.size a
  slices_S32x2304_o0_1152_S32x48 : S32x2304.Slices ![0, 1152] S32x48
  inb_S32x48x48_S32x1x48_0_24_0 : ∀ a, (![0, 24, 0] : Fin 3 → Nat) a + S32x1x48.size a ≤ S32x48x48.size a
  inb_S32x48x48_S32x2x48_0_24_0 : ∀ a, (![0, 24, 0] : Fin 3 → Nat) a + S32x2x48.size a ≤ S32x48x48.size a
  packedbf16_S32x48x48_S32x2x48_0_24_0 : (Rect.unit (s := S32x48x48) ![0, 24, 0] S32x2x48.size inb_S32x48x48_S32x2x48_0_24_0).PackedRows (EltTy.packing .bf16)
  slices_S32x2304_o0_1200_S32x48 : S32x2304.Slices ![0, 1200] S32x48
  inb_S32x48x48_S32x1x48_0_25_0 : ∀ a, (![0, 25, 0] : Fin 3 → Nat) a + S32x1x48.size a ≤ S32x48x48.size a
  slices_S32x2304_o0_1248_S32x48 : S32x2304.Slices ![0, 1248] S32x48
  inb_S32x48x48_S32x1x48_0_26_0 : ∀ a, (![0, 26, 0] : Fin 3 → Nat) a + S32x1x48.size a ≤ S32x48x48.size a
  inb_S32x48x48_S32x2x48_0_26_0 : ∀ a, (![0, 26, 0] : Fin 3 → Nat) a + S32x2x48.size a ≤ S32x48x48.size a
  packedbf16_S32x48x48_S32x2x48_0_26_0 : (Rect.unit (s := S32x48x48) ![0, 26, 0] S32x2x48.size inb_S32x48x48_S32x2x48_0_26_0).PackedRows (EltTy.packing .bf16)
  slices_S32x2304_o0_1296_S32x48 : S32x2304.Slices ![0, 1296] S32x48
  inb_S32x48x48_S32x1x48_0_27_0 : ∀ a, (![0, 27, 0] : Fin 3 → Nat) a + S32x1x48.size a ≤ S32x48x48.size a
  slices_S32x2304_o0_1344_S32x48 : S32x2304.Slices ![0, 1344] S32x48
  inb_S32x48x48_S32x1x48_0_28_0 : ∀ a, (![0, 28, 0] : Fin 3 → Nat) a + S32x1x48.size a ≤ S32x48x48.size a
  inb_S32x48x48_S32x2x48_0_28_0 : ∀ a, (![0, 28, 0] : Fin 3 → Nat) a + S32x2x48.size a ≤ S32x48x48.size a
  packedbf16_S32x48x48_S32x2x48_0_28_0 : (Rect.unit (s := S32x48x48) ![0, 28, 0] S32x2x48.size inb_S32x48x48_S32x2x48_0_28_0).PackedRows (EltTy.packing .bf16)
  slices_S32x2304_o0_1392_S32x48 : S32x2304.Slices ![0, 1392] S32x48
  inb_S32x48x48_S32x1x48_0_29_0 : ∀ a, (![0, 29, 0] : Fin 3 → Nat) a + S32x1x48.size a ≤ S32x48x48.size a
  slices_S32x2304_o0_1440_S32x48 : S32x2304.Slices ![0, 1440] S32x48
  inb_S32x48x48_S32x1x48_0_30_0 : ∀ a, (![0, 30, 0] : Fin 3 → Nat) a + S32x1x48.size a ≤ S32x48x48.size a
  inb_S32x48x48_S32x2x48_0_30_0 : ∀ a, (![0, 30, 0] : Fin 3 → Nat) a + S32x2x48.size a ≤ S32x48x48.size a
  packedbf16_S32x48x48_S32x2x48_0_30_0 : (Rect.unit (s := S32x48x48) ![0, 30, 0] S32x2x48.size inb_S32x48x48_S32x2x48_0_30_0).PackedRows (EltTy.packing .bf16)
  slices_S32x2304_o0_1488_S32x48 : S32x2304.Slices ![0, 1488] S32x48
  inb_S32x48x48_S32x1x48_0_31_0 : ∀ a, (![0, 31, 0] : Fin 3 → Nat) a + S32x1x48.size a ≤ S32x48x48.size a
  slices_S32x2304_o0_1536_S32x48 : S32x2304.Slices ![0, 1536] S32x48
  inb_S32x48x48_S32x1x48_0_32_0 : ∀ a, (![0, 32, 0] : Fin 3 → Nat) a + S32x1x48.size a ≤ S32x48x48.size a
  inb_S32x48x48_S32x2x48_0_32_0 : ∀ a, (![0, 32, 0] : Fin 3 → Nat) a + S32x2x48.size a ≤ S32x48x48.size a
  packedbf16_S32x48x48_S32x2x48_0_32_0 : (Rect.unit (s := S32x48x48) ![0, 32, 0] S32x2x48.size inb_S32x48x48_S32x2x48_0_32_0).PackedRows (EltTy.packing .bf16)
  slices_S32x2304_o0_1584_S32x48 : S32x2304.Slices ![0, 1584] S32x48
  inb_S32x48x48_S32x1x48_0_33_0 : ∀ a, (![0, 33, 0] : Fin 3 → Nat) a + S32x1x48.size a ≤ S32x48x48.size a
  slices_S32x2304_o0_1632_S32x48 : S32x2304.Slices ![0, 1632] S32x48
  inb_S32x48x48_S32x1x48_0_34_0 : ∀ a, (![0, 34, 0] : Fin 3 → Nat) a + S32x1x48.size a ≤ S32x48x48.size a
  inb_S32x48x48_S32x2x48_0_34_0 : ∀ a, (![0, 34, 0] : Fin 3 → Nat) a + S32x2x48.size a ≤ S32x48x48.size a
  packedbf16_S32x48x48_S32x2x48_0_34_0 : (Rect.unit (s := S32x48x48) ![0, 34, 0] S32x2x48.size inb_S32x48x48_S32x2x48_0_34_0).PackedRows (EltTy.packing .bf16)
  slices_S32x2304_o0_1680_S32x48 : S32x2304.Slices ![0, 1680] S32x48
  inb_S32x48x48_S32x1x48_0_35_0 : ∀ a, (![0, 35, 0] : Fin 3 → Nat) a + S32x1x48.size a ≤ S32x48x48.size a
  slices_S32x2304_o0_1728_S32x48 : S32x2304.Slices ![0, 1728] S32x48
  inb_S32x48x48_S32x1x48_0_36_0 : ∀ a, (![0, 36, 0] : Fin 3 → Nat) a + S32x1x48.size a ≤ S32x48x48.size a
  inb_S32x48x48_S32x2x48_0_36_0 : ∀ a, (![0, 36, 0] : Fin 3 → Nat) a + S32x2x48.size a ≤ S32x48x48.size a
  packedbf16_S32x48x48_S32x2x48_0_36_0 : (Rect.unit (s := S32x48x48) ![0, 36, 0] S32x2x48.size inb_S32x48x48_S32x2x48_0_36_0).PackedRows (EltTy.packing .bf16)
  slices_S32x2304_o0_1776_S32x48 : S32x2304.Slices ![0, 1776] S32x48
  inb_S32x48x48_S32x1x48_0_37_0 : ∀ a, (![0, 37, 0] : Fin 3 → Nat) a + S32x1x48.size a ≤ S32x48x48.size a
  slices_S32x2304_o0_1824_S32x48 : S32x2304.Slices ![0, 1824] S32x48
  inb_S32x48x48_S32x1x48_0_38_0 : ∀ a, (![0, 38, 0] : Fin 3 → Nat) a + S32x1x48.size a ≤ S32x48x48.size a
  inb_S32x48x48_S32x2x48_0_38_0 : ∀ a, (![0, 38, 0] : Fin 3 → Nat) a + S32x2x48.size a ≤ S32x48x48.size a
  packedbf16_S32x48x48_S32x2x48_0_38_0 : (Rect.unit (s := S32x48x48) ![0, 38, 0] S32x2x48.size inb_S32x48x48_S32x2x48_0_38_0).PackedRows (EltTy.packing .bf16)
  slices_S32x2304_o0_1872_S32x48 : S32x2304.Slices ![0, 1872] S32x48
  inb_S32x48x48_S32x1x48_0_39_0 : ∀ a, (![0, 39, 0] : Fin 3 → Nat) a + S32x1x48.size a ≤ S32x48x48.size a
  slices_S32x2304_o0_1920_S32x48 : S32x2304.Slices ![0, 1920] S32x48
  inb_S32x48x48_S32x1x48_0_40_0 : ∀ a, (![0, 40, 0] : Fin 3 → Nat) a + S32x1x48.size a ≤ S32x48x48.size a
  inb_S32x48x48_S32x2x48_0_40_0 : ∀ a, (![0, 40, 0] : Fin 3 → Nat) a + S32x2x48.size a ≤ S32x48x48.size a
  packedbf16_S32x48x48_S32x2x48_0_40_0 : (Rect.unit (s := S32x48x48) ![0, 40, 0] S32x2x48.size inb_S32x48x48_S32x2x48_0_40_0).PackedRows (EltTy.packing .bf16)
  slices_S32x2304_o0_1968_S32x48 : S32x2304.Slices ![0, 1968] S32x48
  inb_S32x48x48_S32x1x48_0_41_0 : ∀ a, (![0, 41, 0] : Fin 3 → Nat) a + S32x1x48.size a ≤ S32x48x48.size a
  slices_S32x2304_o0_2016_S32x48 : S32x2304.Slices ![0, 2016] S32x48
  inb_S32x48x48_S32x1x48_0_42_0 : ∀ a, (![0, 42, 0] : Fin 3 → Nat) a + S32x1x48.size a ≤ S32x48x48.size a
  inb_S32x48x48_S32x2x48_0_42_0 : ∀ a, (![0, 42, 0] : Fin 3 → Nat) a + S32x2x48.size a ≤ S32x48x48.size a
  packedbf16_S32x48x48_S32x2x48_0_42_0 : (Rect.unit (s := S32x48x48) ![0, 42, 0] S32x2x48.size inb_S32x48x48_S32x2x48_0_42_0).PackedRows (EltTy.packing .bf16)
  slices_S32x2304_o0_2064_S32x48 : S32x2304.Slices ![0, 2064] S32x48
  inb_S32x48x48_S32x1x48_0_43_0 : ∀ a, (![0, 43, 0] : Fin 3 → Nat) a + S32x1x48.size a ≤ S32x48x48.size a
  slices_S32x2304_o0_2112_S32x48 : S32x2304.Slices ![0, 2112] S32x48
  inb_S32x48x48_S32x1x48_0_44_0 : ∀ a, (![0, 44, 0] : Fin 3 → Nat) a + S32x1x48.size a ≤ S32x48x48.size a
  inb_S32x48x48_S32x2x48_0_44_0 : ∀ a, (![0, 44, 0] : Fin 3 → Nat) a + S32x2x48.size a ≤ S32x48x48.size a
  packedbf16_S32x48x48_S32x2x48_0_44_0 : (Rect.unit (s := S32x48x48) ![0, 44, 0] S32x2x48.size inb_S32x48x48_S32x2x48_0_44_0).PackedRows (EltTy.packing .bf16)
  slices_S32x2304_o0_2160_S32x48 : S32x2304.Slices ![0, 2160] S32x48
  inb_S32x48x48_S32x1x48_0_45_0 : ∀ a, (![0, 45, 0] : Fin 3 → Nat) a + S32x1x48.size a ≤ S32x48x48.size a
  slices_S32x2304_o0_2208_S32x48 : S32x2304.Slices ![0, 2208] S32x48
  inb_S32x48x48_S32x1x48_0_46_0 : ∀ a, (![0, 46, 0] : Fin 3 → Nat) a + S32x1x48.size a ≤ S32x48x48.size a
  inb_S32x48x48_S32x2x48_0_46_0 : ∀ a, (![0, 46, 0] : Fin 3 → Nat) a + S32x2x48.size a ≤ S32x48x48.size a
  packedbf16_S32x48x48_S32x2x48_0_46_0 : (Rect.unit (s := S32x48x48) ![0, 46, 0] S32x2x48.size inb_S32x48x48_S32x2x48_0_46_0).PackedRows (EltTy.packing .bf16)
  slices_S32x2304_o0_2256_S32x48 : S32x2304.Slices ![0, 2256] S32x48
  inb_S32x48x48_S32x1x48_0_47_0 : ∀ a, (![0, 47, 0] : Fin 3 → Nat) a + S32x1x48.size a ≤ S32x48x48.size a
  inb_S32x48x48_S32x48x48_0_0_0 : ∀ a, (![0, 0, 0] : Fin 3 → Nat) a + S32x48x48.size a ≤ S32x48x48.size a
  h_S32x48x48 : 0 < S32x48x48.numel
  shapeCasts_S32x48x48_S1536x48 : S32x48x48.ShapeCasts S1536x48
  inb_S48x192_S48x192_0_0 : ∀ a, (![0, 0] : Fin 2 → Nat) a + S48x192.size a ≤ S48x192.size a
  h_S48x192 : 0 < S48x192.numel
  shapeCasts_S48x192_S48x192 : S48x192.ShapeCasts S48x192
  shapeCasts_S1536x192_S32x48x192 : S1536x192.ShapeCasts S32x48x192
  transposes_S32x48x192_p0_2_1_S32x192x48 : S32x48x192.Transposes [0, 2, 1] S32x192x48
  shapeCasts_S32x192x48_S6144x48 : S32x192x48.ShapeCasts S6144x48
  shapeCasts_S393216x192_S2048x36864 : S393216x192.ShapeCasts S2048x36864
  dot_S6144x192_S192x48_S6144x48_1_0_0_1_n_n_wf : DotDims.WF S6144x192 S192x48 S6144x48 [1] [0] [0] [1] [] []
  dot_S1536x192_S192x48_S1536x48_1_0_0_1_n_n_wf : DotDims.WF S1536x192 S192x48 S1536x48 [1] [0] [0] [1] [] []
  dot_S32x2304_S2304x256_S32x256_1_0_0_1_n_n_wf : DotDims.WF S32x2304 S2304x256 S32x256 [1] [0] [0] [1] [] []
  dot_S32x256_S256x2304_S32x2304_1_0_0_1_n_n_wf : DotDims.WF S32x256 S256x2304 S32x2304 [1] [0] [0] [1] [] []
  dot_S1536x48_S48x192_S1536x192_1_0_0_1_n_n_wf : DotDims.WF S1536x48 S48x192 S1536x192 [1] [0] [0] [1] [] []
  dot_S6144x48_S48x192_S6144x192_1_0_0_1_n_n_wf : DotDims.WF S6144x48 S48x192 S6144x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6144x192.size a ≤ S393216x192.size a
  hwx0_0 : ∀ i : grid0.Coords, EltTy.bits .f32 = 32 ∨ (Rect.block (s := S393216x192) S6144x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x48.size a ≤ S192x48.size a
  hwx0_1 : ∀ i : grid0.Coords, EltTy.bits .bf16 = 32 ∨ (Rect.block (s := S192x48) S192x48.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x48.size a ≤ S192x48.size a
  hwx0_2 : ∀ i : grid0.Coords, EltTy.bits .bf16 = 32 ∨ (Rect.block (s := S192x48) S192x48.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2304x256.size a ≤ S2304x256.size a
  hwx0_3 : ∀ i : grid0.Coords, EltTy.bits .bf16 = 32 ∨ (Rect.block (s := S2304x256) S2304x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2304.size a ≤ S256x2304.size a
  hwx0_4 : ∀ i : grid0.Coords, EltTy.bits .bf16 = 32 ∨ (Rect.block (s := S256x2304) S256x2304.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x192.size a ≤ S48x192.size a
  hwx0_5 : ∀ i : grid0.Coords, EltTy.bits .bf16 = 32 ∨ (Rect.block (s := S48x192) S48x192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48x192.size a ≤ S48x192.size a
  hwx0_6 : ∀ i : grid0.Coords, EltTy.bits .bf16 = 32 ∨ (Rect.block (s := S48x192) S48x192.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6144x192.size a ≤ S393216x192.size a
  hwx0_7 : ∀ i : grid0.Coords, EltTy.bits .f32 = 32 ∨ (Rect.block (s := S393216x192) S6144x192.size (cc0_transform_7 i) (hinb0_7 i)).WholeWords (EltTy.packing .f32)

variable [Facts₀]

def dot_S6144x192_S192x48_S6144x48_1_0_0_1_n_n : DotDims S6144x192 S192x48 S6144x48 where
  lhsContracting := [1]
  rhsContracting := [0]
  lhsNonContracting := [0]
  rhsNonContracting := [1]
  lhsBatch := []
  rhsBatch := []
  wf := dot_S6144x192_S192x48_S6144x48_1_0_0_1_n_n_wf
def dot_S1536x192_S192x48_S1536x48_1_0_0_1_n_n : DotDims S1536x192 S192x48 S1536x48 where
  lhsContracting := [1]
  rhsContracting := [0]
  lhsNonContracting := [0]
  rhsNonContracting := [1]
  lhsBatch := []
  rhsBatch := []
  wf := dot_S1536x192_S192x48_S1536x48_1_0_0_1_n_n_wf
def dot_S32x2304_S2304x256_S32x256_1_0_0_1_n_n : DotDims S32x2304 S2304x256 S32x256 where
  lhsContracting := [1]
  rhsContracting := [0]
  lhsNonContracting := [0]
  rhsNonContracting := [1]
  lhsBatch := []
  rhsBatch := []
  wf := dot_S32x2304_S2304x256_S32x256_1_0_0_1_n_n_wf
def dot_S32x256_S256x2304_S32x2304_1_0_0_1_n_n : DotDims S32x256 S256x2304 S32x2304 where
  lhsContracting := [1]
  rhsContracting := [0]
  lhsNonContracting := [0]
  rhsNonContracting := [1]
  lhsBatch := []
  rhsBatch := []
  wf := dot_S32x256_S256x2304_S32x2304_1_0_0_1_n_n_wf
def dot_S1536x48_S48x192_S1536x192_1_0_0_1_n_n : DotDims S1536x48 S48x192 S1536x192 where
  lhsContracting := [1]
  rhsContracting := [0]
  lhsNonContracting := [0]
  rhsNonContracting := [1]
  lhsBatch := []
  rhsBatch := []
  wf := dot_S1536x48_S48x192_S1536x192_1_0_0_1_n_n_wf
def dot_S6144x48_S48x192_S6144x192_1_0_0_1_n_n : DotDims S6144x48 S48x192 S6144x192 where
  lhsContracting := [1]
  rhsContracting := [0]
  lhsNonContracting := [0]
  rhsNonContracting := [1]
  lhsBatch := []
  rhsBatch := []
  wf := dot_S6144x48_S48x192_S6144x192_1_0_0_1_n_n_wf

abbrev win0_0 : Pipeline.Window sig grid0 :=
  Pipeline.Window.ofSpec (Memref.whole main_v39) S6144x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S192x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S192x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2304x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x2304.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S48x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S48x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S6144x192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x36864 : Shape := ⟨2, ![2048, 36864]⟩
abbrev S192x48 : Shape := ⟨2, ![192, 48]⟩
abbrev S256x2304 : Shape := ⟨2, ![256, 2304]⟩
abbrev S48x192 : Shape := ⟨2, ![48, 192]⟩
abbrev S2304x256 : Shape := ⟨2, ![2304, 256]⟩
abbrev S48x1x192x1 : Shape := ⟨4, ![48, 1, 192, 1]⟩
abbrev S1x48x1x192 : Shape := ⟨4, ![1, 48, 1, 192]⟩
abbrev S48x48x192x192 : Shape := ⟨4, ![48, 48, 192, 192]⟩
abbrev S2304x36864 : Shape := ⟨2, ![2304, 36864]⟩
abbrev S36864x2048 : Shape := ⟨2, ![36864, 2048]⟩
abbrev S2304x2048 : Shape := ⟨2, ![2304, 2048]⟩
abbrev S256x2048 : Shape := ⟨2, ![256, 2048]⟩
abbrev S2048x256 : Shape := ⟨2, ![2048, 256]⟩
abbrev S_ : Shape := ⟨0, ![]⟩
abbrev S192 : Shape := ⟨1, ![192]⟩
abbrev S192x1 : Shape := ⟨2, ![192, 1]⟩
abbrev S192x1x48x1 : Shape := ⟨4, ![192, 1, 48, 1]⟩
abbrev S1x192x1x48 : Shape := ⟨4, ![1, 192, 1, 48]⟩
abbrev S192x192x48x48 : Shape := ⟨4, ![192, 192, 48, 48]⟩
abbrev S36864x2304 : Shape := ⟨2, ![36864, 2304]⟩
abbrev S2048 : Shape := ⟨1, ![2048]⟩
abbrev S2048x1 : Shape := ⟨2, ![2048, 1]⟩
abbrev S2048x2304 : Shape := ⟨2, ![2048, 2304]⟩

abbrev nBuf : Space → Nat
  | .hbm => 72
  | .vmem => 0
  | .smem => 0
  | _ => 0

abbrev bufTy : (tb : Table) → Fin (tcTables nBuf tb) → BufTy
  | .hbm, ⟨0, _⟩ => ⟨S2048x36864, .f32⟩
  | .hbm, ⟨1, _⟩ => ⟨S192x48, .f32⟩
  | .hbm, ⟨2, _⟩ => ⟨S192x48, .f32⟩
  | .hbm, ⟨3, _⟩ => ⟨S256x2304, .f32⟩
  | .hbm, ⟨4, _⟩ => ⟨S48x192, .f32⟩
  | .hbm, ⟨5, _⟩ => ⟨S48x192, .f32⟩
  | .hbm, ⟨6, _⟩ => ⟨S2304x256, .f32⟩
  | .hbm, ⟨7, _⟩ => ⟨S48x1x192x1, .f32⟩
  | .hbm, ⟨8, _⟩ => ⟨S1x48x1x192, .f32⟩
  | .hbm, ⟨9, _⟩ => ⟨S48x48x192x192, .f32⟩
  | .hbm, ⟨10, _⟩ => ⟨S48x48x192x192, .f32⟩
  | .hbm, ⟨11, _⟩ => ⟨S48x48x192x192, .f32⟩
  | .hbm, ⟨12, _⟩ => ⟨S2304x36864, .f32⟩
  | .hbm, ⟨13, _⟩ => ⟨S256x2304, .f32⟩
  | .hbm, ⟨14, _⟩ => ⟨S36864x2048, .f32⟩
  | .hbm, ⟨15, _⟩ => ⟨S2304x2048, .f32⟩
  | .hbm, ⟨16, _⟩ => ⟨S256x2048, .f32⟩
  | .hbm, ⟨17, _⟩ => ⟨S2048x256, .f32⟩
  | .hbm, ⟨18, _⟩ => ⟨S_, .f32⟩
  | .hbm, ⟨19, _⟩ => ⟨S192, .f32⟩
  | .hbm, ⟨20, _⟩ => ⟨S_, .f32⟩
  | .hbm, ⟨21, _⟩ => ⟨S192, .f32⟩
  | .hbm, ⟨22, _⟩ => ⟨S192, .f32⟩
  | .hbm, ⟨23, _⟩ => ⟨S192x1, .f32⟩
  | .hbm, ⟨24, _⟩ => ⟨S192x48, .f32⟩
  | .hbm, ⟨25, _⟩ => ⟨S192x48, .f32⟩
  | .hbm, ⟨26, _⟩ => ⟨S192x48, .f32⟩
  | .hbm, ⟨27, _⟩ => ⟨S_, .f32⟩
  | .hbm, ⟨28, _⟩ => ⟨S192, .f32⟩
  | .hbm, ⟨29, _⟩ => ⟨S192x1, .f32⟩
  | .hbm, ⟨30, _⟩ => ⟨S192x48, .f32⟩
  | .hbm, ⟨31, _⟩ => ⟨S192x48, .f32⟩
  | .hbm, ⟨32, _⟩ => ⟨S_, .f32⟩
  | .hbm, ⟨33, _⟩ => ⟨S192, .f32⟩
  | .hbm, ⟨34, _⟩ => ⟨S_, .f32⟩
  | .hbm, ⟨35, _⟩ => ⟨S192, .f32⟩
  | .hbm, ⟨36, _⟩ => ⟨S192, .f32⟩
  | .hbm, ⟨37, _⟩ => ⟨S192x1, .f32⟩
  | .hbm, ⟨38, _⟩ => ⟨S192x48, .f32⟩
  | .hbm, ⟨39, _⟩ => ⟨S192x48, .f32⟩
  | .hbm, ⟨40, _⟩ => ⟨S192x48, .f32⟩
  | .hbm, ⟨41, _⟩ => ⟨S_, .f32⟩
  | .hbm, ⟨42, _⟩ => ⟨S192, .f32⟩
  | .hbm, ⟨43, _⟩ => ⟨S192x1, .f32⟩
  | .hbm, ⟨44, _⟩ => ⟨S192x48, .f32⟩
  | .hbm, ⟨45, _⟩ => ⟨S192x48, .f32⟩
  | .hbm, ⟨46, _⟩ => ⟨S192x1x48x1, .f32⟩
  | .hbm, ⟨47, _⟩ => ⟨S1x192x1x48, .f32⟩
  | .hbm, ⟨48, _⟩ => ⟨S192x192x48x48, .f32⟩
  | .hbm, ⟨49, _⟩ => ⟨S192x192x48x48, .f32⟩
  | .hbm, ⟨50, _⟩ => ⟨S192x192x48x48, .f32⟩
  | .hbm, ⟨51, _⟩ => ⟨S36864x2304, .f32⟩
  | .hbm, ⟨52, _⟩ => ⟨S_, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S2048x1, .f32⟩
  | .hbm, ⟨58, _⟩ => ⟨S2048x256, .f32⟩
  | .hbm, ⟨59, _⟩ => ⟨S2048x256, .f32⟩
  | .hbm, ⟨60, _⟩ => ⟨S2048x256, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x256, .f32⟩
  | .hbm, ⟨65, _⟩ => ⟨S2048x256, .f32⟩
  | .hbm, ⟨66, _⟩ => ⟨S_, .f32⟩
  | .hbm, ⟨67, _⟩ => ⟨S256x2304, .f32⟩
  | .hbm, ⟨68, _⟩ => ⟨S256x2304, .f32⟩
  | .hbm, ⟨69, _⟩ => ⟨S2048x2304, .f32⟩
  | .hbm, ⟨70, _⟩ => ⟨S2304x36864, .f32⟩
  | .hbm, ⟨71, _⟩ => ⟨S2048x36864, .f32⟩
  | _, _ => ⟨S2048x36864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]

class Facts₀ : Prop where
  bcast_S48x192_S48x1x192x1_0_2 : S48x192.BroadcastsInDim S48x1x192x1 (![0, 2] : Fin 2 → Fin S48x1x192x1.rank)
  bcast_S48x192_S1x48x1x192_1_3 : S48x192.BroadcastsInDim S1x48x1x192 (![1, 3] : Fin 2 → Fin S1x48x1x192.rank)
  bcast_S48x1x192x1_S48x48x192x192_0_1_2_3 : S48x1x192x1.BroadcastsInDim S48x48x192x192 (![0, 1, 2, 3] : Fin 4 → Fin S48x48x192x192.rank)
  bcast_S1x48x1x192_S48x48x192x192_0_1_2_3 : S1x48x1x192.BroadcastsInDim S48x48x192x192 (![0, 1, 2, 3] : Fin 4 → Fin S48x48x192x192.rank)
  shapeCasts_S48x48x192x192_S2304x36864 : S48x48x192x192.ShapeCasts S2304x36864
  transposes_S2304x256_S256x2304_1_0 : S2304x256.Transposes [1, 0] S256x2304
  transposes_S2048x36864_S36864x2048_1_0 : S2048x36864.Transposes [1, 0] S36864x2048
  transposes_S256x2048_S2048x256_1_0 : S256x2048.Transposes [1, 0] S2048x256
  reducesTo_S192x48_S192_d1 : S192x48.ReducesTo [1] S192
  h_S_ : 0 < S_.numel
  bcast_S_S192 : S_.BroadcastsInDim S192 (![] : Fin 0 → Fin S192.rank)
  bcast_S192_S192x1_0 : S192.BroadcastsInDim S192x1 (![0] : Fin 1 → Fin S192x1.rank)
  bcast_S192x1_S192x48_0_1 : S192x1.BroadcastsInDim S192x48 (![0, 1] : Fin 2 → Fin S192x48.rank)
  bcast_S192x48_S192x1x48x1_0_2 : S192x48.BroadcastsInDim S192x1x48x1 (![0, 2] : Fin 2 → Fin S192x1x48x1.rank)
  bcast_S192x48_S1x192x1x48_1_3 : S192x48.BroadcastsInDim S1x192x1x48 (![1, 3] : Fin 2 → Fin S1x192x1x48.rank)
  bcast_S192x1x48x1_S192x192x48x48_0_1_2_3 : S192x1x48x1.BroadcastsInDim S192x192x48x48 (![0, 1, 2, 3] : Fin 4 → Fin S192x192x48x48.rank)
  bcast_S1x192x1x48_S192x192x48x48_0_1_2_3 : S1x192x1x48.BroadcastsInDim S192x192x48x48 (![0, 1, 2, 3] : Fin 4 → Fin S192x192x48x48.rank)
  shapeCasts_S192x192x48x48_S36864x2304 : S192x192x48x48.ShapeCasts S36864x2304
  reducesTo_S2048x256_S2048_d1 : S2048x256.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S_S256x2304 : S_.BroadcastsInDim S256x2304 (![] : Fin 0 → Fin S256x2304.rank)
  transposes_S36864x2304_S2304x36864_1_0 : S36864x2304.Transposes [1, 0] S2304x36864
  dot_S2304x36864_S36864x2048_S2304x2048_1_0_0_1_n_n_wf : DotDims.WF S2304x36864 S36864x2048 S2304x2048 [1] [0] [0] [1] [] []
  dot_S256x2304_S2304x2048_S256x2048_1_0_0_1_n_n_wf : DotDims.WF S256x2304 S2304x2048 S256x2048 [1] [0] [0] [1] [] []
  dot_S2048x256_S256x2304_S2048x2304_1_0_0_1_n_n_wf : DotDims.WF S2048x256 S256x2304 S2048x2304 [1] [0] [0] [1] [] []
  dot_S2048x2304_S2304x36864_S2048x36864_1_0_0_1_n_n_wf : DotDims.WF S2048x2304 S2304x36864 S2048x36864 [1] [0] [0] [1] [] []

variable [Facts₀]

def dot_S2304x36864_S36864x2048_S2304x2048_1_0_0_1_n_n : DotDims S2304x36864 S36864x2048 S2304x2048 where
  lhsContracting := [1]
  rhsContracting := [0]
  lhsNonContracting := [0]
  rhsNonContracting := [1]
  lhsBatch := []
  rhsBatch := []
  wf := dot_S2304x36864_S36864x2048_S2304x2048_1_0_0_1_n_n_wf
def dot_S256x2304_S2304x2048_S256x2048_1_0_0_1_n_n : DotDims S256x2304 S2304x2048 S256x2048 where
  lhsContracting := [1]
  rhsContracting := [0]
  lhsNonContracting := [0]
  rhsNonContracting := [1]
  lhsBatch := []
  rhsBatch := []
  wf := dot_S256x2304_S2304x2048_S256x2048_1_0_0_1_n_n_wf
def dot_S2048x256_S256x2304_S2048x2304_1_0_0_1_n_n : DotDims S2048x256 S256x2304 S2048x2304 where
  lhsContracting := [1]
  rhsContracting := [0]
  lhsNonContracting := [0]
  rhsNonContracting := [1]
  lhsBatch := []
  rhsBatch := []
  wf := dot_S2048x256_S256x2304_S2048x2304_1_0_0_1_n_n_wf
def dot_S2048x2304_S2304x36864_S2048x36864_1_0_0_1_n_n : DotDims S2048x2304 S2304x36864 S2048x36864 where
  lhsContracting := [1]
  rhsContracting := [0]
  lhsNonContracting := [0]
  rhsNonContracting := [1]
  lhsBatch := []
  rhsBatch := []
  wf := dot_S2048x2304_S2304x36864_S2048x36864_1_0_0_1_n_n_wf

class Facts : Prop extends Facts₀ where

variable [Facts]
-- ==== Proof.LibShadow.lean ====
/-
  Stores that hide stores.

  The contents a list of stores leaves (the canon: at each index the payload of the LAST store that covers it) do
  not see a store whose whole rectangle the next store overwrites.  A buffer filled two rows at a time, each pair
  of rows written by two read-modify-write stores of the same two-row rectangle (the first puts row 0 and keeps
  what it found in row 1, the second puts row 1 and keeps row 0), ends at contents that do not depend on what
  the buffer held before: the second store's payload is the first row and the second row, whatever was found.
-/
import Idealize.ShloMosaic.Lib.Pipeline.FrameBody
import Idealize.ShloMosaic.Lib.Pipeline.Value

noncomputable section

namespace Cert.Shadow

open Idealize.ShloMosaic Idealize.ShloMosaic.View

variable {Val : EltTy → Type} {s : Shape} {e : EltTy} [∀ e, Nonempty (Val e)]

/-- A store into the rectangle of the store made just before it hides that store. -/
theorem canon_cons_cons_same (r : Rect s) (w w' : r.shape.Idx → Val e) (L : List (Piece Val s e)) :
    canon (⟨r, w⟩ :: ⟨r, w'⟩ :: L) = canon (⟨r, w⟩ :: L) := by
  funext y
  by_cases hy : y ∈ r.set
  · obtain ⟨x, rfl⟩ := r.exists_idx_of_mem hy
    rw [show r.idx x = r.emb x from rfl, canon_cons_emb, canon_cons_emb]
  · rw [canon_cons_of_not_mem _ _ hy, canon_cons_of_not_mem _ _ hy, canon_cons_of_not_mem _ _ hy]

/-- Two lists of stores made in pairs, each pair into one rectangle, that agree in the later store of every pair. -/
def PairsRel : List (Piece Val s e) → List (Piece Val s e) → Prop
  | [], [] => True
  | p :: q :: L, p' :: q' :: L' => q.1 = p.1 ∧ q'.1 = p'.1 ∧ p = p' ∧ PairsRel L L'
  | _, _ => False

/-- Such lists leave the same contents: the earlier store of each pair is hidden. -/
theorem canon_eq_of_pairsRel : ∀ (L L' : List (Piece Val s e)), PairsRel L L' → canon L = canon L'
  | [], [], _ => rfl
  | [], _ :: _, h => absurd h (by simp [PairsRel])
  | [_], _, h => absurd h (by simp [PairsRel])
  | _ :: _ :: _, [], h => absurd h (by simp [PairsRel])
  | _ :: _ :: _, [_], h => absurd h (by simp [PairsRel])
  | ⟨r, w⟩ :: ⟨r1, w1⟩ :: L, ⟨r', w'⟩ :: ⟨r1', w1'⟩ :: L', h => by
    obtain ⟨h1, h2, h3, h4⟩ := h
    dsimp only at h1 h2
    subst h1 h2
    rw [canon_cons_cons_same, canon_cons_cons_same, h3, canon_cons, canon_cons, canon_eq_of_pairsRel L L' h4]

/-- Two rows put one after the other into a two-row block: the block no longer depends on what it held. -/
theorem updateSlice_rows {α : Type} {n c : Nat} (o o' : (⟨3, ![n, 2, c]⟩ : Shape).Idx → α)
    (a b : (⟨3, ![n, 1, c]⟩ : Shape).Idx → α)
    (h0 : (⟨3, ![n, 2, c]⟩ : Shape).Slices ![0, 0, 0] (⟨3, ![n, 1, c]⟩ : Shape))
    (h1 : (⟨3, ![n, 2, c]⟩ : Shape).Slices ![0, 1, 0] (⟨3, ![n, 1, c]⟩ : Shape)) :
    updateSlice (updateSlice o a ![0, 0, 0] h0) b ![0, 1, 0] h1
      = updateSlice (updateSlice o' a ![0, 0, 0] h0) b ![0, 1, 0] h1 := by
  funext i
  have hi1 : (i 1).val < 2 := (i 1).isLt
  have hi0 : (i 0).val < n := (i 0).isLt
  have hi2 : (i 2).val < c := (i 2).isLt
  unfold updateSlice
  split_ifs with hb ha
  · rfl
  · rfl
  · exfalso
    apply ha
    intro d
    have hbd : ¬ (i 1).val = 1 := by
      intro h1'
      apply hb
      intro d'
      match d' with
      | ⟨0, _⟩ => exact ⟨Nat.zero_le _, by simpa using hi0⟩
      | ⟨1, _⟩ => exact ⟨by simp [h1'], by simp [h1']⟩
      | ⟨2, _⟩ => exact ⟨Nat.zero_le _, by simpa using hi2⟩
    match d with
    | ⟨0, _⟩ => exact ⟨Nat.zero_le _, by simpa using hi0⟩
    | ⟨1, _⟩ => exact ⟨Nat.zero_le _, by simp; omega⟩
    | ⟨2, _⟩ => exact ⟨Nat.zero_le _, by simpa using hi2⟩

end Cert.Shadow

end
-- ==== Proof.BodyKI.lean ====
/-
  The kernel body run once on symbolic staging buffers, and the pipeline around it.

  The body reads its seven input blocks, fills the first scratch buffer column block by column block, reads it back
  whole, fills the second scratch buffer two rows at a time (each pair of rows by two read-modify-write stores of
  one two-row rectangle), reads it back whole, and stores the output block whole.  What the output block holds
  afterwards is a function of the seven input blocks alone: the first store of every pair is hidden by the second,
  and the second's payload is the two rows it and the first store put, whatever the scratch held before.
-/
import proofs.«129508_j67740224193011_2_alg».proof.Proof.Gen.KernelIdeal.Frame
import proofs.«129508_j67740224193011_2_alg».proof.Proof.Gen.KernelIdeal.Skeleton
import proofs.«129508_j67740224193011_2_alg».proof.Proof.LibShadow
import Idealize.ShloMosaic.Lib.Tactic

noncomputable section

namespace Cert.Proof.KernelIdealBody

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The raw contents of a memref's buffer on core c, and the buffer held whole at given contents. -/
abbrev Bf (c : Dev nD) {sp : Space} {S : Shape} {e : EltTy} (M : Memref sig .tc sp S e) : Type := Buf (Elt F) (M.view.loc (c : Thread nD τ))
abbrev pw (c : Dev nD) {sp : Space} {S : Shape} {e : EltTy} (M : Memref sig .tc sp S e) (f : Bf (F := F) c M) : sProp 𝕄 :=
  M.view.loc (c : Thread nD τ) ↦[M.view.set]{fullShare} f
abbrev pt (c : Dev nD) {sp : Space} {S : Shape} {e : EltTy} (M : Memref sig .tc sp S e) (f : Bf (F := F) c M) : sProp 𝕄 :=
  M.view.loc (c : Thread nD τ) ↦{fullShare} f

/-! ## The body on any staging buffers, from given scratch contents -/

set_option maxHeartbeats 4000000 in
/-- What the body leaves in the output buffer and the two scratch buffers, WITH the proof that from the eleven buffers
    held whole the body runs to its return handing back the inputs as they were and those three at these contents. -/
noncomputable def kernelRunP (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f9 : Bf (F := F) c M9) (f10 : Bf (F := F) c M10) :
    { W : Bf (F := F) c M8 × Bf (F := F) c M9 × Bf (F := F) c M10 //
      ∀ (f8 : Bf (F := F) c M8) (E : Set ℕ) (Q : PUnit → sProp 𝕄),
        iprop(pw c M1 f1 ∗ pw c M2 f2 ∗ pw c M3 f3 ∗ pw c M4 f4 ∗ pw c M5 f5 ∗ pw c M6 f6 ∗ pw c M7 f7 ∗ pw c M8 f8
          ∗ pt c M9 f9 ∗ pt c M10 f10
          ∗ (iprop(pw c M1 f1 ∗ pw c M2 f2 ∗ pw c M3 f3 ∗ pw c M4 f4 ∗ pw c M5 f5 ∗ pw c M6 f6 ∗ pw c M7 f7
                ∗ pw c M8 W.1 ∗ pt c M9 W.2.1 ∗ pt c M10 W.2.2) -∗ Q ⟨⟩))
        ⊢ wp frame (wpE (defs₀ (F := F)) 𝒱₀ c none) E
            (cc0__kernel i M1 h1 M2 h2 M3 h3 M4 h4 M5 h5 M6 h6 M7 h7 M8 h8 M9 h9 M10 h10) Q } := by
  refine ⟨⟨?_, ?_, ?_⟩, fun f8 E Q => ?run⟩
  case run =>
    iintro ⟨H1, H2, H3, H4, H5, H6, H7, H8, H9, H10, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Proof.KernelIdealBody

end
-- ==== Proof.IndepKI.lean ====
/-
  The output block the body leaves does not depend on what the scratch buffers held before the body ran.

  The second scratch buffer is written two rows at a time: each two-row rectangle by a store that puts its first
  row over what it found there, then by a store that puts its second row over what the first store left.  The
  second store hides the first, and its payload is the two rows put, whatever was found.  So the buffer read back
  whole, and with it the output block, is the same from any prior contents.
-/
import proofs.«129508_j67740224193011_2_alg».proof.Proof.BodyKI

noncomputable section

namespace Cert.Proof.KernelIdealBody

open Cert.KernelIdeal Cert.KernelIdeal.Gen

open Idealize.ShloMosaic
open Idealize.ShloMosaic.TcCoe
open Idealize.SL Idealize.SL.Sem

variable {F : FTy → Type} [FloatOps F]

set_option maxHeartbeats 2000000 in
set_option maxRecDepth 100000 in
/-- The second scratch buffer read back whole is the same from any prior contents. -/
theorem v561_indep (c : Dev nD)
    (M1 : Memref sig .tc .vmem S6144x192 .f32) (M2 : Memref sig .tc .vmem S192x48 .bf16)
    (M3 : Memref sig .tc .vmem S192x48 .bf16) (M4 : Memref sig .tc .vmem S2304x256 .bf16)
    (M5 : Memref sig .tc .vmem S256x2304 .bf16) (M9 : Memref sig .tc .vmem S32x2304 .bf16) (M10 : Memref sig .tc .vmem S32x48x48 .bf16)
    (f1 : Bf (F := F) c M1) (f2 : Bf (F := F) c M2) (f3 : Bf (F := F) c M3) (f4 : Bf (F := F) c M4) (f5 : Bf (F := F) c M5)
    (f10 f10' : Bf (F := F) c M10) :
    kernelRunP.sl.v561 c M1 M2 M3 M4 M5 M9 M10 f1 f2 f3 f4 f5 f10 = kernelRunP.sl.v561 c M1 M2 M3 M4 M5 M9 M10 f1 f2 f3 f4 f5 f10' := by
  unfold kernelRunP.sl.v561
  rw [View.readCov_eq_canon', View.readCov_eq_canon']
  funext j
  refine congrFun (Cert.Shadow.canon_eq_of_pairsRel _ _ ?_) _
  simp only [kernelRunP.sl.H10_19, kernelRunP.sl.H10_43, kernelRunP.sl.H10_1, kernelRunP.sl.H10_27, kernelRunP.sl.H10_5, kernelRunP.sl.H10_47, kernelRunP.sl.H10_13, kernelRunP.sl.H10_25, kernelRunP.sl.H10_21, kernelRunP.sl.H10_9, kernelRunP.sl.H10_15, kernelRunP.sl.H10_29, kernelRunP.sl.H10_23, kernelRunP.sl.H10_33, kernelRunP.sl.H10_37, kernelRunP.sl.H10_17, kernelRunP.sl.H10_3, kernelRunP.sl.H10_12, kernelRunP.sl.H10_39, kernelRunP.sl.H10_35, kernelRunP.sl.H10_32, kernelRunP.sl.H10_11, kernelRunP.sl.H10_31, kernelRunP.sl.H10_41, kernelRunP.sl.H10_48, kernelRunP.sl.H10_45, kernelRunP.sl.H10_7, kernelRunP.sl.H10_26, kernelRunP.sl.H10_6, kernelRunP.sl.old_28, kernelRunP.sl.old_12, kernelRunP.sl.old_4, kernelRunP.sl.old_42, kernelRunP.sl.old, kernelRunP.sl.old_6, kernelRunP.sl.old_44, kernelRunP.sl.old_36, kernelRunP.sl.old_30, kernelRunP.sl.old_2, kernelRunP.sl.old_26, kernelRunP.sl.old_34, kernelRunP.sl.old_40, kernelRunP.sl.old_38, kernelRunP.sl.old_18, kernelRunP.sl.old_16, kernelRunP.sl.old_22, kernelRunP.sl.old_20, kernelRunP.sl.old_46, kernelRunP.sl.old_24, kernelRunP.sl.old_10, kernelRunP.sl.old_32, kernelRunP.sl.old_14, kernelRunP.sl.old_8, View.readCov_cons_toLoadRect, Cert.Shadow.PairsRel, true_and, and_true]
  repeat' (first | exact trivial | exact congrArg (Sigma.mk _) (Cert.Shadow.updateSlice_rows _ _ _ _ _ _) | refine ⟨?_, ?_⟩)

end Cert.Proof.KernelIdealBody

end
-- ==== Proof.RunKI.lean ====
/-
  The pipeline around the body: the proof data, the body obligation at every grid point, the run of the whole
  program, and its frame.

  At grid point t the body finds the seven input windows' blocks in their staging buffers (the first window's block
  moves with t, the other six are fetched once) and leaves in the output window's staging buffer a function of
  those seven blocks alone (the two scratch buffers are overwritten before they are read back: their prior
  contents do not reach the output).
-/
import proofs.«129508_j67740224193011_2_alg».proof.Proof.IndepKI

noncomputable section

namespace Cert.Proof.KernelIdealBody

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

set_option maxHeartbeats 1000000 in
/-- The output block the body leaves does not depend on the scratch buffers' prior contents. -/
theorem W1_indep (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f9 f9' : Bf (F := F) c M9) (f10 f10' : Bf (F := F) c M10) :
    (kernelRunP c i M1 h1 M2 h2 M3 h3 M4 h4 M5 h5 M6 h6 M7 h7 M8 h8 M9 h9 M10 h10 f1 f2 f3 f4 f5 f6 f7 f9 f10).1.1
      = (kernelRunP c i M1 h1 M2 h2 M3 h3 M4 h4 M5 h5 M6 h6 M7 h7 M8 h8 M9 h9 M10 h10 f1 f2 f3 f4 f5 f6 f7 f9' f10').1.1 := by
  unfold kernelRunP
  dsimp only
  unfold kernelRunP.sl.H8_1
  rw [v561_indep c M1 M2 M3 M4 M5 M9 M10 f1 f2 f3 f4 f5 f10 f10']

/-! ## The body on staging buffers that hold given blocks -/

/-- The output block the body leaves, of the seven input blocks. -/
def outBlock (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (x1 : Vec F S6144x192 .f32) (x2 x3 : Vec F S192x48 .bf16) (x4 : Vec F S2304x256 .bf16) (x5 : Vec F S256x2304 .bf16)
    (x6 x7 : Vec F S48x192 .bf16) : Vec F S6144x192 .f32 :=
  M8.view.read (Elt F) (kernelRunP c i M1 h1 M2 h2 M3 h3 M4 h4 M5 h5 M6 h6 M7 h7 M8 h8 M9 h9 M10 h10
    (h1.unread x1) (h2.unread x2) (h3.unread x3) (h4.unread x4) (h5.unread x5) (h6.unread x6) (h7.unread x7)
    M9.view.junk M10.view.junk).1.1

/-- On whole staging memrefs holding the blocks x1 … x7, the output's at anything and the two scratch buffers at
    anything, the body runs to the continuation holding the inputs as they were, the output at outBlock, the
    scratch buffers at something. -/
theorem kernelRun (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (x1 : Vec F S6144x192 .f32) (x2 x3 : Vec F S192x48 .bf16) (x4 : Vec F S2304x256 .bf16) (x5 : Vec F S256x2304 .bf16)
    (x6 x7 : Vec F S48x192 .bf16) (E : Set ℕ) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ owns (c : Thread nD τ) M7 fullShare x7 ∗ (∃ d, owns (c : Thread nD τ) M8 fullShare d)
        ∗ (∃ f, pt (F := F) c M9 f) ∗ (∃ f, pt (F := F) c M10 f)
        ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare x7
            ∗ owns (c : Thread nD τ) M8 fullShare (outBlock c i M1 h1 M2 h2 M3 h3 M4 h4 M5 h5 M6 h6 M7 h7 M8 h8 M9 h9 M10 h10 x1 x2 x3 x4 x5 x6 x7)
            ∗ (∃ f, pt (F := F) c M9 f) ∗ (∃ f, pt (F := F) c M10 f)) -∗ K ⟨⟩))
      ⊢ wp frame (wpE (defs₀ (F := F)) 𝒱₀ c none) E
          (cc0__kernel i M1 h1 M2 h2 M3 h3 M4 h4 M5 h5 M6 h6 M7 h7 M8 h8 M9 h9 M10 h10) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%f9, H9⟩, ⟨%f10, H10⟩, Hk⟩
  obtain rfl := h1.eq_unread hf1; obtain rfl := h2.eq_unread hf2; obtain rfl := h3.eq_unread hf3
  obtain rfl := h4.eq_unread hf4; obtain rfl := h5.eq_unread hf5; obtain rfl := h6.eq_unread hf6
  obtain rfl := h7.eq_unread hf7
  iapply ((kernelRunP c i M1 h1 M2 h2 M3 h3 M4 h4 M5 h5 M6 h6 M7 h7 M8 h8 M9 h9 M10 h10
    (h1.unread x1) (h2.unread x2) (h3.unread x3) (h4.unread x4) (h5.unread x5) (h6.unread x6) (h7.unread x7) f9 f10).2 f8 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; swap; · iexact H8
    ipureintro
    exact congrArg (M8.view.read (Elt F)) (W1_indep c i M1 h1 M2 h2 M3 h3 M4 h4 M5 h5 M6 h6 M7 h7 M8 h8 M9 h9 M10 h10 _ _ _ _ _ _ _ f9 _ f10 _)
  isplitl [H9]; · iexists _; iexact H9
  iexists _; iexact H10

end Cert.Proof.KernelIdealBody

end
-- ==== Proof.PipeKI.lean ====
/-
  The proof data of the pipeline, the body obligation at every grid point, the run of the whole program and its frame.
-/
import proofs.«129508_j67740224193011_2_alg».proof.Proof.RunKI

noncomputable section

namespace Cert.Proof.KernelIdealBody

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block the body leaves in the output window's staging buffer at grid point t: outBlock at the point's
    staging memrefs and the seven input blocks there. -/
def outsAt (c : Dev nD) (t : Fin cfg0.N) : Vec F S6144x192 .f32 :=
  outBlock c (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t)

/-- The arrays as the region finds them; after the body each input's buffer at its block and the output's at outsAt;
    the invariant: the scratch buffers at some contents and the generator register at some state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The body obligation at every grid point: the table's entry is the kernel on the point's staging memrefs; the
    inputs' memrefs hold their blocks; the scratch buffers come out of the invariant and go back into it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold outsAt Pipeline.ΦA
  rw [scopedRest0_eq]
  iintro ⟨⟨⟨⟨%f9, H9⟩, ⟨%f10, H10⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H9]; · iexists _; iexact H9
  isplitl [H10]; · iexists _; iexact H10
  iintro ⟨H0, H1, H2, H3, H4, H5, H6, H7, H9, H10⟩
  isplitl [H9 H10 Hr]
  · isplitr [Hr]; swap; · iexact Hr
    isplitl [H9]; · iexact H9
    iexact H10
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- At the compiled mesh, for any values, from any memory with zero counters: every weakly fair execution of the whole
    program terminates, and every final state has every array of the pipeline at what the proof data give and every
    other buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

end Cert.Proof.KernelIdealBody

end
-- ==== Proof.FinalArr.lean ====
/-
  The output array after the region.

  The region's one output array has 393216 rows of 192 entries; grid point t writes back rows t·6144 … t·6144 + 6143,
  all 192 columns, with the block the body left in the staging buffer at t.  The 64 blocks tile the array, so after the
  region row r of the array is row r mod 6144 of the block of point r / 6144.
-/
import proofs.«129508_j67740224193011_2_alg».proof.Proof.PipeKI
import Idealize.ShloMosaic.Lib.Pipeline.Value
import Idealize.ShloMosaic.Lib.ValueIdx

noncomputable section

namespace Cert.Proof.Final

open Cert.KernelIdeal Cert.KernelIdeal.Gen Cert.Proof.KernelIdealBody
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

-- the block a point leaves is used as a whole here, never opened
attribute [local irreducible] Cert.Proof.KernelIdealBody.outsAt

/-- The grid point whose block holds row r of the output array. -/
def pointOf (r : Fin 393216) : Fin cfg0.N :=
  ⟨r.val / 6144, by have h := r.isLt; rw [show cfg0.N = 64 from N_0]; omega⟩

/-- The output array: row r is row r mod 6144 of the block of point r / 6144. -/
def Gout (c : Dev nD) : S393216x192.Idx → Elt F .f32 := fun i =>
  outsAt m c (pointOf (i 0)) (ix2 (⟨(i 0).val % 6144, Nat.mod_lt _ (by norm_num)⟩ : Fin 6144) (i 1))

/-- The output window's block index at point t is (t, 0). -/
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Entry j of point t's block sits at row t·6144 + j₀, column j₁ of the array. -/
theorem emb7 (t : Fin cfg0.N) (j : S6144x192.Idx) :
    ((cfg0.win 7).blk t).view.emb j
      = ix2 (⟨t.val * 6144 + (j 0).val, by
          have ht : t.val < 64 := lt_of_lt_of_eq t.isLt N_0
          have hj : (j 0).val < 6144 := (j 0).isLt
          omega⟩ : Fin 393216) (j 1) := by
  obtain ⟨e0, e1⟩ := index7 t
  funext a; apply Fin.ext
  match a with
  | ⟨0, _⟩ =>
    show win0_7.index t (0 : Fin 2) * 6144 + 1 * (j 0).val = t.val * 6144 + (j 0).val
    rw [e0]; omega
  | ⟨1, _⟩ =>
    show win0_7.index t (1 : Fin 2) * 192 + 1 * (j 1).val = (j 1).val
    rw [e1]; omega

/-- The output array at row t·6144 + j₀ is entry j of the block of point t. -/
theorem Gout_at (c : Dev nD) (t : Fin cfg0.N) (j : S6144x192.Idx) (h : t.val * 6144 + (j 0).val < 393216) :
    Gout m c (ix2 (⟨t.val * 6144 + (j 0).val, h⟩ : Fin 393216) (j 1)) = outsAt m c t j := by
  have hj0 : (j 0).val < 6144 := (j 0).isLt
  have hp : pointOf (⟨t.val * 6144 + (j 0).val, h⟩ : Fin 393216) = t :=
    Fin.ext (by show (t.val * 6144 + (j 0).val) / 6144 = t.val; omega)
  have hq : ix2 (⟨(t.val * 6144 + (j 0).val) % 6144, Nat.mod_lt _ (by norm_num)⟩ : Fin 6144) (j 1) = j :=
    funext fun a => Fin.ext (by
      match a with
      | ⟨0, _⟩ => show (t.val * 6144 + (j 0).val) % 6144 = (j 0).val; omega
      | ⟨1, _⟩ => rfl)
  show outsAt m c (pointOf (⟨t.val * 6144 + (j 0).val, h⟩ : Fin 393216))
    (ix2 (⟨(t.val * 6144 + (j 0).val) % 6144, Nat.mod_lt _ (by norm_num)⟩ : Fin 6144) (j 1)) = outsAt m c t j
  rw [hp]
  exact congrArg (outsAt m c t) hq

/-- What point t writes back is block t of the output array. -/
theorem flushed7_eq (c : Dev nD) (t : Fin cfg0.N) :
    (dats m 0 c).flushed 7 t = ((cfg0.win 7).blk t).view.read (Elt F) (Gout m c) := by
  show (cfg0.win 7).cut (grid0.coords t) ((dats m 0 c).after 7 t) = _
  rw [after0_7]
  funext j
  show outsAt m c t j = Gout m c (((cfg0.win 7).blk t).view.emb j)
  rw [emb7]
  exact (Gout_at m c t j _).symm

/-- An index of the array is in point t's block iff each coordinate is in the block's range on its axis. -/
theorem mem_blk7 (t : Fin cfg0.N) (i : S393216x192.Idx) :
    i ∈ ((cfg0.win 7).blk t).view.set ↔ ∀ a : Fin 2, win0_7.index t a * S6144x192.size a ≤ (i a).val
      ∧ (i a).val < win0_7.index t a * S6144x192.size a + S6144x192.size a := by
  show i ∈ ((View.whole main_v40).slice (win0_7.rect t)).set ↔ _
  rw [View.set_slice_whole, Rect.mem_set_unit]
  exact Iff.rfl

/-- Every index of the array is in the block of the point that holds its row. -/
theorem cover7 (i : S393216x192.Idx) :
    ∃ t : Fin cfg0.N, (cfg0.win 7).flush t = true ∧ i ∈ ((cfg0.win 7).blk t).view.set := by
  have hi0 : (i 0).val < 393216 := (i 0).isLt
  have hi1 : (i 1).val < 192 := (i 1).isLt
  refine ⟨pointOf (i 0), flush0_7 _, ?_⟩
  rw [mem_blk7]
  obtain ⟨e0, e1⟩ := index7 (pointOf (i 0))
  have hp : (pointOf (i 0)).val = (i 0).val / 6144 := rfl
  intro a
  match a with
  | ⟨0, _⟩ =>
    show win0_7.index (pointOf (i 0)) (0 : Fin 2) * 6144 ≤ (i 0).val
      ∧ (i 0).val < win0_7.index (pointOf (i 0)) (0 : Fin 2) * 6144 + 6144
    rw [e0, hp]; omega
  | ⟨1, _⟩ =>
    show win0_7.index (pointOf (i 0)) (1 : Fin 2) * 192 ≤ (i 1).val
      ∧ (i 1).val < win0_7.index (pointOf (i 0)) (1 : Fin 2) * 192 + 192
    rw [e1]; omega

/-- The output array after the region. -/
theorem final7 (c : Dev nD) : (dats m 0 c).arrAt 7 cfg0.N = Gout m c :=
  (dats m 0 c).arrAt_eq_of_cover 7 (Gout m c) (fun t _ => flushed7_eq m c t) (cover7)

end Cert.Proof.Final
-- ==== Proof.FinalTail.lean ====
/-
  The kernel program's result.

  After the region one host operation reshapes the output array of 393216 rows of 192 entries into the result of 2048
  rows of 36864 entries: both are the same row-major sequence, so entry (n, q) of the result is entry
  (n·192 + q / 192, q mod 192) of the array.  The run of the whole program, read at the result buffer and at the seven
  argument arrays, is then: the result is that reshape of the output array, and the arguments are unchanged.
-/
import proofs.«129508_j67740224193011_2_alg».proof.Proof.FinalArr
import Idealize.ShloMosaic.Lib.StableHlo.Run

noncomputable section

namespace Cert.Proof.Final

open Cert.KernelIdeal Cert.KernelIdeal.Gen Cert.Proof.KernelIdealBody
open Idealize.ShloMosaic Idealize.ShloMosaic.TcCoe Idealize.ShloMosaic.ValueIdx Idealize.ShloMosaic.StableHlo
open Idealize.SL Idealize.SL.Sem

variable {F : FTy → Type} [FloatOps F]

variable (m : (ℓ : Loc nD τ sig) → Buf (Elt F) ℓ) (ρ : Dev nD → PrngReg)

attribute [local irreducible] Cert.Proof.KernelIdealBody.outsAt

/-- The program's result: the output array read as 2048 rows of 36864 entries. -/
def resK (c : Dev nD) : S2048x36864.Idx → Elt F .f32 :=
  shapeCast S2048x36864 (Gout m c) shapeCasts_S393216x192_S2048x36864

/-- Entry (n, q) of the result is entry (n·192 + q / 192, q mod 192) of the output array. -/
theorem resK_apply (c : Dev nD) (n : Fin 2048) (q : Fin 36864) :
    resK m c (ix2 n q)
      = Gout m c (ix2 (⟨n.val * 192 + q.val / 192, by have := n.isLt; have := q.isLt; omega⟩ : Fin 393216)
          (⟨q.val % 192, Nat.mod_lt _ (by norm_num)⟩ : Fin 192)) := by
  have hn := n.isLt
  have hq := q.isLt
  unfold resK
  exact shapeCast_apply (Gout m c) shapeCasts_S393216x192_S2048x36864 (ix2 n q) _ (by
    rewrite [Shape.rowMajor_val_two, Shape.rowMajor_val_two]
    show (n.val * 192 + q.val / 192) * 192 + q.val % 192 = n.val * 36864 + q.val
    omega)

/-- The result buffer after the host operation that follows the region. -/
theorem tail_eq (c : Dev nD) :
    Pipeline.afterTail₀ cfgs (dats m) 0 (V0 m) [hostOps1] c main_v41 = resK m c := by
  have e : Pipeline.withArrays (cfgs 0).spec c (V0 m c) (fun w => (dats m 0 c).arrAt w (cfgs 0).N)
      (Proc.devRef .tc main_v40) = Gout m c :=
    (Pipeline.withArrays_arr spec0 launch0.win.arr_inj c _ _ 7).trans (final7 m c)
  unfold Pipeline.afterTail₀
  show StableHlo.after hostOps1 _ (Proc.devRef .tc main_v41) = _
  after_results
  rw [e]
  rfl

/-- The run of the whole program: it terminates without a fault, the result buffer holds the reshape of the output
    array, and the seven argument arrays are unchanged. -/
theorem run_value : θ_run defs (onTc (τ := τ) (main (F := F))) ⟨m, fun _ => 0, ρ⟩ (fun r => ∀ c : Dev nD,
      r.2.mem ((c.tc : Thread nD τ).loc main_v41) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v41 (Pipeline.mem_restRefs_of main_v41 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Proof.Final
-- ==== Proof.Finite.lean ====
/-
  From the precondition to real entries.

  The precondition says of each of the seven input arrays that every entry has absolute value strictly below plus
  infinity.  An extended real with that property is neither of the two infinities, hence (the coercion of) a real
  number.  So under the precondition each input array is, entry by entry, an array of reals.
-/
import proofs.«129508_j67740224193011_2_alg».proof.Defs
import Idealize.ShloMosaic.Lib.ReduceAll
import Idealize.ShloMosaic.Lib.ValueIdx

noncomputable section

namespace Cert.Finite

open Idealize.ShloMosaic Idealize.ShloMosaic.ValueIdx

/-- Every entry of the array is (the coercion of) a real number. -/
def RealEntries {s : Shape} (x : FVec Ideal s .f32) : Prop := ∀ i : s.Idx, ∃ r : ℝ, x i = (r : EReal)

/-- A real entry is the coercion of its own real part. -/
theorem RealEntries.eq_toReal {s : Shape} {x : FVec Ideal s .f32} (h : RealEntries x) (i : s.Idx) :
    x i = (((x i : EReal).toReal : ℝ) : EReal) := by
  obtain ⟨r, hr⟩ := h i
  rw [hr, EReal.toReal_coe]

/-- A matrix with real entries is the coercion of a real matrix. -/
theorem RealEntries.exists_mat {a b : ℕ} {x : FVec Ideal ⟨2, ![a, b]⟩ .f32} (h : RealEntries x) :
    ∃ X : Fin a → Fin b → ℝ, ∀ p q, x (ix2 p q) = (X p q : EReal) :=
  ⟨fun p q => (x (ix2 p q) : EReal).toReal, fun p q => h.eq_toReal (ix2 p q)⟩

/-- The rank-zero shape has one index. -/
instance : Subsingleton (⟨0, ![]⟩ : Shape).Idx := ⟨fun _ _ => funext fun d => d.elim0⟩

/-- An extended real whose absolute value is strictly below plus infinity is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- If the conjunction over a whole array of the tests "absolute value below plus infinity" is true, every entry of
    the array is a real number. -/
theorem realEntries_of_all {s : Shape} {axes : List (Fin s.rank)} (x : FVec Ideal s .f32)
    (dims : Fin (⟨0, ![]⟩ : Shape).rank → Fin s.rank) (hbc : (⟨0, ![]⟩ : Shape).BroadcastsInDim s dims)
    (hr : s.ReducesTo axes ⟨0, ![]⟩) (hu : 0 < (⟨0, ![]⟩ : Shape).numel)
    (h : Host.reduce IntOp.andi
          (cmpf .olt (Host.absf x) (broadcastInDim s dims hbc (constant (F := Ideal) ⟨0, ![]⟩ .f32 0x7F800000#32)))
          (constantI ⟨0, ![]⟩ 1 1#1) hr hu ix0 = 1#1) :
    RealEntries x := fun i =>
  real_of_abs_lt_inf (x i) (Host.reduce_andi_all _ _ hr hu ix0 h i)

open Cert.Pre_finite_inputs in
/-- The precondition, as a fact about seven arrays: each has real entries. -/
theorem real_of_fn [Cert.Pre_finite_inputs.Facts]
    (a0 : FVec Ideal S2048x36864 .f32) (a1 a2 : FVec Ideal S192x48 .f32) (a3 : FVec Ideal S256x2304 .f32)
    (a4 a5 : FVec Ideal S48x192 .f32) (a6 : FVec Ideal S2304x256 .f32)
    (h : Cert.Pre_finite_inputs.fn (F := Ideal) a0 a1 a2 a3 a4 a5 a6 = fun _ => 1#1) :
    RealEntries a0 ∧ RealEntries a1 ∧ RealEntries a2 ∧ RealEntries a3 ∧ RealEntries a4 ∧ RealEntries a5
      ∧ RealEntries a6 := by
  have h0 := congrFun h ix0
  simp only [Cert.Pre_finite_inputs.fn, Cert.Pre_finite_inputs.fn_part1, andi, IntOp.andi_eq_one] at h0
  obtain ⟨⟨⟨⟨⟨⟨e0, e1⟩, e2⟩, e3⟩, e4⟩, e5⟩, e6⟩ := h0
  exact ⟨realEntries_of_all a0 _ _ _ _ e0, realEntries_of_all a1 _ _ _ _ e1, realEntries_of_all a2 _ _ _ _ e2,
    realEntries_of_all a3 _ _ _ _ e3, realEntries_of_all a4 _ _ _ _ e4, realEntries_of_all a5 _ _ _ _ e5,
    realEntries_of_all a6 _ _ _ _ e6⟩

/-- Under the precondition each of the seven argument arrays of the memory has, on every device, real entries. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    RealEntries (s := Cert.Pre_finite_inputs.S2048x36864) (m ((c.tc : Thread Cert.KernelIdeal.nD Cert.KernelIdeal.τ).loc Cert.KernelIdeal.main_arg0))
    ∧ RealEntries (s := Cert.Pre_finite_inputs.S192x48) (m ((c.tc : Thread Cert.KernelIdeal.nD Cert.KernelIdeal.τ).loc Cert.KernelIdeal.main_arg1))
    ∧ RealEntries (s := Cert.Pre_finite_inputs.S192x48) (m ((c.tc : Thread Cert.KernelIdeal.nD Cert.KernelIdeal.τ).loc Cert.KernelIdeal.main_arg2))
    ∧ RealEntries (s := Cert.Pre_finite_inputs.S256x2304) (m ((c.tc : Thread Cert.KernelIdeal.nD Cert.KernelIdeal.τ).loc Cert.KernelIdeal.main_arg3))
    ∧ RealEntries (s := Cert.Pre_finite_inputs.S48x192) (m ((c.tc : Thread Cert.KernelIdeal.nD Cert.KernelIdeal.τ).loc Cert.KernelIdeal.main_arg4))
    ∧ RealEntries (s := Cert.Pre_finite_inputs.S48x192) (m ((c.tc : Thread Cert.KernelIdeal.nD Cert.KernelIdeal.τ).loc Cert.KernelIdeal.main_arg5))
    ∧ RealEntries (s := Cert.Pre_finite_inputs.S2304x256) (m ((c.tc : Thread Cert.KernelIdeal.nD Cert.KernelIdeal.τ).loc Cert.KernelIdeal.main_arg6)) :=
  real_of_fn _ _ _ _ _ _ _ (hpre c)

end Cert.Finite

end
-- ==== Proof.Spec.lean ====
/-
  The two real-number readings of the computation.

  Both programs compute, for a batch row n, an ENCODING a(n, ·) of the row of X into 256 latent coordinates,
  a row softmax of it, and a DECODING back to 192 × 192 coordinates through relu(G) and the row softmaxes of C and B.
  The reference contracts against the Kronecker matrices C_inv ⊗ B_inv and softmax(C) ⊗ softmax(B) in one sum
  over the merged axes; the kernel contracts one factor at a time (the mixed-product identity
  (C ⊗ B) vec(X) = vec(B X Cᵀ)).  Over the reals the two are equal by distributivity and an exchange of finite sums.

  Index conventions (all arrays unmerged):
    x n k j      = X[n, k·192 + j]
    bi r2 j      = B_inv[r2, j],   ci r3 k = C_inv[r3, k]
    gi r3 r2 r1  = G_inv[r3·48 + r2, r1]
    rg r1 r3 r2  = relu(G)[r1, r3·48 + r2]
    sb j r2      = softmax(B)[j, r2],  sc k r3 = softmax(C)[k, r3]
    s n r1       = softmax(a)[n, r1]
-/
import Mathlib.Analysis.SpecialFunctions.Pow.Real
import Mathlib.Algebra.BigOperators.Ring.Finset

namespace Cert.KronSpec

open Finset

variable {N J K R1 R2 R3 : ℕ}

/-- The encoding as the reference sums it: against the Kronecker entries ci r3 k * bi r2 j, then against gi. -/
def encR (x : Fin N → Fin K → Fin J → ℝ) (bi : Fin R2 → Fin J → ℝ) (ci : Fin R3 → Fin K → ℝ)
    (gi : Fin R3 → Fin R2 → Fin R1 → ℝ) (n : Fin N) (r1 : Fin R1) : ℝ :=
  ∑ r3 : Fin R3, ∑ r2 : Fin R2, gi r3 r2 r1 * ∑ k : Fin K, ∑ j : Fin J, (ci r3 k * bi r2 j) * x n k j

/-- The encoding as the kernel sums it: over j, then over k, then over the latent pair. -/
def encK (x : Fin N → Fin K → Fin J → ℝ) (bi : Fin R2 → Fin J → ℝ) (ci : Fin R3 → Fin K → ℝ)
    (gi : Fin R3 → Fin R2 → Fin R1 → ℝ) (n : Fin N) (r1 : Fin R1) : ℝ :=
  ∑ r2 : Fin R2, ∑ r3 : Fin R3, (∑ k : Fin K, (∑ j : Fin J, x n k j * bi r2 j) * ci r3 k) * gi r3 r2 r1

/-- The decoding as the reference sums it: the latent pair against the Kronecker entries sc k r3 * sb j r2. -/
def decR (s : Fin N → Fin R1 → ℝ) (rg : Fin R1 → Fin R3 → Fin R2 → ℝ) (sb : Fin J → Fin R2 → ℝ) (sc : Fin K → Fin R3 → ℝ)
    (n : Fin N) (k : Fin K) (j : Fin J) : ℝ :=
  ∑ r3 : Fin R3, ∑ r2 : Fin R2, (∑ r1 : Fin R1, s n r1 * rg r1 r3 r2) * (sc k r3 * sb j r2)

/-- The decoding as the kernel sums it: over r3, then over r2. -/
def decK (s : Fin N → Fin R1 → ℝ) (rg : Fin R1 → Fin R3 → Fin R2 → ℝ) (sb : Fin J → Fin R2 → ℝ) (sc : Fin K → Fin R3 → ℝ)
    (n : Fin N) (k : Fin K) (j : Fin J) : ℝ :=
  ∑ r2 : Fin R2, (∑ r3 : Fin R3, (∑ r1 : Fin R1, s n r1 * rg r1 r3 r2) * sc k r3) * sb j r2

/-- Distributivity and one exchange of the latent sums: the two encodings agree. -/
theorem encK_eq_encR (x : Fin N → Fin K → Fin J → ℝ) (bi : Fin R2 → Fin J → ℝ) (ci : Fin R3 → Fin K → ℝ)
    (gi : Fin R3 → Fin R2 → Fin R1 → ℝ) : encK x bi ci gi = encR x bi ci gi := by
  funext n r1
  unfold encK encR
  rw [Finset.sum_comm]
  refine Finset.sum_congr rfl fun r3 _ => Finset.sum_congr rfl fun r2 _ => ?_
  rw [mul_comm (gi r3 r2 r1)]
  congr 1
  refine Finset.sum_congr rfl fun k _ => ?_
  rw [Finset.sum_mul]
  refine Finset.sum_congr rfl fun j _ => ?_
  ring

/-- Distributivity and one exchange of the latent sums: the two decodings agree. -/
theorem decK_eq_decR (s : Fin N → Fin R1 → ℝ) (rg : Fin R1 → Fin R3 → Fin R2 → ℝ) (sb : Fin J → Fin R2 → ℝ)
    (sc : Fin K → Fin R3 → ℝ) : decK s rg sb sc = decR s rg sb sc := by
  funext n k j
  unfold decK decR
  rw [Finset.sum_comm]
  refine Finset.sum_congr rfl fun r2 _ => ?_
  rw [Finset.sum_mul]
  refine Finset.sum_congr rfl fun r3 _ => ?_
  ring

end Cert.KronSpec
-- ==== Proof.SpecOut.lean ====
/-
  The whole computation over the reals, in the two orders of summation, on arrays in the programs' own (merged) layout.

  A merged axis of extent A·B is read through the pairing (a, b) ↦ a·B + b (finProdFinEquiv): X's second axis pairs
  (k, j), the latent axis of G and G_inv pairs (r3, r2).  Row softmax is the shifted form both programs compute:
  exp (M i j − max_j' M i j') over the sum of the row's shifted exponentials; relu is max(·, 0).
-/
import proofs.«129508_j67740224193011_2_alg».proof.Proof.Spec

namespace Cert.KronSpec

open Finset

/-- The largest entry of row i of a matrix with at least one column. -/
noncomputable def rowMax {a b : ℕ} (hb : 0 < b) (M : Fin a → Fin b → ℝ) (i : Fin a) : ℝ :=
  Finset.univ.sup' ⟨⟨0, hb⟩, Finset.mem_univ _⟩ (M i)

/-- Row softmax, in the max-shifted form. -/
noncomputable def smx {a b : ℕ} (hb : 0 < b) (M : Fin a → Fin b → ℝ) (i : Fin a) (j : Fin b) : ℝ :=
  Real.exp (M i j - rowMax hb M i) / ∑ j' : Fin b, Real.exp (M i j' - rowMax hb M i)

/-- X unmerged: x n k j = X[n, k·192 + j]. -/
def xU (X : Fin 2048 → Fin 36864 → ℝ) (n : Fin 2048) (k j : Fin 192) : ℝ := X n (finProdFinEquiv (k, j))
/-- G_inv unmerged: gi r3 r2 r1 = G_inv[r3·48 + r2, r1]. -/
def giU (Gi : Fin 2304 → Fin 256 → ℝ) (r3 r2 : Fin 48) (r1 : Fin 256) : ℝ := Gi (finProdFinEquiv (r3, r2)) r1
/-- relu(G) unmerged: rg r1 r3 r2 = max (G[r1, r3·48 + r2]) 0. -/
def rgU (G : Fin 256 → Fin 2304 → ℝ) (r1 : Fin 256) (r3 r2 : Fin 48) : ℝ := max (G r1 (finProdFinEquiv (r3, r2))) 0

/-- The result in the reference's order of summation, entry (n, k·192 + j). -/
noncomputable def outR (X : Fin 2048 → Fin 36864 → ℝ) (B C : Fin 192 → Fin 48 → ℝ) (G : Fin 256 → Fin 2304 → ℝ)
    (Bi Ci : Fin 48 → Fin 192 → ℝ) (Gi : Fin 2304 → Fin 256 → ℝ) (n : Fin 2048) (q : Fin 36864) : ℝ :=
  decR (smx (by norm_num) (encR (xU X) Bi Ci (giU Gi))) (rgU G) (smx (by norm_num) B) (smx (by norm_num) C) n
    ((finProdFinEquiv (m := 192) (n := 192)).symm q).1 ((finProdFinEquiv (m := 192) (n := 192)).symm q).2

/-- The result in the kernel's order of summation, entry (n, k·192 + j). -/
noncomputable def outK (X : Fin 2048 → Fin 36864 → ℝ) (B C : Fin 192 → Fin 48 → ℝ) (G : Fin 256 → Fin 2304 → ℝ)
    (Bi Ci : Fin 48 → Fin 192 → ℝ) (Gi : Fin 2304 → Fin 256 → ℝ) (n : Fin 2048) (q : Fin 36864) : ℝ :=
  decK (smx (by norm_num) (encK (xU X) Bi Ci (giU Gi))) (rgU G) (smx (by norm_num) B) (smx (by norm_num) C) n
    ((finProdFinEquiv (m := 192) (n := 192)).symm q).1 ((finProdFinEquiv (m := 192) (n := 192)).symm q).2

/-- The two orders of summation give one result. -/
theorem outK_eq_outR (X : Fin 2048 → Fin 36864 → ℝ) (B C : Fin 192 → Fin 48 → ℝ) (G : Fin 256 → Fin 2304 → ℝ)
    (Bi Ci : Fin 48 → Fin 192 → ℝ) (Gi : Fin 2304 → Fin 256 → ℝ) : outK X B C G Bi Ci Gi = outR X B C G Bi Ci Gi := by
  funext n q
  unfold outK outR
  rw [encK_eq_encR, decK_eq_decR]

end Cert.KronSpec
-- ==== Proof.FinalHyp.lean ====
/-
  What is asked of the body's arithmetic.

  Grid point t handles the 32 batch rows t·32 … t·32 + 31; row p of its output block belongs to batch row
  t·32 + p / 192 and to the coordinate k = p mod 192 of the merged column (k, j) ↦ k·192 + j.  The body's arithmetic is
  correct when, on inputs with real entries, entry (p, j) of that block is the real number outK of the inputs' real parts
  at that batch row and merged column.
-/
import proofs.«129508_j67740224193011_2_alg».proof.Proof.PipeKI
import proofs.«129508_j67740224193011_2_alg».proof.Proof.Finite
import proofs.«129508_j67740224193011_2_alg».proof.Proof.SpecOut
import Idealize.ShloMosaic.Lib.ValueIdx

noncomputable section

namespace Cert.Proof.Final

open Cert.KernelIdeal Cert.KernelIdeal.Gen Cert.Proof.KernelIdealBody
open Idealize.ShloMosaic Idealize.ShloMosaic.TcCoe Idealize.ShloMosaic.ValueIdx
open Idealize.SL Idealize.SL.Sem
open Cert.Finite Cert.KronSpec

attribute [local irreducible] Cert.Proof.KernelIdealBody.outsAt

/-- The batch row that row p of the block of grid point t belongs to. -/
theorem row_lt (t : Fin cfg0.N) (p : Fin 6144) : t.val * 32 + p.val / 192 < 2048 := by
  have ht : t.val < 64 := lt_of_lt_of_eq t.isLt N_0
  have hp := p.isLt
  omega

/-- The merged column (k, j) ↦ k·192 + j that entry (p, j) of a block belongs to, k = p mod 192. -/
theorem col_lt (p : Fin 6144) (j : Fin 192) : (p.val % 192) * 192 + j.val < 36864 := by
  have hj := j.isLt
  have hp : p.val % 192 < 192 := Nat.mod_lt _ (by norm_num)
  omega

/-- What is asked of the body's arithmetic: on inputs with real entries, entry (p, j) of the block the body leaves at
    grid point t is the real number outK of the inputs' real parts at batch row t·32 + p / 192 and merged column
    (p mod 192)·192 + j. -/
def KernelValue : Prop :=
  ∀ (m : (ℓ : Loc nD τ sig) → Buf (Elt Ideal) ℓ) (c : Dev nD),
    RealEntries (s := S2048x36864) (m ((c.tc : Thread nD τ).loc main_arg0)) → RealEntries (s := S192x48) (m ((c.tc : Thread nD τ).loc main_arg1)) →
    RealEntries (s := S192x48) (m ((c.tc : Thread nD τ).loc main_arg2)) → RealEntries (s := S256x2304) (m ((c.tc : Thread nD τ).loc main_arg3)) →
    RealEntries (s := S48x192) (m ((c.tc : Thread nD τ).loc main_arg4)) → RealEntries (s := S48x192) (m ((c.tc : Thread nD τ).loc main_arg5)) →
    RealEntries (s := S2304x256) (m ((c.tc : Thread nD τ).loc main_arg6)) →
    ∀ (t : Fin cfg0.N) (p : Fin 6144) (j : Fin 192),
      outsAt (F := Ideal) m c t (ix2 p j)
        = ((outK (fun n q => (m ((c.tc : Thread nD τ).loc main_arg0) (ix2 n q)).toReal)
            (fun a b => (m ((c.tc : Thread nD τ).loc main_arg1) (ix2 a b)).toReal)
            (fun a b => (m ((c.tc : Thread nD τ).loc main_arg2) (ix2 a b)).toReal)
            (fun a b => (m ((c.tc : Thread nD τ).loc main_arg3) (ix2 a b)).toReal)
            (fun a b => (m ((c.tc : Thread nD τ).loc main_arg4) (ix2 a b)).toReal)
            (fun a b => (m ((c.tc : Thread nD τ).loc main_arg5) (ix2 a b)).toReal)
            (fun a b => (m ((c.tc : Thread nD τ).loc main_arg6) (ix2 a b)).toReal)
            (⟨t.val * 32 + p.val / 192, row_lt t p⟩ : Fin 2048)
            (⟨(p.val % 192) * 192 + j.val, col_lt p j⟩ : Fin 36864) : ℝ) : EReal)

end Cert.Proof.Final
-- ==== Proof.BodyK.lean ====
/-
  The kernel body run once on symbolic staging buffers, and the pipeline around it.

  The body reads its seven input blocks, fills the first scratch buffer column block by column block, reads it back
  whole, fills the second scratch buffer two rows at a time (each pair of rows by two read-modify-write stores of
  one two-row rectangle), reads it back whole, and stores the output block whole.  What the output block holds
  afterwards is a function of the seven input blocks alone: the first store of every pair is hidden by the second,
  and the second's payload is the two rows it and the first store put, whatever the scratch held before.
-/
import proofs.«129508_j67740224193011_2_alg».proof.Proof.Gen.Kernel.Frame
import proofs.«129508_j67740224193011_2_alg».proof.Proof.Gen.Kernel.Skeleton
import proofs.«129508_j67740224193011_2_alg».proof.Proof.LibShadow
import Idealize.ShloMosaic.Lib.Tactic

noncomputable section

namespace Cert.Proof.KernelBody

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The raw contents of a memref's buffer on core c, and the buffer held whole at given contents. -/
abbrev Bf (c : Dev nD) {sp : Space} {S : Shape} {e : EltTy} (M : Memref sig .tc sp S e) : Type := Buf (Elt F) (M.view.loc (c : Thread nD τ))
abbrev pw (c : Dev nD) {sp : Space} {S : Shape} {e : EltTy} (M : Memref sig .tc sp S e) (f : Bf (F := F) c M) : sProp 𝕄 :=
  M.view.loc (c : Thread nD τ) ↦[M.view.set]{fullShare} f
abbrev pt (c : Dev nD) {sp : Space} {S : Shape} {e : EltTy} (M : Memref sig .tc sp S e) (f : Bf (F := F) c M) : sProp 𝕄 :=
  M.view.loc (c : Thread nD τ) ↦{fullShare} f

/-! ## The body on any staging buffers, from given scratch contents -/

set_option maxHeartbeats 4000000 in
/-- What the body leaves in the output buffer and the two scratch buffers, WITH the proof that from the eleven buffers
    held whole the body runs to its return handing back the inputs as they were and those three at these contents. -/
noncomputable def kernelRunP (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f9 : Bf (F := F) c M9) (f10 : Bf (F := F) c M10) :
    { W : Bf (F := F) c M8 × Bf (F := F) c M9 × Bf (F := F) c M10 //
      ∀ (f8 : Bf (F := F) c M8) (E : Set ℕ) (Q : PUnit → sProp 𝕄),
        iprop(pw c M1 f1 ∗ pw c M2 f2 ∗ pw c M3 f3 ∗ pw c M4 f4 ∗ pw c M5 f5 ∗ pw c M6 f6 ∗ pw c M7 f7 ∗ pw c M8 f8
          ∗ pt c M9 f9 ∗ pt c M10 f10
          ∗ (iprop(pw c M1 f1 ∗ pw c M2 f2 ∗ pw c M3 f3 ∗ pw c M4 f4 ∗ pw c M5 f5 ∗ pw c M6 f6 ∗ pw c M7 f7
                ∗ pw c M8 W.1 ∗ pt c M9 W.2.1 ∗ pt c M10 W.2.2) -∗ Q ⟨⟩))
        ⊢ wp frame (wpE (defs₀ (F := F)) 𝒱₀ c none) E
            (cc0__kernel i M1 h1 M2 h2 M3 h3 M4 h4 M5 h5 M6 h6 M7 h7 M8 h8 M9 h9 M10 h10) Q } := by
  refine ⟨⟨?_, ?_, ?_⟩, fun f8 E Q => ?run⟩
  case run =>
    iintro ⟨H1, H2, H3, H4, H5, H6, H7, H8, H9, H10, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Proof.KernelBody

end
-- ==== Proof.IndepK.lean ====
/-
  The output block the body leaves does not depend on what the scratch buffers held before the body ran.

  The second scratch buffer is written two rows at a time: each two-row rectangle by a store that puts its first
  row over what it found there, then by a store that puts its second row over what the first store left.  The
  second store hides the first, and its payload is the two rows put, whatever was found.  So the buffer read back
  whole, and with it the output block, is the same from any prior contents.
-/
import proofs.«129508_j67740224193011_2_alg».proof.Proof.BodyK

noncomputable section

namespace Cert.Proof.KernelBody

open Cert.Kernel Cert.Kernel.Gen

open Idealize.ShloMosaic
open Idealize.ShloMosaic.TcCoe
open Idealize.SL Idealize.SL.Sem

variable {F : FTy → Type} [FloatOps F]

set_option maxHeartbeats 2000000 in
set_option maxRecDepth 100000 in
/-- The second scratch buffer read back whole is the same from any prior contents. -/
theorem v561_indep (c : Dev nD)
    (M1 : Memref sig .tc .vmem S6144x192 .f32) (M2 : Memref sig .tc .vmem S192x48 .bf16)
    (M3 : Memref sig .tc .vmem S192x48 .bf16) (M4 : Memref sig .tc .vmem S2304x256 .bf16)
    (M5 : Memref sig .tc .vmem S256x2304 .bf16) (M9 : Memref sig .tc .vmem S32x2304 .bf16) (M10 : Memref sig .tc .vmem S32x48x48 .bf16)
    (f1 : Bf (F := F) c M1) (f2 : Bf (F := F) c M2) (f3 : Bf (F := F) c M3) (f4 : Bf (F := F) c M4) (f5 : Bf (F := F) c M5)
    (f10 f10' : Bf (F := F) c M10) :
    kernelRunP.sl.v561 c M1 M2 M3 M4 M5 M9 M10 f1 f2 f3 f4 f5 f10 = kernelRunP.sl.v561 c M1 M2 M3 M4 M5 M9 M10 f1 f2 f3 f4 f5 f10' := by
  unfold kernelRunP.sl.v561
  rw [View.readCov_eq_canon', View.readCov_eq_canon']
  funext j
  refine congrFun (Cert.Shadow.canon_eq_of_pairsRel _ _ ?_) _
  simp only [kernelRunP.sl.H10_19, kernelRunP.sl.H10_43, kernelRunP.sl.H10_1, kernelRunP.sl.H10_27, kernelRunP.sl.H10_5, kernelRunP.sl.H10_47, kernelRunP.sl.H10_13, kernelRunP.sl.H10_25, kernelRunP.sl.H10_21, kernelRunP.sl.H10_9, kernelRunP.sl.H10_15, kernelRunP.sl.H10_29, kernelRunP.sl.H10_23, kernelRunP.sl.H10_33, kernelRunP.sl.H10_37, kernelRunP.sl.H10_17, kernelRunP.sl.H10_3, kernelRunP.sl.H10_12, kernelRunP.sl.H10_39, kernelRunP.sl.H10_35, kernelRunP.sl.H10_32, kernelRunP.sl.H10_11, kernelRunP.sl.H10_31, kernelRunP.sl.H10_41, kernelRunP.sl.H10_48, kernelRunP.sl.H10_45, kernelRunP.sl.H10_7, kernelRunP.sl.H10_26, kernelRunP.sl.H10_6, kernelRunP.sl.old_28, kernelRunP.sl.old_12, kernelRunP.sl.old_4, kernelRunP.sl.old_42, kernelRunP.sl.old, kernelRunP.sl.old_6, kernelRunP.sl.old_44, kernelRunP.sl.old_36, kernelRunP.sl.old_30, kernelRunP.sl.old_2, kernelRunP.sl.old_26, kernelRunP.sl.old_34, kernelRunP.sl.old_40, kernelRunP.sl.old_38, kernelRunP.sl.old_18, kernelRunP.sl.old_16, kernelRunP.sl.old_22, kernelRunP.sl.old_20, kernelRunP.sl.old_46, kernelRunP.sl.old_24, kernelRunP.sl.old_10, kernelRunP.sl.old_32, kernelRunP.sl.old_14, kernelRunP.sl.old_8, View.readCov_cons_toLoadRect, Cert.Shadow.PairsRel, true_and, and_true]
  repeat' (first | exact trivial | exact congrArg (Sigma.mk _) (Cert.Shadow.updateSlice_rows _ _ _ _ _ _) | refine ⟨?_, ?_⟩)

end Cert.Proof.KernelBody

end
-- ==== Proof.RunK.lean ====
/-
  The pipeline around the body: the proof data, the body obligation at every grid point, the run of the whole
  program, and its frame.

  At grid point t the body finds the seven input windows' blocks in their staging buffers (the first window's block
  moves with t, the other six are fetched once) and leaves in the output window's staging buffer a function of
  those seven blocks alone (the two scratch buffers are overwritten before they are read back: their prior
  contents do not reach the output).
-/
import proofs.«129508_j67740224193011_2_alg».proof.Proof.IndepK

noncomputable section

namespace Cert.Proof.KernelBody

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

set_option maxHeartbeats 1000000 in
/-- The output block the body leaves does not depend on the scratch buffers' prior contents. -/
theorem W1_indep (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f9 f9' : Bf (F := F) c M9) (f10 f10' : Bf (F := F) c M10) :
    (kernelRunP c i M1 h1 M2 h2 M3 h3 M4 h4 M5 h5 M6 h6 M7 h7 M8 h8 M9 h9 M10 h10 f1 f2 f3 f4 f5 f6 f7 f9 f10).1.1
      = (kernelRunP c i M1 h1 M2 h2 M3 h3 M4 h4 M5 h5 M6 h6 M7 h7 M8 h8 M9 h9 M10 h10 f1 f2 f3 f4 f5 f6 f7 f9' f10').1.1 := by
  unfold kernelRunP
  dsimp only
  unfold kernelRunP.sl.H8_1
  rw [v561_indep c M1 M2 M3 M4 M5 M9 M10 f1 f2 f3 f4 f5 f10 f10']

/-! ## The body on staging buffers that hold given blocks -/

/-- The output block the body leaves, of the seven input blocks. -/
def outBlock (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (x1 : Vec F S6144x192 .f32) (x2 x3 : Vec F S192x48 .bf16) (x4 : Vec F S2304x256 .bf16) (x5 : Vec F S256x2304 .bf16)
    (x6 x7 : Vec F S48x192 .bf16) : Vec F S6144x192 .f32 :=
  M8.view.read (Elt F) (kernelRunP c i M1 h1 M2 h2 M3 h3 M4 h4 M5 h5 M6 h6 M7 h7 M8 h8 M9 h9 M10 h10
    (h1.unread x1) (h2.unread x2) (h3.unread x3) (h4.unread x4) (h5.unread x5) (h6.unread x6) (h7.unread x7)
    M9.view.junk M10.view.junk).1.1

/-- On whole staging memrefs holding the blocks x1 … x7, the output's at anything and the two scratch buffers at
    anything, the body runs to the continuation holding the inputs as they were, the output at outBlock, the
    scratch buffers at something. -/
theorem kernelRun (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (x1 : Vec F S6144x192 .f32) (x2 x3 : Vec F S192x48 .bf16) (x4 : Vec F S2304x256 .bf16) (x5 : Vec F S256x2304 .bf16)
    (x6 x7 : Vec F S48x192 .bf16) (E : Set ℕ) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ owns (c : Thread nD τ) M7 fullShare x7 ∗ (∃ d, owns (c : Thread nD τ) M8 fullShare d)
        ∗ (∃ f, pt (F := F) c M9 f) ∗ (∃ f, pt (F := F) c M10 f)
        ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare x7
            ∗ owns (c : Thread nD τ) M8 fullShare (outBlock c i M1 h1 M2 h2 M3 h3 M4 h4 M5 h5 M6 h6 M7 h7 M8 h8 M9 h9 M10 h10 x1 x2 x3 x4 x5 x6 x7)
            ∗ (∃ f, pt (F := F) c M9 f) ∗ (∃ f, pt (F := F) c M10 f)) -∗ K ⟨⟩))
      ⊢ wp frame (wpE (defs₀ (F := F)) 𝒱₀ c none) E
          (cc0__kernel i M1 h1 M2 h2 M3 h3 M4 h4 M5 h5 M6 h6 M7 h7 M8 h8 M9 h9 M10 h10) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%f9, H9⟩, ⟨%f10, H10⟩, Hk⟩
  obtain rfl := h1.eq_unread hf1; obtain rfl := h2.eq_unread hf2; obtain rfl := h3.eq_unread hf3
  obtain rfl := h4.eq_unread hf4; obtain rfl := h5.eq_unread hf5; obtain rfl := h6.eq_unread hf6
  obtain rfl := h7.eq_unread hf7
  iapply ((kernelRunP c i M1 h1 M2 h2 M3 h3 M4 h4 M5 h5 M6 h6 M7 h7 M8 h8 M9 h9 M10 h10
    (h1.unread x1) (h2.unread x2) (h3.unread x3) (h4.unread x4) (h5.unread x5) (h6.unread x6) (h7.unread x7) f9 f10).2 f8 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; swap; · iexact H8
    ipureintro
    exact congrArg (M8.view.read (Elt F)) (W1_indep c i M1 h1 M2 h2 M3 h3 M4 h4 M5 h5 M6 h6 M7 h7 M8 h8 M9 h9 M10 h10 _ _ _ _ _ _ _ f9 _ f10 _)
  isplitl [H9]; · iexists _; iexact H9
  iexists _; iexact H10

end Cert.Proof.KernelBody

end
-- ==== Proof.PipeK.lean ====
/-
  The proof data of the pipeline, the body obligation at every grid point, the run of the whole program and its frame.
-/
import proofs.«129508_j67740224193011_2_alg».proof.Proof.RunK

noncomputable section

namespace Cert.Proof.KernelBody

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block the body leaves in the output window's staging buffer at grid point t: outBlock at the point's
    staging memrefs and the seven input blocks there. -/
def outsAt (c : Dev nD) (t : Fin cfg0.N) : Vec F S6144x192 .f32 :=
  outBlock c (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t)

/-- The arrays as the region finds them; after the body each input's buffer at its block and the output's at outsAt;
    the invariant: the scratch buffers at some contents and the generator register at some state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The body obligation at every grid point: the table's entry is the kernel on the point's staging memrefs; the
    inputs' memrefs hold their blocks; the scratch buffers come out of the invariant and go back into it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold outsAt Pipeline.ΦA
  rw [scopedRest0_eq]
  iintro ⟨⟨⟨⟨%f9, H9⟩, ⟨%f10, H10⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H9]; · iexists _; iexact H9
  isplitl [H10]; · iexists _; iexact H10
  iintro ⟨H0, H1, H2, H3, H4, H5, H6, H7, H9, H10⟩
  isplitl [H9 H10 Hr]
  · isplitr [Hr]; swap; · iexact Hr
    isplitl [H9]; · iexact H9
    iexact H10
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- At the compiled mesh, for any values, from any memory with zero counters: every weakly fair execution of the whole
    program terminates, and every final state has every array of the pipeline at what the proof data give and every
    other buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

end Cert.Proof.KernelBody

end
-- ==== Proof.FinalFrames.lean ====
/-
  The three frames.

  Each program, run from a memory satisfying the precondition, terminates without a fault and leaves its seven argument
  arrays as it found them: for the two kernel programs this is the run of the whole pipeline read at the argument arrays
  (no window writes them and no host operation does); for the reference it is its run with the result dropped.
-/
import proofs.«129508_j67740224193011_2_alg».proof.Defs
import proofs.«129508_j67740224193011_2_alg».proof.Proof.PipeKI
import proofs.«129508_j67740224193011_2_alg».proof.Proof.PipeK
import proofs.«129508_j67740224193011_2_alg».proof.Proof.Gen.ReferenceIdeal.Run
import proofs.«129508_j67740224193011_2_alg».proof.Proof.Gen.Pre_finite_inputs

noncomputable section

namespace Cert.Proof.Final

open Idealize.ShloMosaic Idealize.SL.Sem

/-- The word-level kernel program runs and keeps its arguments. -/
theorem frame_Kernel : Cert.frame_Kernel :=
  fun m ρ _ => Cert.Kernel.Gen.frame_of m ρ (Cert.Proof.KernelBody.dats m) (fun _ _ => rfl)
    (Cert.Proof.KernelBody.run_main (F := Bits) m ρ)

/-- The idealized kernel program runs and keeps its arguments. -/
theorem frame_KernelIdeal : Cert.frame_KernelIdeal :=
  fun m ρ _ => Cert.KernelIdeal.Gen.frame_of m ρ (Cert.Proof.KernelIdealBody.dats m) (fun _ _ => rfl)
    (Cert.Proof.KernelIdealBody.run_main (F := Ideal) m ρ)

/-- The reference runs and keeps its arguments. -/
theorem frame_ReferenceIdeal : Cert.frame_ReferenceIdeal :=
  fun m ρ _ => (θ_run Cert.ReferenceIdeal.defs _ _).mono (fun _ h c => (h c).2)
    (Cert.ReferenceIdeal.Value.run (F := Ideal) m ρ)

end Cert.Proof.Final
-- ==== Proof.RefLib.lean ====
/-
  General facts used to read the reference program over the reals.

  An array of extended reals all of whose entries are real is written lift2 M for a real matrix M.  Sums, products,
  differences and maxima of coerced reals are coerced reals; the exponential of a coerced real is the coerced real
  exponential; a quotient by a nonzero coerced real is the coerced quotient.  A sum over a merged axis of extent A * B
  is the double sum over the pair (a, b) ↦ a * B + b.
-/
import Idealize.ShloMosaic.PureOps.Ideal.Laws
import Idealize.ShloMosaic.Lib.ValueIdx
import proofs.«129508_j67740224193011_2_alg».proof.Proof.SpecOut

noncomputable section

namespace Cert.RefSide

open Idealize.ShloMosaic Idealize.ShloMosaic.ValueIdx Cert.KronSpec

/-- A real matrix as an array of extended reals. -/
def lift2 {a b : ℕ} (M : Fin a → Fin b → ℝ) : (⟨2, ![a, b]⟩ : Shape).Idx → EReal :=
  fun i => ((M (i 0) (i 1) : ℝ) : EReal)

theorem lift2_apply {a b : ℕ} (M : Fin a → Fin b → ℝ) (i : (⟨2, ![a, b]⟩ : Shape).Idx) :
    lift2 M i = ((M (i 0) (i 1) : ℝ) : EReal) := rfl

theorem lift2_ix2 {a b : ℕ} (M : Fin a → Fin b → ℝ) (r : Fin a) (k : Fin b) :
    lift2 M (ix2 r k) = ((M r k : ℝ) : EReal) := rfl

/-- An array all of whose entries are real is the lift of its real parts. -/
theorem eq_lift2_of_real {a b : ℕ} (x : (⟨2, ![a, b]⟩ : Shape).Idx → EReal) (hx : ∀ i, ∃ r : ℝ, x i = (r : EReal)) :
    x = lift2 (fun r k => (x (ix2 r k)).toReal) := by
  funext i
  obtain ⟨r, hr⟩ := hx i
  have e : x (ix2 (i 0) (i 1)) = x i := congrArg x (eq_ix2 i).symm
  show x i = (((x (ix2 (i 0) (i 1))).toReal : ℝ) : EReal)
  rw [e, hr, EReal.toReal_coe]

/-- The coercion of a finite sum of reals. -/
theorem coe_sum {ι : Type*} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- A sum over a merged axis is the double sum over its two factors. -/
theorem sum_merged {M : Type*} [AddCommMonoid M] {A B : ℕ} (f : Fin (A * B) → M) :
    ∑ p, f p = ∑ a : Fin A, ∑ b : Fin B, f (finProdFinEquiv (a, b)) := by
  rw [← finProdFinEquiv.sum_comp f, Fintype.sum_prod_type]

/-- The word of negative infinity. -/
theorem ofBits_negInf : Ideal.ofBits .f32 0xFF800000#32 = (⊥ : EReal) := by
  simp [Ideal.ofBits, Ideal.ieee]

theorem coe_max (x y : ℝ) : ((max x y : ℝ) : EReal) = max (x : EReal) (y : EReal) :=
  EReal.coe_strictMono.monotone.map_max

/-- Folding the maximum from negative infinity over a nonempty row of reals gives the row's largest entry. -/
theorem fold_max_coe {b : ℕ} (hb : 0 < b) (f : Fin b → ℝ) :
    (Finset.univ : Finset (Fin b)).fold max (⊥ : EReal) (fun k => ((f k : ℝ) : EReal))
      = ((Finset.univ.sup' ⟨⟨0, hb⟩, Finset.mem_univ _⟩ f : ℝ) : EReal) := by
  have h1 : (Finset.univ : Finset (Fin b)).fold max (⊥ : EReal) (fun k => ((f k : ℝ) : EReal))
      = Finset.univ.sup (fun k => ((f k : ℝ) : EReal)) := rfl
  rw [h1, ← Finset.sup'_eq_sup ⟨⟨0, hb⟩, Finset.mem_univ _⟩,
    Finset.comp_sup'_eq_sup'_comp ⟨⟨0, hb⟩, Finset.mem_univ _⟩ (fun x : ℝ => (x : EReal)) coe_max]
  rfl

/-- The shifted softmax of a row of reals, computed on the extended reals, is the real shifted softmax. -/
theorem softmax_coe {a b : ℕ} (hb : 0 < b) (M : Fin a → Fin b → ℝ) (r : Fin a) (k : Fin b) :
    Ideal.div (Ideal.exp (((M r k : ℝ) : EReal) - ((rowMax hb M r : ℝ) : EReal)))
        (0 + ∑ k' : Fin b, Ideal.exp (((M r k' : ℝ) : EReal) - ((rowMax hb M r : ℝ) : EReal)))
      = ((smx hb M r k : ℝ) : EReal) := by
  have hpos : 0 < ∑ k' : Fin b, Real.exp (M r k' - rowMax hb M r) :=
    Finset.sum_pos (fun k' _ => Real.exp_pos _) ⟨⟨0, hb⟩, Finset.mem_univ _⟩
  have hs : (0 : EReal) + ∑ k' : Fin b, Ideal.exp (((M r k' : ℝ) : EReal) - ((rowMax hb M r : ℝ) : EReal))
      = ((∑ k' : Fin b, Real.exp (M r k' - rowMax hb M r) : ℝ) : EReal) := by
    rw [zero_add, ← coe_sum]
    refine Finset.sum_congr rfl fun k' _ => ?_
    rw [← EReal.coe_sub, Ideal.exp_coe]
  unfold smx
  rw [hs, Ideal.div_coe (ne_of_gt hpos), ← EReal.coe_sub, Ideal.exp_coe, ← EReal.coe_mul, mul_one_div]

end Cert.RefSide
-- ==== Proof.RefEnc.lean ====
/-
  The encoding stage of the reference.

  The reference forms the Kronecker matrix of C_inv and B_inv, whose entry (r3·48 + r2, k·192 + j) is
  C_inv[r3, k] · B_inv[r2, j], contracts it with the rows of X over the merged axis (k, j), and contracts the result
  with G_inv over the merged latent axis (r3, r2).  On real inputs every partial result is real, and the entry
  (n, r1) is the nested sum encR.
-/
import proofs.«129508_j67740224193011_2_alg».proof.Proof.Gen.ReferenceIdeal.Read
import proofs.«129508_j67740224193011_2_alg».proof.Proof.RefLib

noncomputable section

namespace Cert.RefSide

open Cert.ReferenceIdeal Cert.ReferenceIdeal.Gen Cert.ReferenceIdeal.Read
open Idealize.ShloMosaic Idealize.ShloMosaic.ValueIdx Cert.KronSpec

/-- Entry (r3·48 + r2, k·192 + j) of the Kronecker matrix of C_inv and B_inv is C_inv[r3, k] · B_inv[r2, j]. -/
theorem kronInv_entry (x4 x5 : S48x192.Idx → EReal) (r3 r2 : Fin 48) (k j : Fin 192) :
    val_main_v0 (F := Ideal) x4 x5 (ix2 (finProdFinEquiv (r3, r2)) (finProdFinEquiv (k, j)))
      = x5 (ix2 r3 k) * x4 (ix2 r2 j) := by
  have h3 := r3.isLt
  have h2 := r2.isLt
  have hk := k.isLt
  have hj := j.isLt
  rw [val_main_v0_apply, val_main_call0_v4_apply, val_main_call0_v2_apply, val_main_call0_v0_apply,
    val_main_call0_v3_apply, val_main_call0_v1_apply]
  have e5 : idx_main_call0_v0 (idx_main_call0_v2 (idx_main_v0
      (ix2 (finProdFinEquiv (r3, r2)) (finProdFinEquiv (k, j))))) = ix2 r3 k :=
    funext fun a => Fin.ext (by
      match a with
      | ⟨0, _⟩ =>
        show ((r2.val + 48 * r3.val) * 36864 + (j.val + 192 * k.val)) / 1769472 = r3.val
        omega
      | ⟨1, _⟩ =>
        show ((r2.val + 48 * r3.val) * 36864 + (j.val + 192 * k.val)) / 192 % 192 = k.val
        omega)
  have e4 : idx_main_call0_v1 (idx_main_call0_v3 (idx_main_v0
      (ix2 (finProdFinEquiv (r3, r2)) (finProdFinEquiv (k, j))))) = ix2 r2 j :=
    funext fun a => Fin.ext (by
      match a with
      | ⟨0, _⟩ =>
        show ((r2.val + 48 * r3.val) * 36864 + (j.val + 192 * k.val)) / 36864 % 48 = r2.val
        omega
      | ⟨1, _⟩ =>
        show ((r2.val + 48 * r3.val) * 36864 + (j.val + 192 * k.val)) % 192 = j.val
        omega)
  rw [e5, e4]
  rfl

/-- Entry (n, r1) of the encoding: the sum over the merged latent axis of G_inv's entry times the contraction of the
    Kronecker row with row n of X. -/
theorem enc_entry_sum (x0 : S2048x36864.Idx → EReal) (x4 x5 : S48x192.Idx → EReal) (x6 : S2304x256.Idx → EReal)
    (n : Fin 2048) (r1 : Fin 256) :
    val_main_v5 (F := Ideal) x0 x4 x5 x6 (ix2 n r1)
      = ∑ p : Fin 2304, x6 (ix2 p r1)
          * ∑ q : Fin 36864, val_main_v0 (F := Ideal) x4 x5 (ix2 p q) * x0 (ix2 n q) := by
  rw [val_main_v5_apply, val_main_v4_apply]
  refine Finset.sum_congr rfl fun p _ => ?_
  rw [val_main_v1_apply, val_main_v3_apply]
  have e6 : idx_main_v1 (lidx_main_v4 (idx_main_v5 (ix2 n r1)) p) = ix2 p r1 :=
    funext fun a => Fin.ext (by match a with | ⟨0, _⟩ => rfl | ⟨1, _⟩ => rfl)
  rw [e6]
  refine congrArg (x6 (ix2 p r1) * ·) (Finset.sum_congr rfl fun q _ => ?_)
  rw [val_main_v2_apply]
  have el : lidx_main_v3 (ridx_main_v4 (idx_main_v5 (ix2 n r1)) p) q = ix2 p q :=
    funext fun a => Fin.ext (by match a with | ⟨0, _⟩ => rfl | ⟨1, _⟩ => rfl)
  have er : idx_main_v2 (ridx_main_v3 (ridx_main_v4 (idx_main_v5 (ix2 n r1)) p) q) = ix2 n q :=
    funext fun a => Fin.ext (by match a with | ⟨0, _⟩ => rfl | ⟨1, _⟩ => rfl)
  rw [el, er]

/-- On real inputs the encoding is real, and it is the nested sum encR. -/
theorem enc_eq (X : Fin 2048 → Fin 36864 → ℝ) (Bi Ci : Fin 48 → Fin 192 → ℝ) (Gi : Fin 2304 → Fin 256 → ℝ) :
    val_main_v5 (F := Ideal) (lift2 X) (lift2 Bi) (lift2 Ci) (lift2 Gi)
      = lift2 (encR (xU X) Bi Ci (giU Gi)) := by
  funext i
  obtain ⟨n, r1, rfl⟩ : ∃ (n : Fin 2048) (r1 : Fin 256), i = ix2 n r1 := ⟨i 0, i 1, eq_ix2 i⟩
  rw [enc_entry_sum, lift2_ix2]
  unfold encR
  refine Eq.trans (sum_merged (A := 48) (B := 48) _) ?_
  rw [← coe_sum]
  refine Finset.sum_congr rfl fun r3 _ => ?_
  rw [← coe_sum]
  refine Finset.sum_congr rfl fun r2 _ => ?_
  rw [EReal.coe_mul]
  refine congrArg₂ (· * ·) rfl ?_
  refine Eq.trans (sum_merged (A := 192) (B := 192) _) ?_
  rw [← coe_sum]
  refine Finset.sum_congr rfl fun k _ => ?_
  rw [← coe_sum]
  refine Finset.sum_congr rfl fun j _ => ?_
  rw [kronInv_entry, lift2_ix2, lift2_ix2, EReal.coe_mul, EReal.coe_mul]
  rfl

end Cert.RefSide
-- ==== Proof.RefSoftmaxLib.lean ====
/-
  The row maximum as the reference computes it: a reduction with the maximum from negative infinity along the
  second axis.  On a matrix of reals the result at row t is the largest entry of that row.
-/
import Idealize.ShloMosaic.PureOps.Ideal.Laws
import Idealize.ShloMosaic.Lib.ValueIdx
import proofs.«129508_j67740224193011_2_alg».proof.Proof.RefLib

noncomputable section

namespace Cert.RefSide

open Idealize.ShloMosaic Idealize.ShloMosaic.ValueIdx Cert.KronSpec

/-- The reduced index t with column k put back is (t, k). -/
theorem lift_axis1 {m n : ℕ} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

/-- From negative infinity, the reduction with the maximum along the columns of a real matrix is the row maximum. -/
theorem hostReduce_max_row {m n : ℕ} (hn : 0 < n) (M : Fin m → Fin n → ℝ)
    (h' : (⟨2, ![m, n]⟩ : Shape).ReducesTo [1] (⟨1, ![m]⟩ : Shape))
    (h : (⟨2, ![m, n]⟩ : Shape).Reduces [1] (⟨1, ![m]⟩ : Shape))
    (hu : 0 < (⟨0, ![]⟩ : Shape).numel) (t : Fin m) :
    Host.reduce FloatOps.maximumf (lift2 M) (constant (F := Ideal) (⟨0, ![]⟩ : Shape) .f32 0xFF800000#32) h' hu (ix1 t)
      = ((rowMax hn M t : ℝ) : EReal) := by
  rw [Host.reduce_eq_fold_single (FloatOps.maximumf (F := Ideal) (φ := .f32)) (lift2 M) _ h' h hu]
  have hb : (constant (F := Ideal) (⟨0, ![]⟩ : Shape) .f32 0xFF800000#32) (Shape.Idx.first hu) = (⊥ : EReal) :=
    ofBits_negInf
  have hf : (lift2 M ∘ h.lift (ix1 t)) = fun k : Fin n => ((M t k : ℝ) : EReal) :=
    funext fun k => by rw [Function.comp_apply, lift_axis1]; rfl
  rw [hb, hf]
  exact fold_max_coe hn (M t)

end Cert.RefSide
-- ==== Proof.RefSoftmaxA.lean ====
/-
  The row softmax of the encoding as the reference computes it.  On real inputs the encoding is the real matrix encR,
  and its softmax stage is the real shifted row softmax of that matrix.
-/
import proofs.«129508_j67740224193011_2_alg».proof.Proof.Gen.ReferenceIdeal.Read
import proofs.«129508_j67740224193011_2_alg».proof.Proof.RefSoftmaxLib
import proofs.«129508_j67740224193011_2_alg».proof.Proof.RefEnc

noncomputable section

namespace Cert.RefSide

open Cert.ReferenceIdeal Cert.ReferenceIdeal.Gen Cert.ReferenceIdeal.Read
open Idealize.ShloMosaic Idealize.ShloMosaic.ValueIdx Cert.KronSpec

/-- The shift subtracted from entry (r, k) is the largest entry of row r. -/
theorem smA_shift (X : Fin 2048 → Fin 36864 → ℝ) (Bi Ci : Fin 48 → Fin 192 → ℝ) (Gi : Fin 2304 → Fin 256 → ℝ) (r : Fin 2048) (k : Fin 256) :
    val_main_v33 (F := Ideal) (lift2 X) (lift2 Bi) (lift2 Ci) (lift2 Gi) (ix2 r k) = ((rowMax (by norm_num) (encR (xU X) Bi Ci (giU Gi)) r : ℝ) : EReal) := by
  rw [val_main_v33_apply, val_main_v32_apply, val_main_v31_apply, val_main_v30_apply, val_main_cst_6_apply]
  have e : idx_main_v32 (idx_main_v33 (ix2 r k)) = ix1 r :=
    funext fun a => Fin.ext (by match a with | ⟨0, _⟩ => rfl)
  rw [e]
  unfold val_main_v29 val_main_cst_5
  rw [enc_eq]
  rw [hostReduce_max_row (by norm_num) (encR (xU X) Bi Ci (giU Gi)) reducesTo_S2048x256_S2048_d1 (by decide) h_S_ r]
  rw [Ideal.maximumf_def, Ideal.ofBits_def, ofBits_negInf]
  exact max_eq_right bot_le

/-- The shifted exponential at entry (r, k). -/
theorem smA_exp (X : Fin 2048 → Fin 36864 → ℝ) (Bi Ci : Fin 48 → Fin 192 → ℝ) (Gi : Fin 2304 → Fin 256 → ℝ) (r : Fin 2048) (k : Fin 256) :
    val_main_v35 (F := Ideal) (lift2 X) (lift2 Bi) (lift2 Ci) (lift2 Gi) (ix2 r k)
      = Ideal.exp ((((encR (xU X) Bi Ci (giU Gi)) r k : ℝ) : EReal) - ((rowMax (by norm_num) (encR (xU X) Bi Ci (giU Gi)) r : ℝ) : EReal)) := by
  rw [val_main_v35_apply, val_main_v34_apply, smA_shift, enc_eq]
  rfl

/-- On real inputs the reference's softmax of the encoding is the real shifted row softmax of encR. -/
theorem smA_eq (X : Fin 2048 → Fin 36864 → ℝ) (Bi Ci : Fin 48 → Fin 192 → ℝ) (Gi : Fin 2304 → Fin 256 → ℝ) :
    val_main_v39 (F := Ideal) (lift2 X) (lift2 Bi) (lift2 Ci) (lift2 Gi) = lift2 (smx (by norm_num) (encR (xU X) Bi Ci (giU Gi))) := by
  funext i
  obtain ⟨r, k, rfl⟩ : ∃ (r : Fin 2048) (k : Fin 256), i = ix2 r k := ⟨i 0, i 1, eq_ix2 i⟩
  rw [val_main_v39_apply, val_main_v38_apply, val_main_v37_apply, val_main_v36_apply, val_main_cst_7_apply, smA_exp]
  have hsum : ∑ k' : Fin 256, val_main_v35 (F := Ideal) (lift2 X) (lift2 Bi) (lift2 Ci) (lift2 Gi) (idx_main_v36 (idx_main_v37 (idx_main_v38 (ix2 r k))) k')
      = ∑ k' : Fin 256, Ideal.exp ((((encR (xU X) Bi Ci (giU Gi)) r k' : ℝ) : EReal) - ((rowMax (by norm_num) (encR (xU X) Bi Ci (giU Gi)) r : ℝ) : EReal)) :=
    Finset.sum_congr rfl fun k' _ => by
      have e : idx_main_v36 (idx_main_v37 (idx_main_v38 (ix2 r k))) k' = ix2 r k' :=
        funext fun a => Fin.ext (by match a with | ⟨0, _⟩ => rfl | ⟨1, _⟩ => rfl)
      rw [e, smA_exp]
  rw [hsum, Ideal.hostDivf_def, Ideal.ofBits_def, Ideal.ofBits_zero_f32, lift2_ix2]
  exact softmax_coe _ (encR (xU X) Bi Ci (giU Gi)) r k

end Cert.RefSide
-- ==== Proof.RefSoftmaxB.lean ====
/-
  The row softmax of B as the reference computes it: the shift by the row maximum, the exponentials, their row sum,
  the quotient.  On a real matrix the result is the real shifted softmax.
-/
import proofs.«129508_j67740224193011_2_alg».proof.Proof.Gen.ReferenceIdeal.Read
import proofs.«129508_j67740224193011_2_alg».proof.Proof.RefSoftmaxLib

noncomputable section

namespace Cert.RefSide

open Cert.ReferenceIdeal Cert.ReferenceIdeal.Gen Cert.ReferenceIdeal.Read
open Idealize.ShloMosaic Idealize.ShloMosaic.ValueIdx Cert.KronSpec

/-- The shift subtracted from entry (r, k) is the largest entry of row r. -/
theorem smB_shift (M : Fin 192 → Fin 48 → ℝ) (r : Fin 192) (k : Fin 48) :
    val_main_v21 (F := Ideal) (lift2 M) (ix2 r k) = ((rowMax (by norm_num) M r : ℝ) : EReal) := by
  rw [val_main_v21_apply, val_main_v20_apply, val_main_v19_apply, val_main_v18_apply, val_main_cst_3_apply]
  have e : idx_main_v20 (idx_main_v21 (ix2 r k)) = ix1 r :=
    funext fun a => Fin.ext (by match a with | ⟨0, _⟩ => rfl)
  rw [e]
  unfold val_main_v17 val_main_cst_2
  rw [hostReduce_max_row (by norm_num) M reducesTo_S192x48_S192_d1 (by decide) h_S_ r]
  rw [Ideal.maximumf_def, Ideal.ofBits_def, ofBits_negInf]
  exact max_eq_right bot_le

/-- The shifted exponential at entry (r, k). -/
theorem smB_exp (M : Fin 192 → Fin 48 → ℝ) (r : Fin 192) (k : Fin 48) :
    val_main_v23 (F := Ideal) (lift2 M) (ix2 r k)
      = Ideal.exp (((M r k : ℝ) : EReal) - ((rowMax (by norm_num) M r : ℝ) : EReal)) := by
  rw [val_main_v23_apply, val_main_v22_apply, smB_shift]
  rfl

/-- On a real matrix B the reference's softmax stage is the real shifted row softmax. -/
theorem smB_eq (M : Fin 192 → Fin 48 → ℝ) :
    val_main_v27 (F := Ideal) (lift2 M) = lift2 (smx (by norm_num) M) := by
  funext i
  obtain ⟨r, k, rfl⟩ : ∃ (r : Fin 192) (k : Fin 48), i = ix2 r k := ⟨i 0, i 1, eq_ix2 i⟩
  rw [val_main_v27_apply, val_main_v26_apply, val_main_v25_apply, val_main_v24_apply, val_main_cst_4_apply, smB_exp]
  have hsum : ∑ k' : Fin 48, val_main_v23 (F := Ideal) (lift2 M) (idx_main_v24 (idx_main_v25 (idx_main_v26 (ix2 r k))) k')
      = ∑ k' : Fin 48, Ideal.exp (((M r k' : ℝ) : EReal) - ((rowMax (by norm_num) M r : ℝ) : EReal)) :=
    Finset.sum_congr rfl fun k' _ => by
      have e : idx_main_v24 (idx_main_v25 (idx_main_v26 (ix2 r k))) k' = ix2 r k' :=
        funext fun a => Fin.ext (by match a with | ⟨0, _⟩ => rfl | ⟨1, _⟩ => rfl)
      rw [e, smB_exp]
  rw [hsum, Ideal.hostDivf_def, Ideal.ofBits_def, Ideal.ofBits_zero_f32, lift2_ix2]
  exact softmax_coe _ M r k

end Cert.RefSide
-- ==== Proof.RefSoftmaxC.lean ====
/-
  The row softmax of C as the reference computes it: the shift by the row maximum, the exponentials, their row sum,
  the quotient.  On a real matrix the result is the real shifted softmax.
-/
import proofs.«129508_j67740224193011_2_alg».proof.Proof.Gen.ReferenceIdeal.Read
import proofs.«129508_j67740224193011_2_alg».proof.Proof.RefSoftmaxLib

noncomputable section

namespace Cert.RefSide

open Cert.ReferenceIdeal Cert.ReferenceIdeal.Gen Cert.ReferenceIdeal.Read
open Idealize.ShloMosaic Idealize.ShloMosaic.ValueIdx Cert.KronSpec

/-- The shift subtracted from entry (r, k) is the largest entry of row r. -/
theorem smC_shift (M : Fin 192 → Fin 48 → ℝ) (r : Fin 192) (k : Fin 48) :
    val_main_v10 (F := Ideal) (lift2 M) (ix2 r k) = ((rowMax (by norm_num) M r : ℝ) : EReal) := by
  rw [val_main_v10_apply, val_main_v9_apply, val_main_v8_apply, val_main_v7_apply, val_main_cst_0_apply]
  have e : idx_main_v9 (idx_main_v10 (ix2 r k)) = ix1 r :=
    funext fun a => Fin.ext (by match a with | ⟨0, _⟩ => rfl)
  rw [e]
  unfold val_main_v6 val_main_cst
  rw [hostReduce_max_row (by norm_num) M reducesTo_S192x48_S192_d1 (by decide) h_S_ r]
  rw [Ideal.maximumf_def, Ideal.ofBits_def, ofBits_negInf]
  exact max_eq_right bot_le

/-- The shifted exponential at entry (r, k). -/
theorem smC_exp (M : Fin 192 → Fin 48 → ℝ) (r : Fin 192) (k : Fin 48) :
    val_main_v12 (F := Ideal) (lift2 M) (ix2 r k)
      = Ideal.exp (((M r k : ℝ) : EReal) - ((rowMax (by norm_num) M r : ℝ) : EReal)) := by
  rw [val_main_v12_apply, val_main_v11_apply, smC_shift]
  rfl

/-- On a real matrix C the reference's softmax stage is the real shifted row softmax. -/
theorem smC_eq (M : Fin 192 → Fin 48 → ℝ) :
    val_main_v16 (F := Ideal) (lift2 M) = lift2 (smx (by norm_num) M) := by
  funext i
  obtain ⟨r, k, rfl⟩ : ∃ (r : Fin 192) (k : Fin 48), i = ix2 r k := ⟨i 0, i 1, eq_ix2 i⟩
  rw [val_main_v16_apply, val_main_v15_apply, val_main_v14_apply, val_main_v13_apply, val_main_cst_1_apply, smC_exp]
  have hsum : ∑ k' : Fin 48, val_main_v12 (F := Ideal) (lift2 M) (idx_main_v13 (idx_main_v14 (idx_main_v15 (ix2 r k))) k')
      = ∑ k' : Fin 48, Ideal.exp (((M r k' : ℝ) : EReal) - ((rowMax (by norm_num) M r : ℝ) : EReal)) :=
    Finset.sum_congr rfl fun k' _ => by
      have e : idx_main_v13 (idx_main_v14 (idx_main_v15 (ix2 r k))) k' = ix2 r k' :=
        funext fun a => Fin.ext (by match a with | ⟨0, _⟩ => rfl | ⟨1, _⟩ => rfl)
      rw [e, smC_exp]
  rw [hsum, Ideal.hostDivf_def, Ideal.ofBits_def, Ideal.ofBits_zero_f32, lift2_ix2]
  exact softmax_coe _ M r k

end Cert.RefSide
-- ==== Proof.RefDec.lean ====
/-
  The decoding stage of the reference, read at an index.

  The Kronecker matrix of softmax(C) and softmax(B) has entry (k·192 + j, r3·48 + r2) equal to
  softmax(C)[k, r3] · softmax(B)[j, r2]; the reference transposes it and contracts it, over the merged latent axis,
  with the product of softmax(A) and relu(G).
-/
import proofs.«129508_j67740224193011_2_alg».proof.Proof.Gen.ReferenceIdeal.Read
import proofs.«129508_j67740224193011_2_alg».proof.Proof.RefLib

noncomputable section

namespace Cert.RefSide

open Cert.ReferenceIdeal Cert.ReferenceIdeal.Gen Cert.ReferenceIdeal.Read
open Idealize.ShloMosaic Idealize.ShloMosaic.ValueIdx Cert.KronSpec

/-- Entry (k·192 + j, r3·48 + r2) of the Kronecker matrix of the two softmaxes. -/
theorem kronSm_entry (x1 x2 : S192x48.Idx → EReal) (k j : Fin 192) (r3 r2 : Fin 48) :
    val_main_v28 (F := Ideal) x1 x2 (ix2 (finProdFinEquiv (k, j)) (finProdFinEquiv (r3, r2)))
      = val_main_v16 (F := Ideal) x2 (ix2 k r3) * val_main_v27 (F := Ideal) x1 (ix2 j r2) := by
  have h3 := r3.isLt
  have h2 := r2.isLt
  have hk := k.isLt
  have hj := j.isLt
  rw [val_main_v28_apply, val_main_call1_v4_apply, val_main_call1_v2_apply, val_main_call1_v0_apply,
    val_main_call1_v3_apply, val_main_call1_v1_apply]
  have e2 : idx_main_call1_v0 (idx_main_call1_v2 (idx_main_v28
      (ix2 (finProdFinEquiv (k, j)) (finProdFinEquiv (r3, r2))))) = ix2 k r3 :=
    funext fun a => Fin.ext (by
      match a with
      | ⟨0, _⟩ =>
        show ((j.val + 192 * k.val) * 2304 + (r2.val + 48 * r3.val)) / 442368 = k.val
        omega
      | ⟨1, _⟩ =>
        show ((j.val + 192 * k.val) * 2304 + (r2.val + 48 * r3.val)) / 48 % 48 = r3.val
        omega)
  have e1 : idx_main_call1_v1 (idx_main_call1_v3 (idx_main_v28
      (ix2 (finProdFinEquiv (k, j)) (finProdFinEquiv (r3, r2))))) = ix2 j r2 :=
    funext fun a => Fin.ext (by
      match a with
      | ⟨0, _⟩ =>
        show ((j.val + 192 * k.val) * 2304 + (r2.val + 48 * r3.val)) / 2304 % 192 = j.val
        omega
      | ⟨1, _⟩ =>
        show ((j.val + 192 * k.val) * 2304 + (r2.val + 48 * r3.val)) % 48 = r2.val
        omega)
  rw [e2, e1]
  rfl

/-- relu(G) on a real matrix. -/
theorem relu_entry (G : Fin 256 → Fin 2304 → ℝ) (r1 : Fin 256) (p : Fin 2304) :
    val_main_v40 (F := Ideal) (lift2 G) (ix2 r1 p) = ((max (G r1 p) 0 : ℝ) : EReal) := by
  rw [val_main_v40_apply, val_main_call2_v0_apply, val_main_call2_cst_apply, lift2_ix2, Ideal.maximumf_def,
    Ideal.ofBits_def, Ideal.ofBits_zero_f32, coe_max, EReal.coe_zero]

/-- Entry (n, p) of softmax(A) relu(G): the sum over the latent coordinate r1. -/
theorem latent_entry_sum (x0 : S2048x36864.Idx → EReal) (x3 : S256x2304.Idx → EReal) (x4 x5 : S48x192.Idx → EReal)
    (x6 : S2304x256.Idx → EReal) (n : Fin 2048) (p : Fin 2304) :
    val_main_v41 (F := Ideal) x0 x3 x4 x5 x6 (ix2 n p)
      = ∑ r1 : Fin 256, val_main_v39 (F := Ideal) x0 x4 x5 x6 (ix2 n r1) * val_main_v40 (F := Ideal) x3 (ix2 r1 p) := by
  rw [val_main_v41_apply]
  refine Finset.sum_congr rfl fun r1 _ => ?_
  have el : lidx_main_v41 (ix2 n p) r1 = ix2 n r1 :=
    funext fun a => Fin.ext (by match a with | ⟨0, _⟩ => rfl | ⟨1, _⟩ => rfl)
  have er : ridx_main_v41 (ix2 n p) r1 = ix2 r1 p :=
    funext fun a => Fin.ext (by match a with | ⟨0, _⟩ => rfl | ⟨1, _⟩ => rfl)
  rw [el, er]

/-- Entry (n, q) of the result: the sum over the merged latent axis of the latent entry times the transposed
    Kronecker entry. -/
theorem out_entry_sum (x0 : S2048x36864.Idx → EReal) (x1 x2 : S192x48.Idx → EReal) (x3 : S256x2304.Idx → EReal)
    (x4 x5 : S48x192.Idx → EReal) (x6 : S2304x256.Idx → EReal) (n : Fin 2048) (q : Fin 36864) :
    val_main_v43 (F := Ideal) x0 x1 x2 x3 x4 x5 x6 (ix2 n q)
      = ∑ p : Fin 2304, val_main_v41 (F := Ideal) x0 x3 x4 x5 x6 (ix2 n p) * val_main_v28 (F := Ideal) x1 x2 (ix2 q p) := by
  rw [val_main_v43_apply]
  refine Finset.sum_congr rfl fun p _ => ?_
  rw [val_main_v42_apply]
  have el : lidx_main_v43 (ix2 n q) p = ix2 n p :=
    funext fun a => Fin.ext (by match a with | ⟨0, _⟩ => rfl | ⟨1, _⟩ => rfl)
  have er : idx_main_v42 (ridx_main_v43 (ix2 n q) p) = ix2 q p :=
    funext fun a => Fin.ext (by match a with | ⟨0, _⟩ => rfl | ⟨1, _⟩ => rfl)
  rw [el, er]

end Cert.RefSide
-- ==== Proof.RefValue.lean ====
/-
  The reference's result over the reals.

  When every input entry is real, every intermediate value of the reference is real, and its result at (n, q) is
  outR: the encoding summed against the Kronecker entries of C_inv and B_inv and against G_inv, its shifted row softmax,
  and the decoding summed against relu(G) and the Kronecker entries of softmax(C) and softmax(B), all in the
  reference's own order of summation.
-/
import proofs.«129508_j67740224193011_2_alg».proof.Proof.Gen.ReferenceIdeal.Run
import proofs.«129508_j67740224193011_2_alg».proof.Proof.Gen.ReferenceIdeal.Read
import proofs.«129508_j67740224193011_2_alg».proof.Proof.SpecOut
import proofs.«129508_j67740224193011_2_alg».proof.Proof.RefEnc
import proofs.«129508_j67740224193011_2_alg».proof.Proof.RefSoftmaxA
import proofs.«129508_j67740224193011_2_alg».proof.Proof.RefSoftmaxB
import proofs.«129508_j67740224193011_2_alg».proof.Proof.RefSoftmaxC
import proofs.«129508_j67740224193011_2_alg».proof.Proof.RefDec

noncomputable section

namespace Cert.RefSide

open Cert.ReferenceIdeal Cert.ReferenceIdeal.Gen Cert.ReferenceIdeal.Read
open Idealize.ShloMosaic Idealize.ShloMosaic.ValueIdx Cert.KronSpec

/-- On real input matrices the reference's last stage is the real matrix outR. -/
theorem ref_real (X : Fin 2048 → Fin 36864 → ℝ) (B C : Fin 192 → Fin 48 → ℝ) (G : Fin 256 → Fin 2304 → ℝ)
    (Bi Ci : Fin 48 → Fin 192 → ℝ) (Gi : Fin 2304 → Fin 256 → ℝ) :
    val_main_v43 (F := Ideal) (lift2 X) (lift2 B) (lift2 C) (lift2 G) (lift2 Bi) (lift2 Ci) (lift2 Gi)
      = lift2 (outR X B C G Bi Ci Gi) := by
  funext i
  obtain ⟨n, q, rfl⟩ : ∃ (n : Fin 2048) (q : Fin 36864), i = ix2 n q := ⟨i 0, i 1, eq_ix2 i⟩
  obtain ⟨⟨k, j⟩, rfl⟩ := (finProdFinEquiv (m := 192) (n := 192)).surjective q
  rw [out_entry_sum, lift2_ix2]
  have ho : outR X B C G Bi Ci Gi n (finProdFinEquiv (k, j))
      = decR (smx (by norm_num) (encR (xU X) Bi Ci (giU Gi))) (rgU G) (smx (by norm_num) B) (smx (by norm_num) C)
          n k j := by
    unfold outR
    rw [Equiv.symm_apply_apply]
  rw [ho]
  unfold decR
  refine Eq.trans (sum_merged (A := 48) (B := 48) _) ?_
  rw [← coe_sum]
  refine Finset.sum_congr rfl fun r3 _ => ?_
  rw [← coe_sum]
  refine Finset.sum_congr rfl fun r2 _ => ?_
  rw [kronSm_entry, smC_eq, smB_eq, lift2_ix2, lift2_ix2, latent_entry_sum, EReal.coe_mul, EReal.coe_mul, ← coe_sum]
  refine congrArg₂ (· * ·) (Finset.sum_congr rfl fun r1 _ => ?_) rfl
  rw [smA_eq, lift2_ix2, relu_entry, EReal.coe_mul]
  rfl

/-- When every entry of every input is real, the reference's last stage is, entry by entry, the real number outR of
    the inputs' real parts. -/
theorem ref_eq (X : S2048x36864.Idx → EReal) (B C : S192x48.Idx → EReal) (G : S256x2304.Idx → EReal)
    (Bi Ci : S48x192.Idx → EReal) (Gi : S2304x256.Idx → EReal)
    (hX : ∀ i, ∃ r : ℝ, X i = (r : EReal)) (hB : ∀ i, ∃ r : ℝ, B i = (r : EReal))
    (hC : ∀ i, ∃ r : ℝ, C i = (r : EReal)) (hG : ∀ i, ∃ r : ℝ, G i = (r : EReal))
    (hBi : ∀ i, ∃ r : ℝ, Bi i = (r : EReal)) (hCi : ∀ i, ∃ r : ℝ, Ci i = (r : EReal))
    (hGi : ∀ i, ∃ r : ℝ, Gi i = (r : EReal)) :
    val_main_v43 (F := Ideal) X B C G Bi Ci Gi
      = fun i => ((outR (fun n q => (X (ix2 n q)).toReal) (fun a b => (B (ix2 a b)).toReal)
          (fun a b => (C (ix2 a b)).toReal) (fun a b => (G (ix2 a b)).toReal) (fun a b => (Bi (ix2 a b)).toReal)
          (fun a b => (Ci (ix2 a b)).toReal) (fun a b => (Gi (ix2 a b)).toReal) (i 0) (i 1) : ℝ) : EReal) := by
  have e := ref_real (fun n q => (X (ix2 n q)).toReal) (fun a b => (B (ix2 a b)).toReal)
    (fun a b => (C (ix2 a b)).toReal) (fun a b => (G (ix2 a b)).toReal) (fun a b => (Bi (ix2 a b)).toReal)
    (fun a b => (Ci (ix2 a b)).toReal) (fun a b => (Gi (ix2 a b)).toReal)
  rw [← eq_lift2_of_real X hX, ← eq_lift2_of_real B hB, ← eq_lift2_of_real C hC, ← eq_lift2_of_real G hG,
    ← eq_lift2_of_real Bi hBi, ← eq_lift2_of_real Ci hCi, ← eq_lift2_of_real Gi hGi] at e
  exact e

end Cert.RefSide
-- ==== Proof.FinalAlg.lean ====
/-
  The two idealized programs end with equal results, and the five statements together.

  Under the precondition every input entry is real.  The reference's result at (n, q) is then the real number outR of the
  inputs' real parts, summed in the reference's order.  The kernel program's result at (n, q) is entry
  (n·192 + q / 192, q mod 192) of the region's output array, that is entry ((n mod 32)·192 + q / 192, q mod 192) of the
  block of grid point n / 32; once that block entry is known to be the real number outK of the inputs' real parts at
  (n, q), summed in the kernel's order, the two results agree because the two orders of summation give one number.
-/
import proofs.«129508_j67740224193011_2_alg».proof.Defs
import proofs.«129508_j67740224193011_2_alg».proof.Proof.FinalTail
import proofs.«129508_j67740224193011_2_alg».proof.Proof.FinalHyp
import proofs.«129508_j67740224193011_2_alg».proof.Proof.FinalFrames
import proofs.«129508_j67740224193011_2_alg».proof.Proof.RefValue
import proofs.«129508_j67740224193011_2_alg».proof.Proof.Finite
import proofs.«129508_j67740224193011_2_alg».proof.Proof.Gen.Pre_finite_inputs

noncomputable section

namespace Cert.Proof.Final

open Cert.KernelIdeal Cert.KernelIdeal.Gen Cert.Proof.KernelIdealBody
open Idealize.ShloMosaic Idealize.ShloMosaic.TcCoe Idealize.ShloMosaic.ValueIdx
open Idealize.SL Idealize.SL.Sem
open Cert.Finite Cert.KronSpec

attribute [local irreducible] Cert.Proof.KernelIdealBody.outsAt

/-- From memories agreeing on the arguments, the two idealized programs run and end with equal results. -/
theorem algebraic_of (hkv : KernelValue) : Cert.algebraic_KernelIdeal_ReferenceIdeal := by
  intro m g m' g' hpre hagree
  refine ⟨fun c => resK (F := Ideal) m c, run_value (F := Ideal) m g, ?_⟩
  refine (θ_run Cert.ReferenceIdeal.defs _ _).mono (fun r h c => ⟨?_, (h c).2⟩)
    (Cert.ReferenceIdeal.Value.run (F := Ideal) m' g')
  change r.2.mem ((c.tc : Thread Cert.ReferenceIdeal.nD Cert.ReferenceIdeal.τ).loc Cert.ReferenceIdeal.main_v43)
    = resK (F := Ideal) m c
  obtain ⟨h0, h1, h2, h3, h4, h5, h6⟩ := real_of_pre m hpre c
  obtain ⟨a0, a1, a2, a3, a4, a5, a6⟩ := hagree c
  rw [(h c).1, Cert.ReferenceIdeal.Read.val_main_v43_eq, a0, a1, a2, a3, a4, a5, a6,
    Cert.RefSide.ref_eq _ _ _ _ _ _ _ h0 h1 h2 h3 h4 h5 h6]
  funext i
  obtain ⟨n, q, rfl⟩ : ∃ (n : Fin 2048) (q : Fin 36864), i = ix2 n q := ⟨i 0, i 1, eq_ix2 i⟩
  have hn := n.isLt
  have hq := q.isLt
  rw [resK_apply]
  unfold Gout
  rw [hkv m c h0 h1 h2 h3 h4 h5 h6, ← outK_eq_outR]
  refine congrArg (fun x : ℝ => (x : EReal)) (congrArg₂ (outK _ _ _ _ _ _ _) (Fin.ext ?_) (Fin.ext ?_))
  · show n.val = (n.val * 192 + q.val / 192) / 6144 * 32 + (n.val * 192 + q.val / 192) % 6144 / 192
    omega
  · show q.val = (n.val * 192 + q.val / 192) % 6144 % 192 * 192 + q.val % 192
    omega

/-- The five statements together, from the one fact about the body's arithmetic. -/
theorem claim_of (hkv : KernelValue) : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic_of hkv⟩

end Cert.Proof.Final
-- ==== Proof.HostPreX.lean ====
/-
  The batch of inputs as the region finds it.

  The host reshapes X from [2048, 36864] to [393216, 192]: row n of X, itself a 192 x 192 matrix stored row by row,
  becomes the 192 consecutive rows n * 192 + k, so entry (n * 192 + k, j) of the operand is X[n, k * 192 + j].
-/
import proofs.«129508_j67740224193011_2_alg».proof.Proof.Gen.KernelIdeal.Frame
import Idealize.ShloMosaic.Lib.Pipeline.Value
import Idealize.ShloMosaic.Lib.ValueIdx
import Idealize.ShloMosaic.Lib.Tactic

noncomputable section

namespace Cert.KernelSide.HostPre

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- The reshaped X as one term of the argument array. -/
theorem v39_term :
    (V m c main_v39 : FVec Ideal S393216x192 .f32)
      = shapeCast S393216x192 (m ((c : Thread nD τ).loc main_arg0) : FVec Ideal S2048x36864 .f32)
          shapeCasts_S2048x36864_S393216x192 := by
  dsimp only [Gen.V, Gen.V0]
  simp only [Gen.hostOps0, Gen.hostOps0_1, Gen.hostOps0_2, List.flatten_cons, List.flatten_nil, List.append_nil,
    List.cons_append, List.nil_append]
  after_results
  all_goals rfl

/-- Entry (n * 192 + k, j) of the reshaped operand is X[n, k * 192 + j]. -/
theorem v39_apply (n : Fin 2048) (k j : Fin 192) :
    V m c main_v39 (ix2 (⟨n.val * 192 + k.val, by have := n.isLt; have := k.isLt; omega⟩ : Fin 393216) j)
      = m ((c : Thread nD τ).loc main_arg0)
          (ix2 n (⟨k.val * 192 + j.val, by have := k.isLt; have := j.isLt; omega⟩ : Fin 36864)) := by
  rw [v39_term]
  exact shapeCast_apply _ shapeCasts_S2048x36864_S393216x192 _ _
    (by rw [Shape.rowMajor_val_two, Shape.rowMajor_val_two]
        show n.val * 36864 + (k.val * 192 + j.val) = (n.val * 192 + k.val) * 192 + j.val
        omega)

/-- The same by row: row r of the reshaped operand is the piece r % 192 of row r / 192 of X. -/
theorem v39_apply_row (r : Fin 393216) (j : Fin 192) :
    V m c main_v39 (ix2 r j)
      = m ((c : Thread nD τ).loc main_arg0)
          (ix2 (⟨r.val / 192, by have := r.isLt; omega⟩ : Fin 2048)
            (⟨r.val % 192 * 192 + j.val, by have := r.isLt; have := j.isLt; omega⟩ : Fin 36864)) := by
  rw [v39_term]
  exact shapeCast_apply _ shapeCasts_S2048x36864_S393216x192 _ _
    (by rw [Shape.rowMajor_val_two, Shape.rowMajor_val_two]
        show r.val / 192 * 36864 + (r.val % 192 * 192 + j.val) = r.val * 192 + j.val
        omega)

end Cert.KernelSide.HostPre
-- ==== Proof.HostPreTr.lean ====
/-
  The two inverse factor matrices as the region finds them.

  Before the call the host transposes B_inv and C_inv (each [48, 192]) to [192, 48] and converts them to the
  narrower float format; over the extended reals the conversion changes nothing, so entry (j, r2) of the first
  operand is B_inv[r2, j] and entry (k, r3) of the second is C_inv[r3, k].
-/
import proofs.«129508_j67740224193011_2_alg».proof.Proof.Gen.KernelIdeal.Frame
import Idealize.ShloMosaic.Lib.Pipeline.Value
import Idealize.ShloMosaic.Lib.ValueIdx
import Idealize.ShloMosaic.Lib.Tactic

noncomputable section

namespace Cert.KernelSide.HostPre

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- The transposed B_inv as one term of the argument array. -/
theorem v32_term :
    (V m c main_v32 : FVec Ideal S192x48 .bf16)
      = truncf (F := Ideal) .bf16
          (transpose S192x48 [1, 0] (m ((c : Thread nD τ).loc main_arg4) : FVec Ideal S48x192 .f32) transposes_S48x192_S192x48_1_0)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results

/-- The transposed C_inv as one term of the argument array. -/
theorem v34_term :
    (V m c main_v34 : FVec Ideal S192x48 .bf16)
      = truncf (F := Ideal) .bf16
          (transpose S192x48 [1, 0] (m ((c : Thread nD τ).loc main_arg5) : FVec Ideal S48x192 .f32) transposes_S48x192_S192x48_1_0)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results

/-- A [48, 192] matrix transposed, read at (j, r): the matrix at (r, j). -/
theorem transpose_48x192_apply (x : FVec Ideal S48x192 .f32) (j : Fin 192) (r : Fin 48) :
    truncf (F := Ideal) .bf16 (transpose S192x48 [1, 0] x transposes_S48x192_S192x48_1_0) bitsLt_bf16_f32 (ix2 j r)
      = x (ix2 r j) :=
  transpose_apply [1, 0] x transposes_S48x192_S192x48_1_0 (ix2 j r) (ix2 r j) (fun b => match b with
    | ⟨0, _⟩ => rfl
    | ⟨1, _⟩ => rfl)

/-- Entry (j, r2) of the first factor operand is B_inv[r2, j]. -/
theorem v32_apply (j : Fin 192) (r2 : Fin 48) :
    V m c main_v32 (ix2 j r2) = m ((c : Thread nD τ).loc main_arg4) (ix2 r2 j) := by
  rw [v32_term]
  exact transpose_48x192_apply _ j r2

/-- Entry (k, r3) of the second factor operand is C_inv[r3, k]. -/
theorem v34_apply (k : Fin 192) (r3 : Fin 48) :
    V m c main_v34 (ix2 k r3) = m ((c : Thread nD τ).loc main_arg5) (ix2 r3 k) := by
  rw [v34_term]
  exact transpose_48x192_apply _ k r3

end Cert.KernelSide.HostPre
-- ==== Proof.HostPreG.lean ====
/-
  The two latent matrices as the region finds them.

  The merged latent axis of G_inv (rows) and of relu(G) (columns) pairs two coordinates of extent 48 as
  (first) * 48 + (second).  The host exchanges the two: it splits the axis, transposes the pair and merges again, so
  row r2 * 48 + r3 of the first operand is row r3 * 48 + r2 of G_inv, and column r2 * 48 + r3 of the second is column
  r3 * 48 + r2 of relu(G) = max(G, 0).  The conversion to the narrower float format changes nothing over the
  extended reals.
-/
import proofs.«129508_j67740224193011_2_alg».proof.Proof.Gen.KernelIdeal.Frame
import Idealize.ShloMosaic.Lib.Pipeline.Value
import Idealize.ShloMosaic.Lib.ValueIdx
import Idealize.ShloMosaic.Lib.Tactic

noncomputable section

namespace Cert.KernelSide.HostPre

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- G_inv with its row pair exchanged, as one term of the argument array. -/
theorem v3_term :
    (V m c main_v3 : FVec Ideal S2304x256 .bf16)
      = truncf (F := Ideal) .bf16
          (shapeCast S2304x256
            (transpose S48x48x256 [1, 0, 2]
              (shapeCast S48x48x256 (m ((c : Thread nD τ).loc main_arg6) : FVec Ideal S2304x256 .f32) shapeCasts_S2304x256_S48x48x256)
              transposes_S48x48x256_S48x48x256_1_0_2)
            shapeCasts_S48x48x256_S2304x256)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results
  all_goals rfl

/-- Splitting the rows of a [2304, 256] matrix into a pair, exchanging the pair and merging again, read at
    (r2 * 48 + r3, r1): the matrix at (r3 * 48 + r2, r1). -/
theorem swapRows_apply (x : FVec Ideal S2304x256 .f32) (r2 r3 : Fin 48) (r1 : Fin 256) :
    truncf (F := Ideal) .bf16
        (shapeCast S2304x256
          (transpose S48x48x256 [1, 0, 2] (shapeCast S48x48x256 x shapeCasts_S2304x256_S48x48x256)
            transposes_S48x48x256_S48x48x256_1_0_2)
          shapeCasts_S48x48x256_S2304x256)
        bitsLt_bf16_f32
        (ix2 (⟨r2.val * 48 + r3.val, by have := r2.isLt; have := r3.isLt; omega⟩ : Fin 2304) r1)
      = x (ix2 (⟨r3.val * 48 + r2.val, by have := r2.isLt; have := r3.isLt; omega⟩ : Fin 2304) r1) := by
  refine (truncf_apply (ψ := .bf16) _ bitsLt_bf16_f32 _).trans ?_
  refine (shapeCast_apply _ shapeCasts_S48x48x256_S2304x256 _ (ix3 r2 r3 r1)
    (by rw [Shape.rowMajor_val_three, Shape.rowMajor_val_two]
        show (r2.val * 48 + r3.val) * 256 + r1.val = (r2.val * 48 + r3.val) * 256 + r1.val
        rfl)).trans ?_
  refine (transpose_apply [1, 0, 2] _ transposes_S48x48x256_S48x48x256_1_0_2 (ix3 r2 r3 r1) (ix3 r3 r2 r1)
    (fun b => match b with
      | ⟨0, _⟩ => rfl
      | ⟨1, _⟩ => rfl
      | ⟨2, _⟩ => rfl)).trans ?_
  exact shapeCast_apply x shapeCasts_S2304x256_S48x48x256 (ix3 r3 r2 r1) _
    (by rw [Shape.rowMajor_val_two, Shape.rowMajor_val_three]
        show (r3.val * 48 + r2.val) * 256 + r1.val = (r3.val * 48 + r2.val) * 256 + r1.val
        rfl)

/-- Entry (r2 * 48 + r3, r1) of the first latent operand is G_inv[r3 * 48 + r2, r1]. -/
theorem v3_apply (r2 r3 : Fin 48) (r1 : Fin 256) :
    V m c main_v3 (ix2 (⟨r2.val * 48 + r3.val, by have := r2.isLt; have := r3.isLt; omega⟩ : Fin 2304) r1)
      = m ((c : Thread nD τ).loc main_arg6)
          (ix2 (⟨r3.val * 48 + r2.val, by have := r2.isLt; have := r3.isLt; omega⟩ : Fin 2304) r1) := by
  rw [v3_term]
  exact swapRows_apply _ r2 r3 r1

/-- relu(G) with its column pair exchanged, as one term of the argument array. -/
theorem v8_term :
    (V m c main_v8 : FVec Ideal S256x2304 .bf16)
      = truncf (F := Ideal) .bf16
          (shapeCast S256x2304
            (transpose S256x48x48 [0, 2, 1]
              (shapeCast S256x48x48
                (maximumf (m ((c : Thread nD τ).loc main_arg3) : FVec Ideal S256x2304 .f32)
                  (broadcastInDim S256x2304 ![] bcast_S_S256x2304 (constant (F := Ideal) S_ .f32 0x00000000#32)))
                shapeCasts_S256x2304_S256x48x48)
              transposes_S256x48x48_S256x48x48_0_2_1)
            shapeCasts_S256x48x48_S256x2304)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results
  all_goals rfl

/-- Splitting the columns of a [256, 2304] matrix into a pair, exchanging the pair and merging again, read at
    (r1, r2 * 48 + r3): the matrix at (r1, r3 * 48 + r2). -/
theorem swapCols_apply (x : FVec Ideal S256x2304 .f32) (r1 : Fin 256) (r2 r3 : Fin 48) :
    truncf (F := Ideal) .bf16
        (shapeCast S256x2304
          (transpose S256x48x48 [0, 2, 1] (shapeCast S256x48x48 x shapeCasts_S256x2304_S256x48x48)
            transposes_S256x48x48_S256x48x48_0_2_1)
          shapeCasts_S256x48x48_S256x2304)
        bitsLt_bf16_f32
        (ix2 r1 (⟨r2.val * 48 + r3.val, by have := r2.isLt; have := r3.isLt; omega⟩ : Fin 2304))
      = x (ix2 r1 (⟨r3.val * 48 + r2.val, by have := r2.isLt; have := r3.isLt; omega⟩ : Fin 2304)) := by
  refine (truncf_apply (ψ := .bf16) _ bitsLt_bf16_f32 _).trans ?_
  refine (shapeCast_apply _ shapeCasts_S256x48x48_S256x2304 _ (ix3 r1 r2 r3)
    (by rw [Shape.rowMajor_val_three, Shape.rowMajor_val_two]
        show (r1.val * 48 + r2.val) * 48 + r3.val = r1.val * 2304 + (r2.val * 48 + r3.val)
        omega)).trans ?_
  refine (transpose_apply [0, 2, 1] _ transposes_S256x48x48_S256x48x48_0_2_1 (ix3 r1 r2 r3) (ix3 r1 r3 r2)
    (fun b => match b with
      | ⟨0, _⟩ => rfl
      | ⟨1, _⟩ => rfl
      | ⟨2, _⟩ => rfl)).trans ?_
  exact shapeCast_apply x shapeCasts_S256x2304_S256x48x48 (ix3 r1 r3 r2) _
    (by rw [Shape.rowMajor_val_two, Shape.rowMajor_val_three]
        show r1.val * 2304 + (r3.val * 48 + r2.val) = (r1.val * 48 + r3.val) * 48 + r2.val
        omega)

/-- Entry (r1, r2 * 48 + r3) of the second latent operand is max(G[r1, r3 * 48 + r2], 0). -/
theorem v8_apply (r1 : Fin 256) (r2 r3 : Fin 48) :
    V m c main_v8 (ix2 r1 (⟨r2.val * 48 + r3.val, by have := r2.isLt; have := r3.isLt; omega⟩ : Fin 2304))
      = @max EReal _
          (m ((c : Thread nD τ).loc main_arg3)
            (ix2 r1 (⟨r3.val * 48 + r2.val, by have := r2.isLt; have := r3.isLt; omega⟩ : Fin 2304)))
          (Ideal.ofBits .f32 0x00000000#32) := by
  rw [v8_term]
  refine (swapCols_apply _ r1 r2 r3).trans ?_
  rfl

end Cert.KernelSide.HostPre
-- ==== Proof.HostPreSm.lean ====
/-
  The two softmax factors as the region finds them.

  The host computes the row softmax of B and of C (each [192, 48]) in the max-shifted form: the largest entry of each
  row (a maximum folded from minus infinity), the exponentials of the entries less their row's maximum, each row's
  sum of those, and the quotient.  It then transposes the result to [48, 192] and converts it to the narrower float
  format, which changes nothing over the extended reals.  So entry (r2, j) of the operand made from B is
  softmax(B)[j, r2], and likewise for C.
-/
import proofs.«129508_j67740224193011_2_alg».proof.Proof.Gen.KernelIdeal.Frame
import Idealize.ShloMosaic.Lib.Pipeline.Value
import Idealize.ShloMosaic.Lib.ValueIdx
import Idealize.ShloMosaic.Lib.Tactic

noncomputable section

namespace Cert.KernelSide.HostPre

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- A vector of one value per row spread along the 48 columns. -/
def spreadCols (v : FVec Ideal S192 .f32) : FVec Ideal S192x48 .f32 :=
  broadcastInDim S192x48 ![0, 1] bcast_S192x1_S192x48_0_1 (broadcastInDim S192x1 ![0] bcast_S192_S192x1_0 v)

/-- The largest entry of each row, as the host takes it: a maximum over the columns folded from minus infinity, then
    the larger of that and minus infinity. -/
def rowMaxHost (x : FVec Ideal S192x48 .f32) : FVec Ideal S192 .f32 :=
  maximumf (broadcastInDim S192 ![] bcast_S_S192 (constant (F := Ideal) S_ .f32 0xFF800000#32))
    (Host.reduce (FloatOps.maximumf (F := Ideal) (φ := .f32)) x (constant (F := Ideal) S_ .f32 0xFF800000#32)
      reducesTo_S192x48_S192_d1 h_S_)

/-- The exponentials of the entries less their row's largest entry. -/
def expShiftHost (x : FVec Ideal S192x48 .f32) : FVec Ideal S192x48 .f32 :=
  Host.exp (F := Ideal) (subf x (spreadCols (rowMaxHost x)))

/-- Each row's sum of its shifted exponentials, from zero. -/
def rowSumHost (e : FVec Ideal S192x48 .f32) : FVec Ideal S192 .f32 :=
  Host.reduceAdd (F := Ideal) e (constant (F := Ideal) S_ .f32 0x00000000#32) reducesTo_S192x48_S192_d1 h_S_

/-- The host's max-shifted row softmax of a [192, 48] matrix. -/
def softmaxHost (x : FVec Ideal S192x48 .f32) : FVec Ideal S192x48 .f32 :=
  Host.divf (F := Ideal) (expShiftHost x) (spreadCols (rowSumHost (expShiftHost x)))

/-- The operand made from B: the transposed softmax of B, as one term of the argument array. -/
theorem v38_term :
    (V m c main_v38 : FVec Ideal S48x192 .bf16)
      = truncf (F := Ideal) .bf16
          (transpose S48x192 [1, 0] (softmaxHost (m ((c : Thread nD τ).loc main_arg1) : FVec Ideal S192x48 .f32))
            transposes_S192x48_S48x192_1_0)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  all_goals rfl

/-- The operand made from C: the transposed softmax of C, as one term of the argument array. -/
theorem v36_term :
    (V m c main_v36 : FVec Ideal S48x192 .bf16)
      = truncf (F := Ideal) .bf16
          (transpose S48x192 [1, 0] (softmaxHost (m ((c : Thread nD τ).loc main_arg2) : FVec Ideal S192x48 .f32))
            transposes_S192x48_S48x192_1_0)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results_simp
  all_goals rfl

/-- A [192, 48] matrix transposed, read at (r, j): the matrix at (j, r). -/
theorem transpose_192x48_apply (x : FVec Ideal S192x48 .f32) (r : Fin 48) (j : Fin 192) :
    truncf (F := Ideal) .bf16 (transpose S48x192 [1, 0] x transposes_S192x48_S48x192_1_0) bitsLt_bf16_f32 (ix2 r j)
      = x (ix2 j r) :=
  transpose_apply [1, 0] x transposes_S192x48_S48x192_1_0 (ix2 r j) (ix2 j r) (fun b => match b with
    | ⟨0, _⟩ => rfl
    | ⟨1, _⟩ => rfl)

/-- Entry (r2, j) of the operand made from B is the host's softmax of B at (j, r2). -/
theorem v38_apply (r2 : Fin 48) (j : Fin 192) :
    V m c main_v38 (ix2 r2 j) = softmaxHost (m ((c : Thread nD τ).loc main_arg1)) (ix2 j r2) := by
  rw [v38_term]
  exact transpose_192x48_apply _ r2 j

/-- Entry (r3, k) of the operand made from C is the host's softmax of C at (k, r3). -/
theorem v36_apply (r3 : Fin 48) (k : Fin 192) :
    V m c main_v36 (ix2 r3 k) = softmaxHost (m ((c : Thread nD τ).loc main_arg2)) (ix2 k r3) := by
  rw [v36_term]
  exact transpose_192x48_apply _ r3 k

end Cert.KernelSide.HostPre
-- ==== Proof.HostPre.lean ====
/-
  The seven operands of the call, as the region finds them, each read at an index of the argument arrays.

  Before the call the host prepares: the batch X reshaped to [393216, 192] (one row per pair (n, k)); B_inv and C_inv
  transposed; G_inv and relu(G) with the two coordinates of their merged latent axis exchanged; and the row softmaxes
  of B and C, transposed.  Each is a rearrangement (or, for the last three, an entrywise or rowwise function) of one
  argument array; the modules imported here state them entry by entry:

    entry (n * 192 + k, j) of the first operand      is X[n, k * 192 + j]
    entry (j, r2) of the B_inv operand                is B_inv[r2, j]
    entry (k, r3) of the C_inv operand                is C_inv[r3, k]
    entry (r2 * 48 + r3, r1) of the G_inv operand     is G_inv[r3 * 48 + r2, r1]
    entry (r1, r2 * 48 + r3) of the relu(G) operand   is max(G[r1, r3 * 48 + r2], 0)
    entry (r2, j) of the softmax(B) operand           is softmax(B)[j, r2]
    entry (r3, k) of the softmax(C) operand           is softmax(C)[k, r3]
-/
import proofs.«129508_j67740224193011_2_alg».proof.Proof.HostPreX
import proofs.«129508_j67740224193011_2_alg».proof.Proof.HostPreTr
import proofs.«129508_j67740224193011_2_alg».proof.Proof.HostPreG
import proofs.«129508_j67740224193011_2_alg».proof.Proof.HostPreSm
-- ==== Proof.HostPreAlt.lean ====
/-
  The reshaped and the pair-exchanged operands, read at an index given by its value.

  The same three facts as for explicit coordinates, stated for any row or column index whose value is the stated
  combination of the coordinates: entry (p, j) of the reshaped batch with p = n * 192 + k is X[n, q] with
  q = k * 192 + j; entry (p, r1) of the G_inv operand with p = r2 * 48 + r3 is G_inv[q, r1] with q = r3 * 48 + r2;
  entry (r1, p) of the relu(G) operand with p = r2 * 48 + r3 is max(G[r1, q], 0) with q = r3 * 48 + r2.
-/
import proofs.«129508_j67740224193011_2_alg».proof.Proof.HostPreX
import proofs.«129508_j67740224193011_2_alg».proof.Proof.HostPreG

noncomputable section

namespace Cert.KernelSide.HostPre

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (c : Dev nD)

/-- A pair of coordinates below 48 merges to a value below 2304. -/
theorem pair48_lt (a b : Fin 48) : a.val * 48 + b.val < 2304 := by have := a.isLt; have := b.isLt; omega
/-- A batch row and a coordinate below 192 merge to a value below 393216. -/
theorem row192_lt (n : Fin 2048) (k : Fin 192) : n.val * 192 + k.val < 393216 := by have := n.isLt; have := k.isLt; omega
/-- A pair of coordinates below 192 merges to a value below 36864. -/
theorem pair192_lt (k j : Fin 192) : k.val * 192 + j.val < 36864 := by have := k.isLt; have := j.isLt; omega

/-- Entry (p, j) of the reshaped batch, p = n * 192 + k, is X[n, q], q = k * 192 + j. -/
theorem v39_apply_of_val (p : Fin 393216) (j : Fin 192) (n : Fin 2048) (q : Fin 36864) (k : Fin 192)
    (hp : p.val = n.val * 192 + k.val) (hq : q.val = k.val * 192 + j.val) :
    V m c main_v39 (ix2 p j) = m ((c : Thread nD τ).loc main_arg0) (ix2 n q) := by
  obtain rfl : p = ⟨n.val * 192 + k.val, row192_lt n k⟩ := Fin.ext hp
  obtain rfl : q = ⟨k.val * 192 + j.val, pair192_lt k j⟩ := Fin.ext hq
  exact v39_apply m c n k j

/-- Entry (p, r1) of the G_inv operand, p = r2 * 48 + r3, is G_inv[q, r1], q = r3 * 48 + r2. -/
theorem v3_apply_of_val (p q : Fin 2304) (r1 : Fin 256) (r2 r3 : Fin 48)
    (hp : p.val = r2.val * 48 + r3.val) (hq : q.val = r3.val * 48 + r2.val) :
    V m c main_v3 (ix2 p r1) = m ((c : Thread nD τ).loc main_arg6) (ix2 q r1) := by
  obtain rfl : p = ⟨r2.val * 48 + r3.val, pair48_lt r2 r3⟩ := Fin.ext hp
  obtain rfl : q = ⟨r3.val * 48 + r2.val, pair48_lt r3 r2⟩ := Fin.ext hq
  exact v3_apply m c r2 r3 r1

/-- Entry (r1, p) of the relu(G) operand, p = r2 * 48 + r3, is max(G[r1, q], 0), q = r3 * 48 + r2. -/
theorem v8_apply_of_val (r1 : Fin 256) (p q : Fin 2304) (r2 r3 : Fin 48)
    (hp : p.val = r2.val * 48 + r3.val) (hq : q.val = r3.val * 48 + r2.val) :
    V m c main_v8 (ix2 r1 p)
      = @max EReal _ (m ((c : Thread nD τ).loc main_arg3) (ix2 r1 q)) (Ideal.ofBits .f32 0x00000000#32) := by
  obtain rfl : p = ⟨r2.val * 48 + r3.val, pair48_lt r2 r3⟩ := Fin.ext hp
  obtain rfl : q = ⟨r3.val * 48 + r2.val, pair48_lt r3 r2⟩ := Fin.ext hq
  exact v8_apply m c r1 r2 r3

end Cert.KernelSide.HostPre
-- ==== Proof.LibRowOps.lean ====
/-
  Row operations on a two-axis array, read at one entry.

  A matrix with `a` rows and `b` columns meets four operations whenever a quantity is computed per row and
  spread back over the row: the sum of a row (a reduction along the second axis), the column of per-row
  values viewed as an `a × 1` matrix, that column spread across the `b` columns, and a product of two matrices
  that contracts the second axis of both (each entry is the inner product of a row of the left operand
  with a row of the right one).  Each lemma says what the result holds at row `r` and column `c`.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

variable {α : Type}

/-- A vector of `a` entries viewed as an `a × 1` column holds entry `r` at `(r, 0)`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `a × 1` column spread over `b` columns holds, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the exact values the sum along the second axis, read at row `r`, is the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  apply Fin.ext
  match ax with
  | ⟨0, _⟩ => rfl
  | ⟨1, _⟩ => rfl

/-- `(l · rᵀ)[p, j] = ∑ k, l[p,k] · r[j,k]`: a product into the zero accumulator that contracts the second axis
    of both operands, so that its left operand index at output `i` and contraction position `q` is `(i 0, q)`
    and its right operand index is `(i 1, q)`. -/
theorem matmul_rows_zero_apply {M K N : ℕ} {φ₁ φ₂ : FTy}
    (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (prec : Option ContractPrecision) (l : FVec Ideal ⟨2, ![M, K]⟩ φ₁) (r : FVec Ideal ⟨2, ![N, K]⟩ φ₂)
    (p : Fin M) (j : Fin N) :
    matmul D prec l r (constant (F := Ideal) ⟨2, ![M, N]⟩ .f32 0x00000000#32) (ix2 p j)
      = ∑ k : Fin K, l (ix2 p k) * r (ix2 j k) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 j k := funext fun a => Fin.ext (by
    match a with
    | ⟨0, _⟩ => exact hr0 _ _
    | ⟨1, _⟩ => exact (hr1 _ _).trans hk)
  rw [el, er]

end Cert.LibRowOps

end
-- ==== Proof.LibColumnSpread.lean ====
/-
  A per-row quantity spread along the rows of a matrix.

  A vector of `R` entries viewed as an `R × 1` column, and a column spread over `C` columns: at row `p` every column
  holds the vector's entry `p`.  (The companion of the row forms: a vector viewed as one row, a row spread over the
  rows.)
-/
import Idealize.ShloMosaic.Lib.Pipeline.Value
import Idealize.ShloMosaic.Lib.ValueIdx

noncomputable section

namespace Cert.LibColumnSpread

open Idealize.ShloMosaic Idealize.ShloMosaic.ValueIdx

/-- A vector viewed as a column: entry `(p, u)` is the vector's entry `p`. -/
theorem colOfVec_apply {α : Type} {R : ℕ} (hR : R ≠ 1) (v : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h v (ix2 p u) = v (ix1 p) :=
  broadcastInDim_apply ![0] h v (ix2 p u) (ix1 p) (fun a => match a with
    | ⟨0, _⟩ => by show p.val = if R = 1 then 0 else p.val; rw [if_neg hR])

/-- A column spread over `C` columns: entry `(p, k)` is the column's entry of row `p`. -/
theorem col_spread_apply {α : Type} {R C : ℕ} (hR : R ≠ 1) (v : (⟨2, ![R, 1]⟩ : Shape).Idx → α)
    (h : (⟨2, ![R, 1]⟩ : Shape).BroadcastsInDim ⟨2, ![R, C]⟩ ![0, 1]) (p : Fin R) (k : Fin C) :
    broadcastInDim ⟨2, ![R, C]⟩ ![0, 1] h v (ix2 p k) = v (ix2 p (0 : Fin 1)) :=
  broadcastInDim_apply ![0, 1] h v (ix2 p k) (ix2 p (0 : Fin 1)) (fun a => match a with
    | ⟨0, _⟩ => by show p.val = if R = 1 then 0 else p.val; rw [if_neg hR]
    | ⟨1, _⟩ => by show 0 = if (1 : Nat) = 1 then 0 else _; rw [if_pos rfl])

/-- A vector viewed as a column and the column spread over `C` columns: entry `(p, k)` is the vector's entry `p`. -/
theorem colOfVec_spread_apply {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (k : Fin C) :
    broadcastInDim ⟨2, ![R, C]⟩ ![0, 1] h2 (broadcastInDim ⟨2, ![R, 1]⟩ ![0] h1 v) (ix2 p k) = v (ix1 p) :=
  (col_spread_apply hR _ h2 p k).trans (colOfVec_apply hR v h1 p 0)

end Cert.LibColumnSpread

end
-- ==== Proof.LibIdealReal.lean ====
/-
  Exact float arithmetic on real entries.

  At the exact values a float is an extended real.  When every operand is (the coercion of) a real number, each
  operation used here returns the coercion of the corresponding real operation; the maximum and the sum of a row of
  a matrix of reals are the real maximum and the real sum; and the max-shifted row softmax, in each of its two
  spellings (vector operations of a kernel body, host operations), is the real row softmax.
-/
import Idealize.ShloMosaic.PureOps.Ideal
import Idealize.ShloMosaic.PureOps.Ideal.Laws
import Idealize.ShloMosaic.Lib.ValueIdx
import Idealize.ShloMosaic.Lib.Pipeline.Value
import proofs.«129508_j67740224193011_2_alg».proof.Proof.SpecOut
import proofs.«129508_j67740224193011_2_alg».proof.Proof.LibRowOps
import proofs.«129508_j67740224193011_2_alg».proof.Proof.LibColumnSpread

noncomputable section

open scoped BigOperators

namespace Cert.LibIdealReal

open Idealize.ShloMosaic Idealize.ShloMosaic.ValueIdx Cert.KronSpec

/-! ## One operation at a time -/

/-- The product of two reals, taken in the extended reals, is the real product. -/
theorem mul_coe (x y : ℝ) : (x : EReal) * (y : EReal) = ((x * y : ℝ) : EReal) := (EReal.coe_mul x y).symm

/-- The sum of two reals, taken in the extended reals, is the real sum. -/
theorem add_coe (x y : ℝ) : (x : EReal) + (y : EReal) = ((x + y : ℝ) : EReal) := (EReal.coe_add x y).symm

/-- The difference of two reals, taken in the extended reals, is the real difference. -/
theorem sub_coe (x y : ℝ) : (x : EReal) - (y : EReal) = ((x - y : ℝ) : EReal) := (EReal.coe_sub x y).symm

/-- The larger of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The quotient of a real by a nonzero real, taken with the exact division, is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- The exact exponential of a real is the real exponential. -/
theorem exp_coe (x : ℝ) : Ideal.exp (x : EReal) = ((Real.exp x : ℝ) : EReal) := rfl

/-- The exponential as a kernel body spells it, at a real. -/
theorem kernel_exp_coe (x : ℝ) : FloatOps.exp (F := Ideal) (φ := .f32) (x : EReal) = ((Real.exp x : ℝ) : EReal) := rfl

/-- The exponential as a host operation spells it, at a real. -/
theorem host_exp_coe (x : ℝ) : FloatOps.hostUnary (F := Ideal) (φ := .f32) .exp (x : EReal) = ((Real.exp x : ℝ) : EReal) := rfl

/-- The all-zero pattern of the 32-bit format denotes zero. -/
theorem ofBits_zero_f32 : Ideal.ofBits .f32 0x00000000#32 = 0 := Ideal.ofBits_zero_f32

/-- The 32-bit pattern of minus infinity denotes the least extended real. -/
theorem ofBits_negInf_f32 : Ideal.ofBits .f32 0xFF800000#32 = ⊥ := by simp [Ideal.ofBits, Ideal.ieee]

/-- The 32-bit pattern of plus infinity denotes the greatest extended real. -/
theorem ofBits_posInf_f32 : Ideal.ofBits .f32 0x7F800000#32 = ⊤ := by simp [Ideal.ofBits, Ideal.ieee]

/-- A finite sum of reals, taken in the extended reals, is the real sum. -/
theorem sum_coe {ι : Type*} (s : Finset ι) (f : ι → ℝ) : ∑ i ∈ s, (f i : EReal) = ((∑ i ∈ s, f i : ℝ) : EReal) := by
  induction s using Finset.cons_induction with
  | empty => simp
  | cons a S ha ih => rw [Finset.sum_cons, Finset.sum_cons, ih, EReal.coe_add]

/-- The maximum of a nonempty finite family of reals, folded from the least extended real, is the real maximum. -/
theorem fold_max_coe {ι : Type*} (s : Finset ι) (H : s.Nonempty) (f : ι → ℝ) :
    s.fold max (⊥ : EReal) (fun k => (f k : EReal)) = ((s.sup' H f : ℝ) : EReal) := by
  apply le_antisymm
  · exact (Finset.fold_max_le _).2 ⟨bot_le, fun k hk => EReal.coe_le_coe_iff.2 (Finset.le_sup' f hk)⟩
  · obtain ⟨k, hk, hkeq⟩ := Finset.exists_mem_eq_sup' H f
    rw [hkeq]
    exact (Finset.le_fold_max _).2 (Or.inr ⟨k, hk, le_rfl⟩)

/-- A finite sum of products of reals, taken in the extended reals, is the real sum of the real products. -/
theorem sum_mul_coe {ι : Type*} (s : Finset ι) (f g : ι → ℝ) :
    ∑ i ∈ s, (f i : EReal) * (g i : EReal) = ((∑ i ∈ s, f i * g i : ℝ) : EReal) := by
  rw [← sum_coe]
  exact Finset.sum_congr rfl fun i _ => mul_coe (f i) (g i)

/-- The larger of a real and zero, taken in the extended reals, is the real positive part. -/
theorem max_coe_zero (x : ℝ) : max (x : EReal) 0 = ((max x 0 : ℝ) : EReal) := by
  rw [← EReal.coe_zero, max_coe]

/-- The sum of the shifted exponentials of a nonempty row is not zero. -/
theorem sum_exp_ne_zero {b : ℕ} (hb : 0 < b) (f : Fin b → ℝ) : (∑ k : Fin b, Real.exp (f k)) ≠ 0 :=
  (Finset.sum_pos (fun k _ => Real.exp_pos (f k)) ⟨⟨0, hb⟩, Finset.mem_univ _⟩).ne'

/-! ## A column of per-row values against a matrix (vector operations) -/

/-- A vector of per-row values viewed as a one-column matrix and spread over the columns holds, at (p, q), entry p. -/
theorem col_apply {α : Type} {a b : ℕ} (c : (⟨1, ![a]⟩ : Shape).Idx → α)
    (hcast : (⟨1, ![a]⟩ : Shape).ShapeCasts ⟨2, ![a, 1]⟩) (hbc : (⟨2, ![a, 1]⟩ : Shape).Broadcasts ⟨2, ![a, b]⟩)
    (p : Fin a) (q : Fin b) :
    broadcastTo ⟨2, ![a, b]⟩ (shapeCast ⟨2, ![a, 1]⟩ c hcast) hbc (ix2 p q) = c (ix1 p) :=
  (LibRowOps.broadcastTo_a1_ab_apply _ hbc p q).trans (LibRowOps.shapeCast_a_a1_apply c hcast p 0)

/-- The maximum along the second axis of a matrix of reals, folded from minus infinity, is at row r the largest
    entry of that row. -/
theorem rowMax_apply {a b : ℕ} (hb : 0 < b) (M : Fin a → Fin b → ℝ) (x : FVec Ideal ⟨2, ![a, b]⟩ .f32)
    (hx : ∀ p q, x (ix2 p q) = (M p q : EReal))
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ x 0xFF800000#32 h hφ hacc (ix1 r) = ((rowMax hb M r : ℝ) : EReal) := by
  refine (Ideal.multiReduction_maximumf_single x 0xFF800000#32 h hφ hacc (ix1 r)).trans ?_
  have hl : ∀ k : Fin b, h.lift (ix1 r) k = ix2 r k := fun k => by
    funext ax
    apply Fin.ext
    match ax with
    | ⟨0, _⟩ => rfl
    | ⟨1, _⟩ => rfl
  have hf : (x ∘ h.lift (ix1 r)) = fun k : Fin b => (M r k : EReal) :=
    funext fun (k : Fin b) => (congrArg x (hl k)).trans (hx r k)
  show (Finset.univ : Finset (Fin b)).fold max (Ideal.ofBits .f32 0xFF800000#32) (x ∘ h.lift (ix1 r)) = _
  rw [hf, ofBits_negInf_f32]
  exact fold_max_coe _ _ (M r)

/-- The sum along the second axis of a matrix of reals is at row r the real sum of that row. -/
theorem rowSum_apply {a b : ℕ} (E : Fin a → Fin b → ℝ) (e : FVec Ideal ⟨2, ![a, b]⟩ .f32)
    (he : ∀ p q, e (ix2 p q) = (E p q : EReal))
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ e 0x00000000#32 h hφ hacc (ix1 r) = ((∑ k : Fin b, E r k : ℝ) : EReal) := by
  rw [LibRowOps.rowSum_apply e h hφ hacc r, ← sum_coe]
  exact Finset.sum_congr rfl fun k _ => he r k

/-- Subtracting from each row of a matrix of reals that row's real value, then taking the exponential: entry (p, q). -/
theorem shiftExp_apply {a b : ℕ} (M : Fin a → Fin b → ℝ) (m : Fin a → ℝ) (x : FVec Ideal ⟨2, ![a, b]⟩ .f32)
    (hx : ∀ p q, x (ix2 p q) = (M p q : EReal)) (c : FVec Ideal ⟨1, ![a]⟩ .f32) (hc : ∀ p, c (ix1 p) = (m p : EReal))
    (hcast : (⟨1, ![a]⟩ : Shape).ShapeCasts ⟨2, ![a, 1]⟩) (hbc : (⟨2, ![a, 1]⟩ : Shape).Broadcasts ⟨2, ![a, b]⟩)
    (p : Fin a) (q : Fin b) :
    exp (subf x (broadcastTo ⟨2, ![a, b]⟩ (shapeCast ⟨2, ![a, 1]⟩ c hcast) hbc)) (ix2 p q)
      = ((Real.exp (M p q - m p) : ℝ) : EReal) := by
  show Ideal.exp (x (ix2 p q) - broadcastTo ⟨2, ![a, b]⟩ (shapeCast ⟨2, ![a, 1]⟩ c hcast) hbc (ix2 p q)) = _
  rw [col_apply c hcast hbc p q, hx, hc, sub_coe, exp_coe]

/-- Dividing each row of a matrix of reals by that row's nonzero real value: entry (p, q). -/
theorem divCol_apply {a b : ℕ} (E : Fin a → Fin b → ℝ) (m : Fin a → ℝ) (e : FVec Ideal ⟨2, ![a, b]⟩ .f32)
    (he : ∀ p q, e (ix2 p q) = (E p q : EReal)) (c : FVec Ideal ⟨1, ![a]⟩ .f32) (hc : ∀ p, c (ix1 p) = (m p : EReal))
    (hcast : (⟨1, ![a]⟩ : Shape).ShapeCasts ⟨2, ![a, 1]⟩) (hbc : (⟨2, ![a, 1]⟩ : Shape).Broadcasts ⟨2, ![a, b]⟩)
    (p : Fin a) (q : Fin b) (hm : m p ≠ 0) :
    divf e (broadcastTo ⟨2, ![a, b]⟩ (shapeCast ⟨2, ![a, 1]⟩ c hcast) hbc) (ix2 p q) = ((E p q / m p : ℝ) : EReal) := by
  show Ideal.div (e (ix2 p q)) (broadcastTo ⟨2, ![a, b]⟩ (shapeCast ⟨2, ![a, 1]⟩ c hcast) hbc (ix2 p q)) = _
  rw [col_apply c hcast hbc p q, he, hc, div_coe_coe _ hm]

/-- The row maximum as a kernel body takes it (the larger of a splat of minus infinity and the reduction), at row r. -/
theorem kernel_rowMax_apply {a b : ℕ} (hb : 0 < b) (M : Fin a → Fin b → ℝ) (x : FVec Ideal ⟨2, ![a, b]⟩ .f32)
    (hx : ∀ p q, x (ix2 p q) = (M p q : EReal))
    (h : (⟨2, ![a, b]⟩ : Shape).Reduces [1] ⟨1, ![a]⟩) (hφ : FKind.Formats .f32)
    (hacc : (0xFF800000#32 : BitVec 32) = FKind.maximumf.neutral .f32 hφ) (r : Fin a) :
    maximumf (broadcast ⟨1, ![a]⟩ (Scalar.ofBits (F := Ideal) .f32 0xFF800000#32))
        (multiReduction .maximumf [1] ⟨1, ![a]⟩ x 0xFF800000#32 h hφ hacc) (ix1 r)
      = ((rowMax hb M r : ℝ) : EReal) := by
  show max (Ideal.ofBits .f32 0xFF800000#32) (multiReduction .maximumf [1] ⟨1, ![a]⟩ x 0xFF800000#32 h hφ hacc (ix1 r)) = _
  rw [rowMax_apply hb M x hx h hφ hacc r, ofBits_negInf_f32]
  exact max_eq_right bot_le

/-- The max-shifted row softmax as a kernel body spells it (row maximum, shift, exponential, row sum, quotient), on a
    matrix of reals, is at (p, q) the real row softmax. -/
theorem kernel_softmax_apply {a b : ℕ} (hb : 0 < b) (M : Fin a → Fin b → ℝ) (x : FVec Ideal ⟨2, ![a, b]⟩ .f32)
    (hx : ∀ p q, x (ix2 p q) = (M p q : EReal))
    (h : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩) (hbc : (⟨2, ![a, 1]⟩ : Shape).Broadcasts ⟨2, ![a, b]⟩)
    (p : Fin a) (q : Fin b) :
    divf
        (exp (subf x (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ x 0xFF800000#32 h hφ hmax)) hcast) hbc)))
        (broadcastTo ⟨2, ![a, b]⟩ (shapeCast ⟨2, ![a, 1]⟩
          (multiReduction .add [1] ⟨1, ![a]⟩
            (exp (subf x (broadcastTo ⟨2, ![a, b]⟩ (shapeCast ⟨2, ![a, 1]⟩
              (maximumf (broadcast ⟨1, ![a]⟩ (Scalar.ofBits (F := Ideal) .f32 0xFF800000#32))
                (multiReduction .maximumf [1] ⟨1, ![a]⟩ x 0xFF800000#32 h hφ hmax)) hcast) hbc)))
            0x00000000#32 h hφ hadd) hcast) hbc)
        (ix2 p q)
      = ((smx hb M p q : ℝ) : EReal) := by
  have he := fun p' q' => shiftExp_apply M (rowMax hb M) x hx _ (kernel_rowMax_apply hb M x hx h hφ hmax) hcast hbc p' q'
  exact divCol_apply (fun p' q' => Real.exp (M p' q' - rowMax hb M p')) (fun p' => ∑ k : Fin b, Real.exp (M p' k - rowMax hb M p'))
    _ he _ (rowSum_apply _ _ he h hφ hadd) hcast hbc p q (sum_exp_ne_zero hb _)

/-! ## The same with host operations -/

/-- The index of row r with coordinate k inserted on the second axis is (r, k). -/
theorem lift_ix1 {a b : ℕ} (h : (⟨2, ![a, b]⟩ : Shape).Reduces [1] ⟨1, ![a]⟩) (r : Fin a) (k : Fin b) :
    h.lift (ix1 r) k = ix2 r k := by
  funext ax
  apply Fin.ext
  match ax with
  | ⟨0, _⟩ => rfl
  | ⟨1, _⟩ => rfl

/-- A splat of one value over a vector, as a host broadcast of a rank-zero array writes it, holds that value. -/
theorem host_splat_apply {α : Type} {t : Shape} (dims : Fin (⟨0, ![]⟩ : Shape).rank → Fin t.rank)
    (h0 : (⟨0, ![]⟩ : Shape).BroadcastsInDim t dims) (c : (⟨0, ![]⟩ : Shape).Idx → α) (j : t.Idx) :
    broadcastInDim t dims h0 c j = c ix0 :=
  broadcastInDim_apply dims h0 c j ix0 (fun ax => ax.elim0)

/-- A vector of per-row values viewed as a one-column matrix and that column spread over the columns, both by
    host broadcasts, holds at (p, q) entry p. -/
theorem host_col_apply {α : Type} {a b : ℕ} (c : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 c) (ix2 p q) = c (ix1 p) := by
  refine (broadcastInDim_apply ![0, 1] h2 _ (ix2 p q) (ix2 p (0 : Fin 1)) (fun ax => ?_)).trans
    (broadcastInDim_apply ![0] h1 c (ix2 p (0 : Fin 1)) (ix1 p) (fun ax => ?_))
  · match ax with
    | ⟨0, _⟩ =>
      show p.val = if a = 1 then 0 else p.val
      split
      · have := p.isLt; omega
      · rfl
    | ⟨1, _⟩ => show 0 = if (1 : Nat) = 1 then 0 else _; rw [if_pos rfl]
  · match ax with
    | ⟨0, _⟩ =>
      show p.val = if a = 1 then 0 else p.val
      split
      · have := p.isLt; omega
      · rfl

/-- The host maximum along the second axis of a matrix of reals, from minus infinity, is at row r the largest entry
    of that row. -/
theorem host_rowMax_apply {a b : ℕ} (hb : 0 < b) (M : Fin a → Fin b → ℝ) (x : FVec Ideal ⟨2, ![a, b]⟩ .f32)
    (hx : ∀ p q, x (ix2 p q) = (M p q : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x (constant (F := Ideal) ⟨0, ![]⟩ .f32 0xFF800000#32) h' hu (ix1 r)
      = ((rowMax hb M r : ℝ) : EReal) := by
  rw [Host.reduce_eq_fold_single FloatOps.maximumf x _ h' h hu (ix1 r)]
  have hf : (x ∘ h.lift (ix1 r)) = fun k : Fin b => (M r k : EReal) :=
    funext fun (k : Fin b) => (congrArg x (lift_ix1 h r k)).trans (hx r k)
  show (Finset.univ : Finset (Fin b)).fold max (Ideal.ofBits .f32 0xFF800000#32) (x ∘ h.lift (ix1 r)) = _
  rw [hf, ofBits_negInf_f32]
  exact fold_max_coe _ _ (M r)

/-- The host sum along the second axis of a matrix of reals, from zero, is at row r the real sum of that row. -/
theorem host_rowSum_apply {a b : ℕ} (E : Fin a → Fin b → ℝ) (e : FVec Ideal ⟨2, ![a, b]⟩ .f32)
    (he : ∀ p q, e (ix2 p q) = (E p q : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd e (constant (F := Ideal) ⟨0, ![]⟩ .f32 0x00000000#32) h' hu (ix1 r)
      = ((∑ k : Fin b, E r k : ℝ) : EReal) := by
  show Ideal.hostReduceAdd h' e (Ideal.ofBits .f32 0x00000000#32) (ix1 r) = _
  rw [Ideal.hostReduceAdd_single h' h, ofBits_zero_f32, zero_add, ← sum_coe]
  exact Finset.sum_congr rfl fun (k : Fin b) _ => (congrArg e (lift_ix1 h r k)).trans (he r k)

/-- Host form: subtracting from each row of a matrix of reals that row's real value, then the exponential. -/
theorem host_shiftExp_apply {a b : ℕ} (M : Fin a → Fin b → ℝ) (m : Fin a → ℝ) (x : FVec Ideal ⟨2, ![a, b]⟩ .f32)
    (hx : ∀ p q, x (ix2 p q) = (M p q : EReal)) (c : FVec Ideal ⟨1, ![a]⟩ .f32) (hc : ∀ p, c (ix1 p) = (m p : EReal))
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    Host.exp (subf x (broadcastInDim ⟨2, ![a, b]⟩ ![0, 1] h2 (broadcastInDim ⟨2, ![a, 1]⟩ ![0] h1 c))) (ix2 p q)
      = ((Real.exp (M p q - m p) : ℝ) : EReal) := by
  show Ideal.exp (x (ix2 p q) - broadcastInDim ⟨2, ![a, b]⟩ ![0, 1] h2 (broadcastInDim ⟨2, ![a, 1]⟩ ![0] h1 c) (ix2 p q)) = _
  rw [host_col_apply c h1 h2 p q, hx, hc, sub_coe, exp_coe]

/-- Host form: dividing each row of a matrix of reals by that row's nonzero real value. -/
theorem host_divCol_apply {a b : ℕ} (E : Fin a → Fin b → ℝ) (m : Fin a → ℝ) (e : FVec Ideal ⟨2, ![a, b]⟩ .f32)
    (he : ∀ p q, e (ix2 p q) = (E p q : EReal)) (c : FVec Ideal ⟨1, ![a]⟩ .f32) (hc : ∀ p, c (ix1 p) = (m p : EReal))
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) (hm : m p ≠ 0) :
    Host.divf e (broadcastInDim ⟨2, ![a, b]⟩ ![0, 1] h2 (broadcastInDim ⟨2, ![a, 1]⟩ ![0] h1 c)) (ix2 p q)
      = ((E p q / m p : ℝ) : EReal) := by
  show Ideal.div (e (ix2 p q)) (broadcastInDim ⟨2, ![a, b]⟩ ![0, 1] h2 (broadcastInDim ⟨2, ![a, 1]⟩ ![0] h1 c) (ix2 p q)) = _
  rw [host_col_apply c h1 h2 p q, he, hc, div_coe_coe _ hm]

/-- The row maximum as the host takes it (the larger of a splat of minus infinity and the reduction), at row r. -/
theorem host_rowMaxGuard_apply {a b : ℕ} (hb : 0 < b) (M : Fin a → Fin b → ℝ) (x : FVec Ideal ⟨2, ![a, b]⟩ .f32)
    (hx : ∀ p q, x (ix2 p q) = (M p q : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (dims : Fin (⟨0, ![]⟩ : Shape).rank → Fin (⟨1, ![a]⟩ : Shape).rank)
    (h0 : (⟨0, ![]⟩ : Shape).BroadcastsInDim ⟨1, ![a]⟩ dims) (r : Fin a) :
    maximumf (broadcastInDim ⟨1, ![a]⟩ dims h0 (constant (F := Ideal) ⟨0, ![]⟩ .f32 0xFF800000#32))
        (Host.reduce FloatOps.maximumf x (constant (F := Ideal) ⟨0, ![]⟩ .f32 0xFF800000#32) h' hu) (ix1 r)
      = ((rowMax hb M r : ℝ) : EReal) := by
  show max (broadcastInDim ⟨1, ![a]⟩ dims h0 (constant (F := Ideal) ⟨0, ![]⟩ .f32 0xFF800000#32) (ix1 r))
    (Host.reduce FloatOps.maximumf x (constant (F := Ideal) ⟨0, ![]⟩ .f32 0xFF800000#32) h' hu (ix1 r)) = _
  rw [host_rowMax_apply hb M x hx h' h hu r, host_splat_apply dims h0 _ (ix1 r)]
  show max (Ideal.ofBits .f32 0xFF800000#32) _ = _
  rw [ofBits_negInf_f32]
  exact max_eq_right bot_le

/-- The max-shifted row softmax as the host spells it (row maximum, shift, exponential, row sum, quotient), on a
    matrix of reals, is at (p, q) the real row softmax. -/
theorem host_softmax_apply {a b : ℕ} (hb : 0 < b) (M : Fin a → Fin b → ℝ) (x : FVec Ideal ⟨2, ![a, b]⟩ .f32)
    (hx : ∀ p q, x (ix2 p q) = (M p q : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (dims : Fin (⟨0, ![]⟩ : Shape).rank → Fin (⟨1, ![a]⟩ : Shape).rank)
    (h0 : (⟨0, ![]⟩ : Shape).BroadcastsInDim ⟨1, ![a]⟩ dims)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    Host.divf
        (Host.exp (subf x (broadcastInDim ⟨2, ![a, b]⟩ ![0, 1] h2 (broadcastInDim ⟨2, ![a, 1]⟩ ![0] h1
          (maximumf (broadcastInDim ⟨1, ![a]⟩ dims h0 (constant (F := Ideal) ⟨0, ![]⟩ .f32 0xFF800000#32))
            (Host.reduce FloatOps.maximumf x (constant (F := Ideal) ⟨0, ![]⟩ .f32 0xFF800000#32) h' hu))))))
        (broadcastInDim ⟨2, ![a, b]⟩ ![0, 1] h2 (broadcastInDim ⟨2, ![a, 1]⟩ ![0] h1
          (Host.reduceAdd
            (Host.exp (subf x (broadcastInDim ⟨2, ![a, b]⟩ ![0, 1] h2 (broadcastInDim ⟨2, ![a, 1]⟩ ![0] h1
              (maximumf (broadcastInDim ⟨1, ![a]⟩ dims h0 (constant (F := Ideal) ⟨0, ![]⟩ .f32 0xFF800000#32))
                (Host.reduce FloatOps.maximumf x (constant (F := Ideal) ⟨0, ![]⟩ .f32 0xFF800000#32) h' hu))))))
            (constant (F := Ideal) ⟨0, ![]⟩ .f32 0x00000000#32) h' hu)))
        (ix2 p q)
      = ((smx hb M p q : ℝ) : EReal) := by
  have he := fun p' q' => host_shiftExp_apply M (rowMax hb M) x hx _
    (host_rowMaxGuard_apply hb M x hx h' h hu dims h0) h1 h2 p' q'
  exact host_divCol_apply (fun p' q' => Real.exp (M p' q' - rowMax hb M p'))
    (fun p' => ∑ k : Fin b, Real.exp (M p' k - rowMax hb M p')) _ he _ (host_rowSum_apply _ _ he h' h hu) h1 h2 p q
    (sum_exp_ne_zero hb _)

end Cert.LibIdealReal

end
-- ==== Proof.HostPreSmReal.lean ====
/-
  The two softmax factors on real entries.

  When every entry of the matrix is a real number, the host's max-shifted row softmax is the coercion of the real
  row softmax: the row maximum folded from minus infinity is the real maximum of the row, the shifted exponentials
  are real and positive, their sum is a nonzero real, and the exact quotient is the real quotient.  So entry (r2, j)
  of the operand made from B is the real softmax(B)[j, r2], and likewise for C.
-/
import proofs.«129508_j67740224193011_2_alg».proof.Proof.HostPreSm
import proofs.«129508_j67740224193011_2_alg».proof.Proof.LibIdealReal

noncomputable section

namespace Cert.KernelSide.HostPre

open Cert.KernelIdeal Cert.KernelIdeal.Gen
open Idealize.ShloMosaic Idealize.ShloMosaic.TcCoe Idealize.ShloMosaic.Tactic Idealize.ShloMosaic.ValueIdx
open Cert.KronSpec

/-- On a matrix of reals the host's row softmax is the real row softmax. -/
theorem softmaxHost_apply (x : FVec Ideal S192x48 .f32) (M : Fin 192 → Fin 48 → ℝ)
    (hx : ∀ p q, x (ix2 p q) = (M p q : EReal)) (p : Fin 192) (q : Fin 48) :
    softmaxHost x (ix2 p q) = ((smx (by norm_num) M p q : ℝ) : EReal) :=
  Cert.LibIdealReal.host_softmax_apply (by norm_num) M x hx reducesTo_S192x48_S192_d1 (by decide) h_S_ ![] bcast_S_S192
    bcast_S192_S192x1_0 bcast_S192x1_S192x48_0_1 p q

/-- The same with the real matrix read off the entries: when every entry is a real, the host's row softmax is the
    real row softmax of the entries' real parts. -/
theorem softmaxHost_apply_of_real (x : FVec Ideal S192x48 .f32) (h : ∀ i, ∃ r : ℝ, x i = (r : EReal))
    (p : Fin 192) (q : Fin 48) :
    softmaxHost x (ix2 p q)
      = ((smx (by norm_num) (fun a b => (x (ix2 a b) : EReal).toReal) p q : ℝ) : EReal) :=
  softmaxHost_apply x _ (fun a b => by
    obtain ⟨r, hr⟩ := h (ix2 a b)
    rw [hr, EReal.toReal_coe]) p q

variable (m : (ℓ : Loc nD τ sig) → Buf (Elt Ideal) ℓ) (c : Dev nD)

/-- Entry (r2, j) of the operand made from B, for a B of real entries: the real softmax(B)[j, r2]. -/
theorem v38_apply_real (h : ∀ i, ∃ r : ℝ, (m ((c : Thread nD τ).loc main_arg1) : FVec Ideal S192x48 .f32) i = (r : EReal))
    (r2 : Fin 48) (j : Fin 192) :
    V m c main_v38 (ix2 r2 j)
      = ((smx (by norm_num) (fun a b => (m ((c : Thread nD τ).loc main_arg1) (ix2 a b) : EReal).toReal) j r2 : ℝ) : EReal) :=
  (v38_apply m c r2 j).trans (softmaxHost_apply_of_real _ h j r2)

/-- Entry (r3, k) of the operand made from C, for a C of real entries: the real softmax(C)[k, r3]. -/
theorem v36_apply_real (h : ∀ i, ∃ r : ℝ, (m ((c : Thread nD τ).loc main_arg2) : FVec Ideal S192x48 .f32) i = (r : EReal))
    (r3 : Fin 48) (k : Fin 192) :
    V m c main_v36 (ix2 r3 k)
      = ((smx (by norm_num) (fun a b => (m ((c : Thread nD τ).loc main_arg2) (ix2 a b) : EReal).toReal) k r3 : ℝ) : EReal) :=
  (v36_apply m c r3 k).trans (softmaxHost_apply_of_real _ h k r3)

end Cert.KernelSide.HostPre
-- ==== Proof.BlocksArgs.lean ====
/-
  The blocks a grid point finds are pieces of the argument arrays.

  The grid has 64 points.  At point t the batch window holds rows 6144 t to 6144 t + 6143 of the reshaped batch, that
  is the 32 batch rows 32 t to 32 t + 31, each as 192 rows of 192 entries: entry (nl * 192 + k, j) of the block is
  X[32 t + nl, k * 192 + j].  The six other windows hold their whole arrays at every point, so their blocks are the
  prepared operands themselves: the transposed B_inv and C_inv, G_inv and relu(G) with the latent pair exchanged,
  and the transposed row softmaxes of C and B.  When the argument arrays have real entries, every block entry is
  the coercion of the corresponding real number.
-/
import proofs.«129508_j67740224193011_2_alg».proof.Proof.Gen.KernelIdeal.Frame
import proofs.«129508_j67740224193011_2_alg».proof.Proof.HostPre
import proofs.«129508_j67740224193011_2_alg».proof.Proof.HostPreAlt
import proofs.«129508_j67740224193011_2_alg».proof.Proof.HostPreSmReal
import proofs.«129508_j67740224193011_2_alg».proof.Proof.Finite

noncomputable section

namespace Cert.KernelSide.Blocks

open Cert.KernelIdeal Cert.KernelIdeal.Gen Cert.KernelSide.HostPre Cert.KronSpec
open Idealize.ShloMosaic Idealize.ShloMosaic.TcCoe Idealize.ShloMosaic.Tactic Idealize.ShloMosaic.ValueIdx

variable (m : (ℓ : Loc nD τ sig) → Buf (Elt Ideal) ℓ) (c : Dev nD)

/-- The grid has 64 points. -/
theorem point_lt (t : Fin cfg0.N) : t.val < 64 := lt_of_lt_of_eq t.isLt N_0

/-- The index maps over the grid: the batch window moves one block of rows per point, the six others stay at the
    origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Entry (nl * 192 + k, j) of the batch block at point t is X[32 t + nl, k * 192 + j]. -/
theorem blk0_apply (t : Fin cfg0.N) (nl : Fin 32) (k j : Fin 192) :
    iblk m c 0 t (ix2 (⟨nl.val * 192 + k.val, by have := nl.isLt; have := k.isLt; omega⟩ : Fin 6144) j)
      = m ((c : Thread nD τ).loc main_arg0)
          (ix2 (⟨t.val * 32 + nl.val, by have := point_lt t; have := nl.isLt; omega⟩ : Fin 2048)
            (⟨k.val * 192 + j.val, by have := k.isLt; have := j.isLt; omega⟩ : Fin 36864)) := by
  have ht := point_lt t
  have hn := nl.isLt
  have hk := k.isLt
  have hj := j.isLt
  obtain ⟨e0, e1, -⟩ := idx_facts t
  show V m c main_v39 (((cfg0.win 0).blk t).view.emb (ix2 (⟨nl.val * 192 + k.val, by omega⟩ : Fin 6144) j)) = _
  have h : ((cfg0.win 0).blk t).view.emb (ix2 (⟨nl.val * 192 + k.val, by omega⟩ : Fin 6144) j)
      = ix2 (⟨t.val * 6144 + nl.val * 192 + k.val, by omega⟩ : Fin 393216) j := by
    funext a; apply Fin.ext
    match a with
    | ⟨0, _⟩ => show win0_0.index t (0 : Fin 2) * 6144 + 1 * (nl.val * 192 + k.val) = t.val * 6144 + nl.val * 192 + k.val; omega
    | ⟨1, _⟩ => show win0_0.index t (1 : Fin 2) * 192 + 1 * j.val = j.val; omega
  rw [h]
  exact v39_apply_of_val m c _ j _ _ k
    (by show t.val * 6144 + nl.val * 192 + k.val = (t.val * 32 + nl.val) * 192 + k.val; omega) rfl

/-- Entry (j, r2) of the B_inv block is B_inv[r2, j]. -/
theorem blk1_apply (t : Fin cfg0.N) (j : Fin 192) (r2 : Fin 48) :
    iblk m c 1 t (ix2 j r2) = m ((c : Thread nD τ).loc main_arg4) (ix2 r2 j) := by
  obtain ⟨-, -, e0, e1, -⟩ := idx_facts t
  show V m c main_v32 (((cfg0.win 1).blk t).view.emb (ix2 j r2)) = _
  have h : ((cfg0.win 1).blk t).view.emb (ix2 j r2) = ix2 j r2 := by
    funext a; apply Fin.ext
    match a with
    | ⟨0, _⟩ => show win0_1.index t (0 : Fin 2) * 192 + 1 * (j).val = (j).val; omega
    | ⟨1, _⟩ => show win0_1.index t (1 : Fin 2) * 48 + 1 * (r2).val = (r2).val; omega
  rw [h]
  exact v32_apply m c j r2

/-- Entry (k, r3) of the C_inv block is C_inv[r3, k]. -/
theorem blk2_apply (t : Fin cfg0.N) (k : Fin 192) (r3 : Fin 48) :
    iblk m c 2 t (ix2 k r3) = m ((c : Thread nD τ).loc main_arg5) (ix2 r3 k) := by
  obtain ⟨-, -, -, -, e0, e1, -⟩ := idx_facts t
  show V m c main_v34 (((cfg0.win 2).blk t).view.emb (ix2 k r3)) = _
  have h : ((cfg0.win 2).blk t).view.emb (ix2 k r3) = ix2 k r3 := by
    funext a; apply Fin.ext
    match a with
    | ⟨0, _⟩ => show win0_2.index t (0 : Fin 2) * 192 + 1 * (k).val = (k).val; omega
    | ⟨1, _⟩ => show win0_2.index t (1 : Fin 2) * 48 + 1 * (r3).val = (r3).val; omega
  rw [h]
  exact v34_apply m c k r3

/-- Entry (r2 * 48 + r3, r1) of the G_inv block is G_inv[r3 * 48 + r2, r1]. -/
theorem blk3_apply (t : Fin cfg0.N) (r2 r3 : Fin 48) (r1 : Fin 256) :
    iblk m c 3 t (ix2 (⟨r2.val * 48 + r3.val, pair48_lt r2 r3⟩ : Fin 2304) r1)
      = m ((c : Thread nD τ).loc main_arg6) (ix2 (⟨r3.val * 48 + r2.val, pair48_lt r3 r2⟩ : Fin 2304) r1) := by
  obtain ⟨-, -, -, -, -, -, e0, e1, -⟩ := idx_facts t
  show V m c main_v3 (((cfg0.win 3).blk t).view.emb (ix2 (⟨r2.val * 48 + r3.val, pair48_lt r2 r3⟩ : Fin 2304) r1)) = _
  have h : ((cfg0.win 3).blk t).view.emb (ix2 (⟨r2.val * 48 + r3.val, pair48_lt r2 r3⟩ : Fin 2304) r1) = ix2 (⟨r2.val * 48 + r3.val, pair48_lt r2 r3⟩ : Fin 2304) r1 := by
    funext a; apply Fin.ext
    match a with
    | ⟨0, _⟩ => show win0_3.index t (0 : Fin 2) * 2304 + 1 * ((⟨r2.val * 48 + r3.val, pair48_lt r2 r3⟩ : Fin 2304)).val = ((⟨r2.val * 48 + r3.val, pair48_lt r2 r3⟩ : Fin 2304)).val; omega
    | ⟨1, _⟩ => show win0_3.index t (1 : Fin 2) * 256 + 1 * (r1).val = (r1).val; omega
  rw [h]
  exact v3_apply_of_val m c _ _ r1 r2 r3 rfl rfl

/-- Entry (r1, r2 * 48 + r3) of the relu(G) block is max(G[r1, r3 * 48 + r2], 0). -/
theorem blk4_apply (t : Fin cfg0.N) (r1 : Fin 256) (r2 r3 : Fin 48) :
    iblk m c 4 t (ix2 r1 (⟨r2.val * 48 + r3.val, pair48_lt r2 r3⟩ : Fin 2304))
      = @max EReal _ (m ((c : Thread nD τ).loc main_arg3) (ix2 r1 (⟨r3.val * 48 + r2.val, pair48_lt r3 r2⟩ : Fin 2304)))
          (Ideal.ofBits .f32 0x00000000#32) := by
  obtain ⟨-, -, -, -, -, -, -, -, e0, e1, -⟩ := idx_facts t
  show V m c main_v8 (((cfg0.win 4).blk t).view.emb (ix2 r1 (⟨r2.val * 48 + r3.val, pair48_lt r2 r3⟩ : Fin 2304))) = _
  have h : ((cfg0.win 4).blk t).view.emb (ix2 r1 (⟨r2.val * 48 + r3.val, pair48_lt r2 r3⟩ : Fin 2304)) = ix2 r1 (⟨r2.val * 48 + r3.val, pair48_lt r2 r3⟩ : Fin 2304) := by
    funext a; apply Fin.ext
    match a with
    | ⟨0, _⟩ => show win0_4.index t (0 : Fin 2) * 256 + 1 * (r1).val = (r1).val; omega
    | ⟨1, _⟩ => show win0_4.index t (1 : Fin 2) * 2304 + 1 * ((⟨r2.val * 48 + r3.val, pair48_lt r2 r3⟩ : Fin 2304)).val = ((⟨r2.val * 48 + r3.val, pair48_lt r2 r3⟩ : Fin 2304)).val; omega
  rw [h]
  exact v8_apply_of_val m c r1 _ _ r2 r3 rfl rfl

/-- Entry (r3, k) of the softmax(C) block is the host's softmax of C at (k, r3). -/
theorem blk5_apply (t : Fin cfg0.N) (r3 : Fin 48) (k : Fin 192) :
    iblk m c 5 t (ix2 r3 k) = softmaxHost (m ((c : Thread nD τ).loc main_arg2)) (ix2 k r3) := by
  obtain ⟨-, -, -, -, -, -, -, -, -, -, e0, e1, -⟩ := idx_facts t
  show V m c main_v36 (((cfg0.win 5).blk t).view.emb (ix2 r3 k)) = _
  have h : ((cfg0.win 5).blk t).view.emb (ix2 r3 k) = ix2 r3 k := by
    funext a; apply Fin.ext
    match a with
    | ⟨0, _⟩ => show win0_5.index t (0 : Fin 2) * 48 + 1 * (r3).val = (r3).val; omega
    | ⟨1, _⟩ => show win0_5.index t (1 : Fin 2) * 192 + 1 * (k).val = (k).val; omega
  rw [h]
  exact v36_apply m c r3 k

/-- Entry (r2, j) of the softmax(B) block is the host's softmax of B at (j, r2). -/
theorem blk6_apply (t : Fin cfg0.N) (r2 : Fin 48) (j : Fin 192) :
    iblk m c 6 t (ix2 r2 j) = softmaxHost (m ((c : Thread nD τ).loc main_arg1)) (ix2 j r2) := by
  obtain ⟨-, -, -, -, -, -, -, -, -, -, -, -, e0, e1⟩ := idx_facts t
  show V m c main_v38 (((cfg0.win 6).blk t).view.emb (ix2 r2 j)) = _
  have h : ((cfg0.win 6).blk t).view.emb (ix2 r2 j) = ix2 r2 j := by
    funext a; apply Fin.ext
    match a with
    | ⟨0, _⟩ => show win0_6.index t (0 : Fin 2) * 48 + 1 * (r2).val = (r2).val; omega
    | ⟨1, _⟩ => show win0_6.index t (1 : Fin 2) * 192 + 1 * (j).val = (j).val; omega
  rw [h]
  exact v38_apply m c r2 j

/-! ## On real entries -/

open Cert.Finite

/-- For an X of real entries, entry (nl * 192 + k, j) of the batch block at point t is the real X[32 t + nl, k * 192 + j]. -/
theorem blk0_apply_real (h0 : RealEntries (s := S2048x36864) (m ((c : Thread nD τ).loc main_arg0)))
    (t : Fin cfg0.N) (nl : Fin 32) (k j : Fin 192) :
    iblk m c 0 t (ix2 (⟨nl.val * 192 + k.val, by have := nl.isLt; have := k.isLt; omega⟩ : Fin 6144) j)
      = (((m ((c : Thread nD τ).loc main_arg0)
          (ix2 (⟨t.val * 32 + nl.val, by have := point_lt t; have := nl.isLt; omega⟩ : Fin 2048)
            (⟨k.val * 192 + j.val, by have := k.isLt; have := j.isLt; omega⟩ : Fin 36864)) : EReal).toReal : ℝ) : EReal) :=
  (blk0_apply m c t nl k j).trans (h0.eq_toReal _)

/-- For a B_inv of real entries, entry (j, r2) of its block is the real B_inv[r2, j]. -/
theorem blk1_apply_real (h4 : RealEntries (s := S48x192) (m ((c : Thread nD τ).loc main_arg4)))
    (t : Fin cfg0.N) (j : Fin 192) (r2 : Fin 48) :
    iblk m c 1 t (ix2 j r2) = (((m ((c : Thread nD τ).loc main_arg4) (ix2 r2 j) : EReal).toReal : ℝ) : EReal) :=
  (blk1_apply m c t j r2).trans (h4.eq_toReal _)

/-- For a C_inv of real entries, entry (k, r3) of its block is the real C_inv[r3, k]. -/
theorem blk2_apply_real (h5 : RealEntries (s := S48x192) (m ((c : Thread nD τ).loc main_arg5)))
    (t : Fin cfg0.N) (k : Fin 192) (r3 : Fin 48) :
    iblk m c 2 t (ix2 k r3) = (((m ((c : Thread nD τ).loc main_arg5) (ix2 r3 k) : EReal).toReal : ℝ) : EReal) :=
  (blk2_apply m c t k r3).trans (h5.eq_toReal _)

/-- For a G_inv of real entries, entry (r2 * 48 + r3, r1) of its block is the real G_inv[r3 * 48 + r2, r1]. -/
theorem blk3_apply_real (h6 : RealEntries (s := S2304x256) (m ((c : Thread nD τ).loc main_arg6)))
    (t : Fin cfg0.N) (r2 r3 : Fin 48) (r1 : Fin 256) :
    iblk m c 3 t (ix2 (⟨r2.val * 48 + r3.val, pair48_lt r2 r3⟩ : Fin 2304) r1)
      = (((m ((c : Thread nD τ).loc main_arg6) (ix2 (⟨r3.val * 48 + r2.val, pair48_lt r3 r2⟩ : Fin 2304) r1) : EReal).toReal : ℝ) : EReal) :=
  (blk3_apply m c t r2 r3 r1).trans (h6.eq_toReal _)

/-- For a G of real entries, entry (r1, r2 * 48 + r3) of the relu(G) block is the real max(G[r1, r3 * 48 + r2], 0). -/
theorem blk4_apply_real (h3 : RealEntries (s := S256x2304) (m ((c : Thread nD τ).loc main_arg3)))
    (t : Fin cfg0.N) (r1 : Fin 256) (r2 r3 : Fin 48) :
    iblk m c 4 t (ix2 r1 (⟨r2.val * 48 + r3.val, pair48_lt r2 r3⟩ : Fin 2304))
      = ((max ((m ((c : Thread nD τ).loc main_arg3) (ix2 r1 (⟨r3.val * 48 + r2.val, pair48_lt r3 r2⟩ : Fin 2304)) : EReal).toReal) 0 : ℝ) : EReal) := by
  obtain ⟨r, hr⟩ := h3 (ix2 r1 (⟨r3.val * 48 + r2.val, pair48_lt r3 r2⟩ : Fin 2304))
  rw [blk4_apply, hr, EReal.toReal_coe, Cert.LibIdealReal.ofBits_zero_f32, Cert.LibIdealReal.max_coe_zero]

/-- For a C of real entries, entry (r3, k) of the softmax(C) block is the real softmax(C)[k, r3]. -/
theorem blk5_apply_real (h2 : RealEntries (s := S192x48) (m ((c : Thread nD τ).loc main_arg2)))
    (t : Fin cfg0.N) (r3 : Fin 48) (k : Fin 192) :
    iblk m c 5 t (ix2 r3 k)
      = ((smx (by norm_num) (fun a b => (m ((c : Thread nD τ).loc main_arg2) (ix2 a b) : EReal).toReal) k r3 : ℝ) : EReal) :=
  (blk5_apply m c t r3 k).trans (softmaxHost_apply_of_real _ h2 k r3)

/-- For a B of real entries, entry (r2, j) of the softmax(B) block is the real softmax(B)[j, r2]. -/
theorem blk6_apply_real (h1 : RealEntries (s := S192x48) (m ((c : Thread nD τ).loc main_arg1)))
    (t : Fin cfg0.N) (r2 : Fin 48) (j : Fin 192) :
    iblk m c 6 t (ix2 r2 j)
      = ((smx (by norm_num) (fun a b => (m ((c : Thread nD τ).loc main_arg1) (ix2 a b) : EReal).toReal) j r2 : ℝ) : EReal) :=
  (blk6_apply m c t r2 j).trans (softmaxHost_apply_of_real _ h1 j r2)

end Cert.KernelSide.Blocks

end
-- ==== Proof.KernelValueA.lean ====
/-
  The output block of one batch tile, as a function of the seven input blocks.

  The body's one store to the output block covers the whole block, so what the block holds afterwards is that
  store's value: the last stage (two products with an exchange of axes between them) applied to the second scratch
  buffer as read back and to the two blocks of the softmax factors.
-/
import proofs.«129508_j67740224193011_2_alg».proof.Proof.RunKI
import Idealize.ShloMosaic.Lib.Pipeline.Value
import Idealize.ShloMosaic.Lib.ValueIdx

noncomputable section

open scoped BigOperators

namespace Cert.KernelSide

open Cert.KernelIdeal Cert.KernelIdeal.Gen Cert.Proof.KernelIdealBody

open Idealize.ShloMosaic
open Idealize.ShloMosaic.TcCoe Idealize.ShloMosaic.ValueIdx
open Idealize.SL Idealize.SL.Sem

/-- The output block is the last stage applied to the second scratch buffer read back whole and to the blocks of the
    two softmax factors. -/
theorem outBlock_eq (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (x1 : Vec Ideal S6144x192 .f32) (x2 x3 : Vec Ideal S192x48 .bf16) (x4 : Vec Ideal S2304x256 .bf16) (x5 : Vec Ideal S256x2304 .bf16)
    (x6 x7 : Vec Ideal S48x192 .bf16) :
    outBlock (F := Ideal) c i M1 h1 M2 h2 M3 h3 M4 h4 M5 h5 M6 h6 M7 h7 M8 h8 M9 h9 M10 h10 x1 x2 x3 x4 x5 x6 x7
      = k0_pay3 (F := Ideal) (kernelRunP.sl.v561 (F := Ideal) c M1 M2 M3 M4 M5 M9 M10 (h1.unread x1) (h2.unread x2) (h3.unread x3)
          (h4.unread x4) (h5.unread x5) M10.view.junk) x6 x7 := by
  unfold outBlock kernelRunP
  dsimp only
  rw [View.read_writes_junk_eq_canon]
  unfold kernelRunP.sl.H8_1
  rw [View.canon_unit_zero (by funext a; fin_cases a <;> rfl)]
  simp only [View.readAt_eq_ld, h6.read_unread, h7.read_unread]
  rw [View.ld_unit_zero (by funext a; fin_cases a <;> rfl), View.ld_unit_zero (by funext a; fin_cases a <;> rfl)]

/-- A whole-block load of a staging buffer that holds a block reads the block. -/
theorem readAt_unread {S : Shape} {e : EltTy} (M : Memref sig .tc .vmem S e) (h : M.IsWhole) (x : Vec Ideal S e)
    {off : Fin S.rank → Nat} (hoff : off = fun _ => 0) (inb : ∀ a, off a + S.size a ≤ S.size a) :
    View.readAt (Elt Ideal) M.view (Rect.unit off S.size inb).toLoadRect (h.unread x) = x := by
  rw [View.readAt_eq_ld, h.read_unread, View.ld_unit_zero hoff]

end Cert.KernelSide

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.BlockMath.lean ====
/-
  The arithmetic of one batch tile, read at one entry.

  Each of the body's large values is a composition of matrix products into zero accumulators, re-readings of the same
  entries under another shape (row-major order kept), exchanges of two axes, and changes of float format that are the
  identity at the exact values.  Read at one entry, each is a finite sum (or a nested pair of sums) of products of
  entries of its operands.
-/
import proofs.«129508_j67740224193011_2_alg».proof.Proof.Gen.KernelIdeal.Skeleton
import proofs.«129508_j67740224193011_2_alg».proof.Proof.LibIdealReal
import proofs.«129508_j67740224193011_2_alg».proof.Proof.LibMatmulRows

noncomputable section

open scoped BigOperators

namespace Cert.KernelSide.BlockMath

open Idealize.ShloMosaic Idealize.ShloMosaic.ValueIdx Cert.KernelIdeal Cert.KernelIdeal.Gen

/-- A row-by-column product of a 32 × 256 matrix and a 256 × 2304 matrix: entry (nl, pp). -/
theorem pay61_apply (v317 : FVec Ideal S32x256 .bf16) (x5 : Vec Ideal S256x2304 .bf16) (nl : Fin 32) (pp : Fin 2304) :
    k0_pay61 (F := Ideal) v317 x5 (ix2 nl pp) = ∑ r1 : Fin 256, v317 (ix2 nl r1) * x5 (ix2 r1 pp) := by
  unfold k0_pay61
  simp only [shapeCast_self]
  exact LibMatmulRows.matmul_zero_apply dot_S32x256_S256x2304_S32x2304_1_0_0_1_n_n rfl rfl
    (fun _ _ => rfl) (fun _ _ => rfl) (fun _ _ => rfl) (fun _ _ => rfl) none v317 x5 nl pp

/-! ## Re-reading under another shape, and exchanging two axes -/

/-- A three-axis array re-read with its first two axes merged: the entry at merged row a·B + b and column c is the
    entry (a, b, c). -/
theorem cast_3_2 {α : Type} {A B C AB : ℕ} (x : (⟨3, ![A, B, C]⟩ : Shape).Idx → α)
    (h : (⟨3, ![A, B, C]⟩ : Shape).ShapeCasts ⟨2, ![AB, C]⟩) (a : Fin A) (b : Fin B) (c : Fin C) (m : Fin AB)
    (hm : m.val = a.val * B + b.val) :
    shapeCast ⟨2, ![AB, C]⟩ x h (ix2 m c) = x (ix3 a b c) :=
  shapeCast_apply x h _ _ (by
    rw [Shape.rowMajor_val_two, Shape.rowMajor_val_three]
    show (a.val * B + b.val) * C + c.val = m.val * C + c.val
    rw [hm])

/-- A two-axis array re-read with its first axis split in two: the entry (a, b, c) is the entry at row a·B + b and
    column c. -/
theorem cast_2_3 {α : Type} {A B C AB : ℕ} (x : (⟨2, ![AB, C]⟩ : Shape).Idx → α)
    (h : (⟨2, ![AB, C]⟩ : Shape).ShapeCasts ⟨3, ![A, B, C]⟩) (a : Fin A) (b : Fin B) (c : Fin C) (m : Fin AB)
    (hm : m.val = a.val * B + b.val) :
    shapeCast ⟨3, ![A, B, C]⟩ x h (ix3 a b c) = x (ix2 m c) :=
  shapeCast_apply x h _ _ (by
    rw [Shape.rowMajor_val_two, Shape.rowMajor_val_three]
    show m.val * C + c.val = (a.val * B + b.val) * C + c.val
    rw [hm])

/-- Exchanging the last two axes of a three-axis array: the entry (a, c, b) of the result is the entry (a, b, c). -/
theorem transpose_021_apply {α : Type} {A B C : ℕ} (x : (⟨3, ![A, B, C]⟩ : Shape).Idx → α)
    (h : (⟨3, ![A, B, C]⟩ : Shape).Transposes [0, 2, 1] ⟨3, ![A, C, B]⟩) (a : Fin A) (c : Fin C) (b : Fin B) :
    transpose ⟨3, ![A, C, B]⟩ [0, 2, 1] x h (ix3 a c b) = x (ix3 a b c) :=
  transpose_apply [0, 2, 1] x h (ix3 a c b) (ix3 a b c) (fun ax => match ax with
    | ⟨0, _⟩ => rfl
    | ⟨1, _⟩ => rfl
    | ⟨2, _⟩ => rfl)

/-! ## The three products -/

/-- The first stage: two products with an exchange of axes between them.  Entry (nl, r2, r3) is the sum over k of
    (the sum over j of x1[nl·192 + k, j] · x2[j, r2]) · x3[k, r3]. -/
theorem pay4_apply (x1 : Vec Ideal S6144x192 .f32) (x2 x3 : Vec Ideal S192x48 .bf16) (nl : Fin 32) (r2 r3 : Fin 48) :
    k0_pay4 (F := Ideal) x1 x2 x3 (ix3 nl r2 r3)
      = ∑ k : Fin 192, (∑ j : Fin 192,
          x1 (ix2 (⟨nl.val * 192 + k.val, by have := nl.isLt; have := k.isLt; omega⟩ : Fin 6144) j) * x2 (ix2 j r2))
            * x3 (ix2 k r3) := by
  unfold k0_pay4
  simp only [shapeCast_self]
  refine (cast_2_3 _ _ nl r2 r3 (⟨nl.val * 48 + r2.val, by have := nl.isLt; have := r2.isLt; omega⟩ : Fin 1536) rfl).trans ?_
  refine (LibMatmulRows.matmul_zero_apply (φ₁ := .bf16) (φ₂ := .bf16) dot_S1536x192_S192x48_S1536x48_1_0_0_1_n_n rfl rfl
    (fun _ _ => rfl) (fun _ _ => rfl) (fun _ _ => rfl) (fun _ _ => rfl) none _ _ _ _).trans ?_
  refine Finset.sum_congr rfl fun k _ => congrArg (· * x3 (ix2 k r3)) ?_
  refine (truncf_apply (ψ := .bf16) (φ := .f32) _ _ _).trans ?_
  refine (cast_3_2 _ _ nl r2 k _ rfl).trans ?_
  refine (transpose_021_apply _ _ nl r2 k).trans ?_
  refine (cast_2_3 _ _ nl k r2 (⟨nl.val * 192 + k.val, by have := nl.isLt; have := k.isLt; omega⟩ : Fin 6144) rfl).trans ?_
  refine (LibMatmulRows.matmul_zero_apply (φ₁ := .bf16) (φ₂ := .bf16) dot_S6144x192_S192x48_S6144x48_1_0_0_1_n_n rfl rfl
    (fun _ _ => rfl) (fun _ _ => rfl) (fun _ _ => rfl) (fun _ _ => rfl) none _ _ _ _).trans ?_
  rfl

/-- The last stage: two products with an exchange of axes between them.  Entry (nl·192 + k, j) is the sum over r2 of
    (the sum over r3 of v[nl, r2, r3] · x6[r3, k]) · x7[r2, j]. -/
theorem pay3_apply (v561 : Vec Ideal S32x48x48 .bf16) (x6 x7 : Vec Ideal S48x192 .bf16) (nl : Fin 32) (k j : Fin 192) :
    k0_pay3 (F := Ideal) v561 x6 x7
        (ix2 (⟨nl.val * 192 + k.val, by have := nl.isLt; have := k.isLt; omega⟩ : Fin 6144) j)
      = ∑ r2 : Fin 48, (∑ r3 : Fin 48, v561 (ix3 nl r2 r3) * x6 (ix2 r3 k)) * x7 (ix2 r2 j) := by
  unfold k0_pay3
  simp only [shapeCast_self]
  refine (LibMatmulRows.matmul_zero_apply (φ₁ := .bf16) (φ₂ := .bf16) dot_S6144x48_S48x192_S6144x192_1_0_0_1_n_n rfl rfl
    (fun _ _ => rfl) (fun _ _ => rfl) (fun _ _ => rfl) (fun _ _ => rfl) none _ _ _ _).trans ?_
  refine Finset.sum_congr rfl fun r2 _ => congrArg (· * x7 (ix2 r2 j)) ?_
  refine (truncf_apply (ψ := .bf16) (φ := .f32) _ _ _).trans ?_
  refine (cast_3_2 _ _ nl k r2 _ rfl).trans ?_
  refine (transpose_021_apply _ _ nl k r2).trans ?_
  refine (cast_2_3 _ _ nl r2 k (⟨nl.val * 48 + r2.val, by have := nl.isLt; have := r2.isLt; omega⟩ : Fin 1536) rfl).trans ?_
  refine (LibMatmulRows.matmul_zero_apply (φ₁ := .bf16) (φ₂ := .bf16) dot_S1536x48_S48x192_S1536x192_1_0_0_1_n_n rfl rfl
    (fun _ _ => rfl) (fun _ _ => rfl) (fun _ _ => rfl) (fun _ _ => rfl) none _ _ _ _).trans ?_
  refine Finset.sum_congr rfl fun r3 _ => congrArg (· * x6 (ix2 r3 k)) ?_
  exact cast_3_2 _ _ nl r2 r3 _ rfl

end Cert.KernelSide.BlockMath

end
-- ==== Proof.BlockMathSoftmax.lean ====
/-
  The middle stage of one batch tile: a product followed by the row softmax.

  When the two operands of the product hold real entries, the product's entries are real, and the max-shifted row
  softmax of a matrix of reals is the real row softmax.
-/
import proofs.«129508_j67740224193011_2_alg».proof.Proof.BlockMath

noncomputable section

open scoped BigOperators

namespace Cert.KernelSide.BlockMath

open Idealize.ShloMosaic Idealize.ShloMosaic.ValueIdx Cert.KernelIdeal Cert.KernelIdeal.Gen

/-- A row-by-column product of a 32 × 2304 matrix of reals and a 2304 × 256 matrix of reals: entry (p, q) is the real
    inner product. -/
theorem matmul_Z_G_apply (v302 : Vec Ideal S32x2304 .bf16) (x4 : Vec Ideal S2304x256 .bf16)
    (Z : Fin 32 → Fin 2304 → ℝ) (G4 : Fin 2304 → Fin 256 → ℝ)
    (hZ : ∀ nl pp, v302 (ix2 nl pp) = (Z nl pp : EReal)) (hG : ∀ pp r1, x4 (ix2 pp r1) = (G4 pp r1 : EReal))
    (p : Fin 32) (q : Fin 256) :
    matmul (F := Ideal) (φ₁ := .bf16) (φ₂ := .bf16) dot_S32x2304_S2304x256_S32x256_1_0_0_1_n_n none v302 x4
        (constant (F := Ideal) S32x256 .f32 0x00000000#32) (ix2 p q)
      = ((∑ pp : Fin 2304, Z p pp * G4 pp q : ℝ) : EReal) := by
  refine (LibMatmulRows.matmul_zero_apply (φ₁ := .bf16) (φ₂ := .bf16) dot_S32x2304_S2304x256_S32x256_1_0_0_1_n_n rfl rfl
    (fun _ _ => rfl) (fun _ _ => rfl) (fun _ _ => rfl) (fun _ _ => rfl) none v302 x4 p q).trans ?_
  rw [← LibIdealReal.sum_mul_coe]
  exact Finset.sum_congr rfl fun pp _ => by rw [hZ, hG]

/-- The middle stage: with A[nl, r1] the real inner product of row nl of Z and column r1 of G4, entry (nl, r1) is the
    real row softmax of A. -/
theorem pay60_apply (v302 : Vec Ideal S32x2304 .bf16) (x4 : Vec Ideal S2304x256 .bf16)
    (Z : Fin 32 → Fin 2304 → ℝ) (G4 : Fin 2304 → Fin 256 → ℝ) (A : Fin 32 → Fin 256 → ℝ)
    (hZ : ∀ nl pp, v302 (ix2 nl pp) = (Z nl pp : EReal)) (hG : ∀ pp r1, x4 (ix2 pp r1) = (G4 pp r1 : EReal))
    (hA : ∀ nl r1, A nl r1 = ∑ pp : Fin 2304, Z nl pp * G4 pp r1) (nl : Fin 32) (r1 : Fin 256) :
    k0_pay60 (F := Ideal) v302 x4 (ix2 nl r1) = ((Cert.KronSpec.smx (by norm_num) A nl r1 : ℝ) : EReal) := by
  have hx : ∀ p q, matmul (F := Ideal) (φ₁ := .bf16) (φ₂ := .bf16) dot_S32x2304_S2304x256_S32x256_1_0_0_1_n_n none v302 x4
      (constant (F := Ideal) S32x256 .f32 0x00000000#32) (ix2 p q) = (A p q : EReal) := fun p q => by
    rw [hA]; exact matmul_Z_G_apply v302 x4 Z G4 hZ hG p q
  unfold k0_pay60
  simp only [shapeCast_self]
  refine (truncf_apply (ψ := .bf16) (φ := .f32) _ _ _).trans ?_
  exact LibIdealReal.kernel_softmax_apply (by norm_num) A _ hx _ _ _ _ _ _ nl r1

end Cert.KernelSide.BlockMath

end
-- ==== Proof.BlockMathReal.lean ====
/-
  The three products of one batch tile on real entries.

  When every operand entry is (the coercion of) a real number, each product's entry is the coercion of the same
  nested real sum.
-/
import proofs.«129508_j67740224193011_2_alg».proof.Proof.BlockMath

noncomputable section

open scoped BigOperators

namespace Cert.KernelSide.BlockMath

open Idealize.ShloMosaic Idealize.ShloMosaic.ValueIdx Cert.KernelIdeal Cert.KernelIdeal.Gen

/-- The product of a 32 × 256 matrix of reals and a 256 × 2304 matrix of reals: entry (nl, pp). -/
theorem pay61_real (v317 : FVec Ideal S32x256 .bf16) (x5 : Vec Ideal S256x2304 .bf16)
    (P : Fin 32 → Fin 256 → ℝ) (X5 : Fin 256 → Fin 2304 → ℝ)
    (hP : ∀ nl r1, v317 (ix2 nl r1) = (P nl r1 : EReal)) (h5 : ∀ r1 pp, x5 (ix2 r1 pp) = (X5 r1 pp : EReal))
    (nl : Fin 32) (pp : Fin 2304) :
    k0_pay61 (F := Ideal) v317 x5 (ix2 nl pp) = ((∑ r1 : Fin 256, P nl r1 * X5 r1 pp : ℝ) : EReal) := by
  rw [pay61_apply, ← LibIdealReal.sum_mul_coe]
  exact Finset.sum_congr rfl fun r1 _ => by rw [hP, h5]

/-- The first stage on real entries: entry (nl, r2, r3). -/
theorem pay4_real (x1 : Vec Ideal S6144x192 .f32) (x2 x3 : Vec Ideal S192x48 .bf16)
    (X1 : Fin 6144 → Fin 192 → ℝ) (X2 X3 : Fin 192 → Fin 48 → ℝ)
    (h1 : ∀ m j, x1 (ix2 m j) = (X1 m j : EReal)) (h2 : ∀ j r, x2 (ix2 j r) = (X2 j r : EReal))
    (h3 : ∀ k r, x3 (ix2 k r) = (X3 k r : EReal)) (nl : Fin 32) (r2 r3 : Fin 48) :
    k0_pay4 (F := Ideal) x1 x2 x3 (ix3 nl r2 r3)
      = ((∑ k : Fin 192, (∑ j : Fin 192,
          X1 (⟨nl.val * 192 + k.val, by have := nl.isLt; have := k.isLt; omega⟩ : Fin 6144) j * X2 j r2)
            * X3 k r3 : ℝ) : EReal) := by
  rw [pay4_apply, ← LibIdealReal.sum_mul_coe]
  refine Finset.sum_congr rfl fun k _ => ?_
  rw [h3, ← LibIdealReal.sum_mul_coe]
  exact congrArg (· * (X3 k r3 : EReal)) (Finset.sum_congr rfl fun j _ => by rw [h1, h2])

/-- The last stage on real entries: entry (nl·192 + k, j). -/
theorem pay3_real (v561 : Vec Ideal S32x48x48 .bf16) (x6 x7 : Vec Ideal S48x192 .bf16)
    (V : Fin 32 → Fin 48 → Fin 48 → ℝ) (X6 X7 : Fin 48 → Fin 192 → ℝ)
    (hV : ∀ nl r2 r3, v561 (ix3 nl r2 r3) = (V nl r2 r3 : EReal)) (h6 : ∀ r k, x6 (ix2 r k) = (X6 r k : EReal))
    (h7 : ∀ r j, x7 (ix2 r j) = (X7 r j : EReal)) (nl : Fin 32) (k j : Fin 192) :
    k0_pay3 (F := Ideal) v561 x6 x7
        (ix2 (⟨nl.val * 192 + k.val, by have := nl.isLt; have := k.isLt; omega⟩ : Fin 6144) j)
      = ((∑ r2 : Fin 48, (∑ r3 : Fin 48, V nl r2 r3 * X6 r3 k) * X7 r2 j : ℝ) : EReal) := by
  rw [pay3_apply, ← LibIdealReal.sum_mul_coe]
  refine Finset.sum_congr rfl fun r2 _ => ?_
  rw [h7, ← LibIdealReal.sum_mul_coe]
  exact congrArg (· * (X7 r2 j : EReal)) (Finset.sum_congr rfl fun r3 _ => by rw [hV, h6])

end Cert.KernelSide.BlockMath

end
-- ==== Proof.ScratchZ.lean ====
/-
  The first scratch buffer, filled by 48 column tiles and read back whole.

  The body holds a [32, 48, 48] block and stores, for each i below 48, row i of the block's middle axis (a [32, 48]
  matrix, narrowed to the shorter float format) into columns 48 i to 48 i + 47 of the [32, 2304] scratch buffer; then
  it loads the buffer whole.  The 48 column tiles are disjoint and cover the buffer, so what the load reads at
  (n, 48 r2 + r3) is entry (n, r2, r3) of the block: every store's payload is the restriction to its tile of one
  function of the flat index, (n, y) going to the block at (n, y / 48, y % 48), and every flat index lies in the tile
  numbered y / 48.  Over the extended reals the narrowing changes nothing.

  The run lists its stores last made first, in chunks; each chunk is identified with the stores of tiles n - 1 down
  to 0, for the generic tile defined here, by unfolding the payloads.
-/
import proofs.«129508_j67740224193011_2_alg».proof.Proof.BodyKI
import Idealize.ShloMosaic.Lib.Pipeline.Value
import Idealize.ShloMosaic.Lib.ValueIdx

noncomputable section

namespace Cert.Proof.KernelIdealBody

open Cert.KernelIdeal Cert.KernelIdeal.Gen
open Idealize.ShloMosaic Idealize.ShloMosaic.ValueIdx

/-- Row i of the middle axis of a [32, 48, 48] block is a [32, 1, 48] slice of it. -/
theorem slices_row (i : ℕ) (hi : i < 48) : S32x48x48.Slices ![0, i, 0] S32x1x48 :=
  ⟨rfl, fun a => match a with
    | ⟨0, _⟩ => by show 0 + 32 ≤ 32; omega
    | ⟨1, _⟩ => by show i + 1 ≤ 48; omega
    | ⟨2, _⟩ => by show 0 + 48 ≤ 48; omega⟩

/-- Column tile i (columns 48 i to 48 i + 47) lies inside the [32, 2304] buffer. -/
theorem inb_tile (i : ℕ) (hi : i < 48) : ∀ a, (![0, 48 * i] : Fin 2 → Nat) a + S32x48.size a ≤ S32x2304.size a :=
  fun a => match a with
    | ⟨0, _⟩ => by show 0 + 32 ≤ 32; omega
    | ⟨1, _⟩ => by show 48 * i + 48 ≤ 2304; omega

/-- Row i of the middle axis of the block, flattened to [32, 48] and narrowed: what the body stores in column tile i. -/
def tile (R : FVec Ideal S32x48x48 .f32) (i : ℕ) (hi : i < 48) : FVec Ideal S32x48 .bf16 :=
  shapeCast S32x48
    (truncf .bf16 (shapeCast S32x48 (extractStridedSlice S32x1x48 ![0, i, 0] R (slices_row i hi)) shapeCasts_S32x1x48_S32x48)
      bitsLt_bf16_f32)
    shapeCasts_S32x48_S32x48

/-- Entry (p, q) of that tile is entry (p, i, q) of the block. -/
theorem tile_apply (R : FVec Ideal S32x48x48 .f32) (i : ℕ) (hi : i < 48) (p : Fin 32) (q : Fin 48) :
    tile R i hi (ix2 p q) = R (ix3 p (⟨i, hi⟩ : Fin 48) q) := by
  unfold tile
  rw [shapeCast_self]
  refine (truncf_apply (ψ := .bf16) _ bitsLt_bf16_f32 _).trans ?_
  refine (shapeCast_apply _ shapeCasts_S32x1x48_S32x48 (ix2 p q) (ix3 p (0 : Fin 1) q)
    (by rw [Shape.rowMajor_val_three, Shape.rowMajor_val_two]
        show (p.val * 1 + 0) * 48 + q.val = p.val * 48 + q.val
        omega)).trans ?_
  exact extractStridedSlice_apply ![0, i, 0] R (slices_row i hi) (ix3 p (0 : Fin 1) q) (ix3 p (⟨i, hi⟩ : Fin 48) q)
    (fun a => match a with
      | ⟨0, _⟩ => by show p.val = 0 + p.val; omega
      | ⟨1, _⟩ => by show i = i + 0; omega
      | ⟨2, _⟩ => by show q.val = 0 + q.val; omega)

/-- The store of column tile i. -/
def piece (R : FVec Ideal S32x48x48 .f32) (i : ℕ) (hi : i < 48) : View.Piece (Elt Ideal) S32x2304 EltTy.bf16 :=
  ⟨Rect.unit (s := S32x2304) ![0, 48 * i] S32x48.size (inb_tile i hi), tile R i hi⟩

/-- The stores of column tiles n - 1, ..., 1, 0, the last made first. -/
def tilesUpTo (R : FVec Ideal S32x48x48 .f32) : (n : ℕ) → n ≤ 48 → List (View.Piece (Elt Ideal) S32x2304 EltTy.bf16)
  | 0, _ => []
  | n + 1, h => piece R n (by omega) :: tilesUpTo R n (by omega)

/-- The block read at a flat index: entry (n, 48 r2 + r3) is entry (n, r2, r3) of the block. -/
def flatG (R : FVec Ideal S32x48x48 .f32) : S32x2304.Idx → Elt Ideal EltTy.bf16 :=
  fun y => R (ix3 (⟨(y 0).val, idx2_lt0 y⟩ : Fin 32)
    (⟨(y 1).val / 48, by have := idx2_lt1 y; omega⟩ : Fin 48)
    (⟨(y 1).val % 48, Nat.mod_lt _ (by omega)⟩ : Fin 48))

/-- The store of column tile i puts, at each of its entries, the block read at that entry's flat index. -/
theorem piece_ok (R : FVec Ideal S32x48x48 .f32) (i : ℕ) (hi : i < 48) (x : S32x48.Idx) :
    tile R i hi x = flatG R ((Rect.unit (s := S32x2304) ![0, 48 * i] S32x48.size (inb_tile i hi)).emb x) := by
  obtain ⟨p, q, rfl⟩ : ∃ (p : Fin 32) (q : Fin 48), x = ix2 p q := ⟨x 0, x 1, eq_ix2 x⟩
  rw [tile_apply]
  unfold flatG
  refine congrArg R (funext fun a => Fin.ext ?_)
  have hq := q.isLt
  match a with
  | ⟨0, _⟩ => show p.val = 0 + 1 * p.val; omega
  | ⟨1, _⟩ => show i = (48 * i + 1 * q.val) / 48; omega
  | ⟨2, _⟩ => show q.val = (48 * i + 1 * q.val) % 48; omega

/-- A store in the list of the first n tiles is the store of some tile below n. -/
theorem mem_tilesUpTo (R : FVec Ideal S32x48x48 .f32) :
    ∀ (n : ℕ) (h : n ≤ 48) (p : View.Piece (Elt Ideal) S32x2304 EltTy.bf16), p ∈ tilesUpTo R n h →
      ∃ (i : ℕ) (hi : i < 48), i < n ∧ p = piece R i hi
  | 0, _, p, hp => absurd hp List.not_mem_nil
  | n + 1, h, p, hp => by
    rcases List.mem_cons.mp hp with rfl | hp'
    · exact ⟨n, by omega, by omega, rfl⟩
    · obtain ⟨i, hi, hin, e⟩ := mem_tilesUpTo R n (by omega) p hp'
      exact ⟨i, hi, by omega, e⟩

/-- Every tile below n has its store in the list of the first n tiles. -/
theorem piece_mem_tilesUpTo (R : FVec Ideal S32x48x48 .f32) (i : ℕ) (hi : i < 48) :
    ∀ (n : ℕ) (h : n ≤ 48), i < n → piece R i hi ∈ tilesUpTo R n h
  | 0, _, hin => absurd hin (by omega)
  | n + 1, h, hin => by
    by_cases e : i = n
    · subst e; exact List.mem_cons_self
    · exact List.mem_cons_of_mem _ (piece_mem_tilesUpTo R i hi n (by omega) (by omega))

/-- After the 48 stores the buffer holds, at every flat index, the block read at that index. -/
theorem canon_tiles (R : FVec Ideal S32x48x48 .f32) (y : S32x2304.Idx) :
    View.canon (tilesUpTo R 48 (le_refl 48)) y = flatG R y := by
  refine View.canon_apply_of_pieces (flatG R) _ (fun p hp x => ?_) y ?_
  · obtain ⟨i, hi, -, rfl⟩ := mem_tilesUpTo R 48 (le_refl 48) p hp
    exact piece_ok R i hi x
  · have h0 := idx2_lt0 y
    have h1 := idx2_lt1 y
    refine ⟨piece R ((y 1).val / 48) (by omega), piece_mem_tilesUpTo R _ _ 48 (le_refl 48) (by omega), ?_⟩
    show y ∈ (Rect.unit (s := S32x2304) ![0, 48 * ((y 1).val / 48)] S32x48.size (inb_tile ((y 1).val / 48) (by omega))).set
    rw [Rect.mem_set_unit]
    intro a
    match a with
    | ⟨0, _⟩ => show 0 ≤ (y 0).val ∧ (y 0).val < 0 + 32; omega
    | ⟨1, _⟩ => show 48 * ((y 1).val / 48) ≤ (y 1).val ∧ (y 1).val < 48 * ((y 1).val / 48) + 48; omega

variable (c : Dev nD) (M1 : Memref sig .tc .vmem S6144x192 .f32) (M2 M3 : Memref sig .tc .vmem S192x48 .bf16)
  (f1 : Bf (F := Ideal) c M1) (f2 : Bf (F := Ideal) c M2) (f3 : Bf (F := Ideal) c M3)

/-- The first four stores are those of column tiles 3, 2, 1, 0. -/
theorem H9_4_eq : kernelRunP.sl.H9_4 (F := Ideal) c M1 M2 M3 f1 f2 f3
    = tilesUpTo (kernelRunP.sl.r (F := Ideal) c M1 M2 M3 f1 f2 f3) 4 (by omega) := rfl

/-- The first 10 stores are those of column tiles 9 down to 0. -/
theorem H9_10_eq : kernelRunP.sl.H9_10 (F := Ideal) c M1 M2 M3 f1 f2 f3
    = tilesUpTo (kernelRunP.sl.r (F := Ideal) c M1 M2 M3 f1 f2 f3) 10 (by omega) := by
  unfold kernelRunP.sl.H9_10
  rw [H9_4_eq]
  rfl

/-- The first 17 stores are those of column tiles 16 down to 0. -/
theorem H9_17_eq : kernelRunP.sl.H9_17 (F := Ideal) c M1 M2 M3 f1 f2 f3
    = tilesUpTo (kernelRunP.sl.r (F := Ideal) c M1 M2 M3 f1 f2 f3) 17 (by omega) := by
  unfold kernelRunP.sl.H9_17
  rw [H9_10_eq]
  rfl

/-- The first 24 stores are those of column tiles 23 down to 0. -/
theorem H9_24_eq : kernelRunP.sl.H9_24 (F := Ideal) c M1 M2 M3 f1 f2 f3
    = tilesUpTo (kernelRunP.sl.r (F := Ideal) c M1 M2 M3 f1 f2 f3) 24 (by omega) := by
  unfold kernelRunP.sl.H9_24
  rw [H9_17_eq]
  rfl

/-- The first 30 stores are those of column tiles 29 down to 0. -/
theorem H9_30_eq : kernelRunP.sl.H9_30 (F := Ideal) c M1 M2 M3 f1 f2 f3
    = tilesUpTo (kernelRunP.sl.r (F := Ideal) c M1 M2 M3 f1 f2 f3) 30 (by omega) := by
  unfold kernelRunP.sl.H9_30
  rw [H9_24_eq]
  rfl

/-- The first 37 stores are those of column tiles 36 down to 0. -/
theorem H9_37_eq : kernelRunP.sl.H9_37 (F := Ideal) c M1 M2 M3 f1 f2 f3
    = tilesUpTo (kernelRunP.sl.r (F := Ideal) c M1 M2 M3 f1 f2 f3) 37 (by omega) := by
  unfold kernelRunP.sl.H9_37
  rw [H9_30_eq]
  rfl

/-- The first 44 stores are those of column tiles 43 down to 0. -/
theorem H9_44_eq : kernelRunP.sl.H9_44 (F := Ideal) c M1 M2 M3 f1 f2 f3
    = tilesUpTo (kernelRunP.sl.r (F := Ideal) c M1 M2 M3 f1 f2 f3) 44 (by omega) := by
  unfold kernelRunP.sl.H9_44
  rw [H9_37_eq]
  rfl

/-- The first 48 stores are those of column tiles 47 down to 0. -/
theorem H9_48_eq : kernelRunP.sl.H9_48 (F := Ideal) c M1 M2 M3 f1 f2 f3
    = tilesUpTo (kernelRunP.sl.r (F := Ideal) c M1 M2 M3 f1 f2 f3) 48 (by omega) := by
  unfold kernelRunP.sl.H9_48
  rw [H9_44_eq]
  rfl

/-- The first scratch buffer read back whole: entry (n, 48 r2 + r3) is entry (n, r2, r3) of the block. Column tile r2
    was stored from row r2 of the block's middle axis, and the narrowing of the float format changes nothing over the
    extended reals. -/
theorem v302_eq (c : Dev nD) (M1 : Memref sig .tc .vmem S6144x192 .f32) (M2 M3 : Memref sig .tc .vmem S192x48 .bf16)
    (M9 : Memref sig .tc .vmem S32x2304 .bf16)
    (f1 : Bf (F := Ideal) c M1) (f2 : Bf (F := Ideal) c M2) (f3 : Bf (F := Ideal) c M3)
    (nl : Fin 32) (r2 r3 : Fin 48) :
    kernelRunP.sl.v302 (F := Ideal) c M1 M2 M3 M9 f1 f2 f3
        (ValueIdx.ix2 nl (⟨r2.val * 48 + r3.val, by have := r2.isLt; have := r3.isLt; omega⟩ : Fin 2304))
      = kernelRunP.sl.r (F := Ideal) c M1 M2 M3 f1 f2 f3 (ValueIdx.ix3 nl r2 r3) := by
  have h2 := r2.isLt
  have h3 := r3.isLt
  unfold kernelRunP.sl.v302
  rw [View.readCov_eq_canon', H9_48_eq]
  have hidx : (Rect.unit (s := S32x2304) ![0, 0] S32x2304.size inb_S32x2304_S32x2304_0_0).toLoadRect.idx
        (ix2 nl (⟨r2.val * 48 + r3.val, by omega⟩ : Fin 2304))
      = ix2 nl (⟨r2.val * 48 + r3.val, by omega⟩ : Fin 2304) :=
    funext fun a => Fin.ext (match a with
      | ⟨0, _⟩ => by show 0 + 1 * nl.val = nl.val; omega
      | ⟨1, _⟩ => by show 0 + 1 * (r2.val * 48 + r3.val) = r2.val * 48 + r3.val; omega)
  show View.canon _ ((Rect.unit (s := S32x2304) ![0, 0] S32x2304.size inb_S32x2304_S32x2304_0_0).toLoadRect.idx
        (ix2 nl (⟨r2.val * 48 + r3.val, by omega⟩ : Fin 2304))) = _
  rw [hidx, canon_tiles]
  unfold flatG
  refine congrArg _ (funext fun a => Fin.ext ?_)
  match a with
  | ⟨0, _⟩ => rfl
  | ⟨1, _⟩ => show (r2.val * 48 + r3.val) / 48 = r2.val; omega
  | ⟨2, _⟩ => show (r2.val * 48 + r3.val) % 48 = r3.val; omega

end Cert.Proof.KernelIdealBody

end
-- ==== Proof.KernelValueB.lean ====
/-
  The output block of one batch tile on real input blocks.

  When the seven input blocks hold real entries, every intermediate value of the tile is real: the first stage gives
  the tile's encoding before the latent product, the middle stage its row softmax, the next product and the last
  stage the decoding.  The output block's entries are the coercions of the nested real sums defined below.
-/
import proofs.«129508_j67740224193011_2_alg».proof.Proof.KernelValueA
import proofs.«129508_j67740224193011_2_alg».proof.Proof.BlockMathSoftmax
import proofs.«129508_j67740224193011_2_alg».proof.Proof.BlockMathReal
import proofs.«129508_j67740224193011_2_alg».proof.Proof.ScratchZ

noncomputable section

open scoped BigOperators

namespace Cert.KernelSide

open Cert.KernelIdeal Cert.KernelIdeal.Gen Cert.Proof.KernelIdealBody

open Idealize.ShloMosaic
open Idealize.ShloMosaic.TcCoe Idealize.ShloMosaic.ValueIdx
open Idealize.SL Idealize.SL.Sem

open Cert.KronSpec Cert.KernelSide.BlockMath

namespace Tile

/-- Two coordinates below 48 merged, the first the major one. -/
def pair48 (a b : Fin 48) : Fin 2304 := ⟨a.val * 48 + b.val, by have := a.isLt; have := b.isLt; omega⟩

/-- A tile row and a coordinate below 192 merged, the row the major one. -/
def row192 (nl : Fin 32) (k : Fin 192) : Fin 6144 := ⟨nl.val * 192 + k.val, by have := nl.isLt; have := k.isLt; omega⟩

/-- The major coordinate of a merged pair. -/
def hi48 (p : Fin 2304) : Fin 48 := ⟨p.val / 48, by have := p.isLt; omega⟩

/-- The minor coordinate of a merged pair. -/
def lo48 (p : Fin 2304) : Fin 48 := ⟨p.val % 48, Nat.mod_lt _ (by norm_num)⟩

theorem pair48_hi_lo (p : Fin 2304) : pair48 (hi48 p) (lo48 p) = p :=
  Fin.ext (by show p.val / 48 * 48 + p.val % 48 = p.val; omega)

theorem hi48_pair48 (a b : Fin 48) : hi48 (pair48 a b) = a :=
  Fin.ext (by show (a.val * 48 + b.val) / 48 = a.val; have := b.isLt; omega)

theorem lo48_pair48 (a b : Fin 48) : lo48 (pair48 a b) = b :=
  Fin.ext (by show (a.val * 48 + b.val) % 48 = b.val; have := b.isLt; omega)

/-- The tile's first stage over the reals. -/
def encB (X1 : Fin 6144 → Fin 192 → ℝ) (X2 X3 : Fin 192 → Fin 48 → ℝ) (nl : Fin 32) (r2 r3 : Fin 48) : ℝ :=
  ∑ k : Fin 192, (∑ j : Fin 192, X1 (row192 nl k) j * X2 j r2) * X3 k r3

/-- The tile's latent product over the reals, summed over the merged latent axis. -/
def latB (X1 : Fin 6144 → Fin 192 → ℝ) (X2 X3 : Fin 192 → Fin 48 → ℝ) (X4 : Fin 2304 → Fin 256 → ℝ)
    (nl : Fin 32) (r1 : Fin 256) : ℝ :=
  ∑ pp : Fin 2304, encB X1 X2 X3 nl (hi48 pp) (lo48 pp) * X4 pp r1

/-- The tile's decoding product over the reals. -/
def decB (X1 : Fin 6144 → Fin 192 → ℝ) (X2 X3 : Fin 192 → Fin 48 → ℝ) (X4 : Fin 2304 → Fin 256 → ℝ)
    (X5 : Fin 256 → Fin 2304 → ℝ) (nl : Fin 32) (r2 r3 : Fin 48) : ℝ :=
  ∑ r1 : Fin 256, smx (by norm_num) (latB X1 X2 X3 X4) nl r1 * X5 r1 (pair48 r2 r3)

/-- The tile's output over the reals. -/
def outB (X1 : Fin 6144 → Fin 192 → ℝ) (X2 X3 : Fin 192 → Fin 48 → ℝ) (X4 : Fin 2304 → Fin 256 → ℝ)
    (X5 : Fin 256 → Fin 2304 → ℝ) (X6 X7 : Fin 48 → Fin 192 → ℝ) (nl : Fin 32) (k j : Fin 192) : ℝ :=
  ∑ r2 : Fin 48, (∑ r3 : Fin 48, decB X1 X2 X3 X4 X5 nl r2 r3 * X6 r3 k) * X7 r2 j

end Tile

open Tile

/-- The first scratch buffer read back whole holds, at column r2·48 + r3, the first stage's entry (r2, r3). -/
abbrev HypZ : Prop :=
  ∀ (c : Dev nD) (M1 : Memref sig .tc .vmem S6144x192 .f32) (M2 M3 : Memref sig .tc .vmem S192x48 .bf16)
    (M9 : Memref sig .tc .vmem S32x2304 .bf16) (f1 : Bf (F := Ideal) c M1) (f2 : Bf (F := Ideal) c M2) (f3 : Bf (F := Ideal) c M3)
    (nl : Fin 32) (r2 r3 : Fin 48),
    kernelRunP.sl.v302 (F := Ideal) c M1 M2 M3 M9 f1 f2 f3
        (ix2 nl (⟨r2.val * 48 + r3.val, by have := r2.isLt; have := r3.isLt; omega⟩ : Fin 2304))
      = kernelRunP.sl.r (F := Ideal) c M1 M2 M3 f1 f2 f3 (ix3 nl r2 r3)

/-- The first scratch buffer's fact holds. -/
theorem hypZ : HypZ := fun c M1 M2 M3 M9 f1 f2 f3 nl r2 r3 =>
  Cert.Proof.KernelIdealBody.v302_eq c M1 M2 M3 M9 f1 f2 f3 nl r2 r3

/-- The second scratch buffer read back whole holds, at (r2, r3), the decoding product's column r2·48 + r3. -/
abbrev HypM : Prop :=
  ∀ (c : Dev nD) (M1 : Memref sig .tc .vmem S6144x192 .f32) (M2 M3 : Memref sig .tc .vmem S192x48 .bf16)
    (M4 : Memref sig .tc .vmem S2304x256 .bf16) (M5 : Memref sig .tc .vmem S256x2304 .bf16)
    (M9 : Memref sig .tc .vmem S32x2304 .bf16) (M10 : Memref sig .tc .vmem S32x48x48 .bf16)
    (f1 : Bf (F := Ideal) c M1) (f2 : Bf (F := Ideal) c M2) (f3 : Bf (F := Ideal) c M3) (f4 : Bf (F := Ideal) c M4)
    (f5 : Bf (F := Ideal) c M5) (f10 : Bf (F := Ideal) c M10) (nl : Fin 32) (r2 r3 : Fin 48),
    kernelRunP.sl.v561 (F := Ideal) c M1 M2 M3 M4 M5 M9 M10 f1 f2 f3 f4 f5 f10 (ix3 nl r2 r3)
      = kernelRunP.sl.r_9 (F := Ideal) c M1 M2 M3 M4 M5 M9 f1 f2 f3 f4 f5
          (ix2 nl (⟨r2.val * 48 + r3.val, by have := r2.isLt; have := r3.isLt; omega⟩ : Fin 2304))

section
variable (c : Dev nD)
  (M1 : Memref sig .tc .vmem S6144x192 .f32) (h1 : M1.IsWhole) (M2 : Memref sig .tc .vmem S192x48 .bf16) (h2 : M2.IsWhole)
  (M3 : Memref sig .tc .vmem S192x48 .bf16) (h3 : M3.IsWhole) (M4 : Memref sig .tc .vmem S2304x256 .bf16) (h4 : M4.IsWhole)
  (M5 : Memref sig .tc .vmem S256x2304 .bf16) (h5 : M5.IsWhole)
  (M9 : Memref sig .tc .vmem S32x2304 .bf16) (M10 : Memref sig .tc .vmem S32x48x48 .bf16)
  (x1 : Vec Ideal S6144x192 .f32) (x2 x3 : Vec Ideal S192x48 .bf16) (x4 : Vec Ideal S2304x256 .bf16) (x5 : Vec Ideal S256x2304 .bf16)
  (X1 : Fin 6144 → Fin 192 → ℝ) (X2 X3 : Fin 192 → Fin 48 → ℝ) (X4 : Fin 2304 → Fin 256 → ℝ) (X5 : Fin 256 → Fin 2304 → ℝ)
  (e1 : ∀ p j, x1 (ix2 p j) = (X1 p j : EReal)) (e2 : ∀ j r, x2 (ix2 j r) = (X2 j r : EReal))
  (e3 : ∀ k r, x3 (ix2 k r) = (X3 k r : EReal)) (e4 : ∀ p r, x4 (ix2 p r) = (X4 p r : EReal))
  (e5 : ∀ r p, x5 (ix2 r p) = (X5 r p : EReal))

include e1 e2 e3 in
/-- The first stage on real blocks. -/
theorem r_real (nl : Fin 32) (r2 r3 : Fin 48) :
    kernelRunP.sl.r (F := Ideal) c M1 M2 M3 (h1.unread x1) (h2.unread x2) (h3.unread x3) (ix3 nl r2 r3)
      = ((encB X1 X2 X3 nl r2 r3 : ℝ) : EReal) := by
  unfold kernelRunP.sl.r
  simp only [View.readAt_eq_ld, h1.read_unread, h2.read_unread, h3.read_unread]
  rw [View.ld_unit_zero (by funext a; fin_cases a <;> rfl), View.ld_unit_zero (by funext a; fin_cases a <;> rfl),
    View.ld_unit_zero (by funext a; fin_cases a <;> rfl)]
  exact pay4_real x1 x2 x3 X1 X2 X3 e1 e2 e3 nl r2 r3

include e1 e2 e3 in
/-- The first scratch buffer read back, on real blocks. -/
theorem v302_real (hZ : HypZ) (nl : Fin 32) (pp : Fin 2304) :
    kernelRunP.sl.v302 (F := Ideal) c M1 M2 M3 M9 (h1.unread x1) (h2.unread x2) (h3.unread x3) (ix2 nl pp)
      = ((encB X1 X2 X3 nl (hi48 pp) (lo48 pp) : ℝ) : EReal) := by
  have hp : pp = (⟨(hi48 pp).val * 48 + (lo48 pp).val, by have := (hi48 pp).isLt; have := (lo48 pp).isLt; omega⟩ : Fin 2304) :=
    (pair48_hi_lo pp).symm
  refine (congrArg (fun q => kernelRunP.sl.v302 (F := Ideal) c M1 M2 M3 M9 (h1.unread x1) (h2.unread x2) (h3.unread x3) (ix2 nl q)) hp).trans ?_
  refine (hZ c M1 M2 M3 M9 _ _ _ nl (hi48 pp) (lo48 pp)).trans ?_
  exact r_real c M1 h1 M2 h2 M3 h3 x1 x2 x3 X1 X2 X3 e1 e2 e3 nl _ _

include e1 e2 e3 e4 in
/-- The middle stage on real blocks. -/
theorem r8_real (hZ : HypZ) (nl : Fin 32) (r1 : Fin 256) :
    kernelRunP.sl.r_8 (F := Ideal) c M1 M2 M3 M4 M9 (h1.unread x1) (h2.unread x2) (h3.unread x3) (h4.unread x4) (ix2 nl r1)
      = ((smx (by norm_num) (latB X1 X2 X3 X4) nl r1 : ℝ) : EReal) := by
  unfold kernelRunP.sl.r_8
  simp only [View.readAt_eq_ld, h4.read_unread]
  rw [View.ld_unit_zero (by funext a; fin_cases a <;> rfl)]
  exact pay60_apply _ x4 (fun nl pp => encB X1 X2 X3 nl (hi48 pp) (lo48 pp)) X4 (latB X1 X2 X3 X4)
    (v302_real c M1 h1 M2 h2 M3 h3 M9 x1 x2 x3 X1 X2 X3 e1 e2 e3 hZ) e4 (fun _ _ => rfl) nl r1

include e1 e2 e3 e4 e5 in
/-- The decoding product on real blocks. -/
theorem r9_real (hZ : HypZ) (nl : Fin 32) (pp : Fin 2304) :
    kernelRunP.sl.r_9 (F := Ideal) c M1 M2 M3 M4 M5 M9 (h1.unread x1) (h2.unread x2) (h3.unread x3) (h4.unread x4) (h5.unread x5)
        (ix2 nl pp)
      = ((∑ r1 : Fin 256, smx (by norm_num) (latB X1 X2 X3 X4) nl r1 * X5 r1 pp : ℝ) : EReal) := by
  unfold kernelRunP.sl.r_9
  simp only [View.readAt_eq_ld, h5.read_unread]
  rw [View.ld_unit_zero (by funext a; fin_cases a <;> rfl)]
  exact pay61_real _ x5 (smx (by norm_num) (latB X1 X2 X3 X4)) X5
    (r8_real c M1 h1 M2 h2 M3 h3 M4 h4 M9 x1 x2 x3 x4 X1 X2 X3 X4 e1 e2 e3 e4 hZ) e5 nl pp

include e1 e2 e3 e4 e5 in
/-- The second scratch buffer read back, on real blocks. -/
theorem v561_real (hZ : HypZ) (hM : HypM) (f10 : Bf (F := Ideal) c M10) (nl : Fin 32) (r2 r3 : Fin 48) :
    kernelRunP.sl.v561 (F := Ideal) c M1 M2 M3 M4 M5 M9 M10 (h1.unread x1) (h2.unread x2) (h3.unread x3) (h4.unread x4)
        (h5.unread x5) f10 (ix3 nl r2 r3)
      = ((decB X1 X2 X3 X4 X5 nl r2 r3 : ℝ) : EReal) :=
  (hM c M1 M2 M3 M4 M5 M9 M10 _ _ _ _ _ f10 nl r2 r3).trans
    (r9_real c M1 h1 M2 h2 M3 h3 M4 h4 M5 h5 M9 x1 x2 x3 x4 x5 X1 X2 X3 X4 X5 e1 e2 e3 e4 e5 hZ nl (pair48 r2 r3))

end

/-- The output block on real input blocks: entry (nl·192 + k, j) is the coercion of the tile's real output. -/
theorem outBlock_real (hM : HypM) (c : Dev nD) (i : grid0.Coords)
    (M1 : Memref sig .tc .vmem S6144x192 .f32) (h1 : M1.IsWhole) (M2 : Memref sig .tc .vmem S192x48 .bf16) (h2 : M2.IsWhole)
    (M3 : Memref sig .tc .vmem S192x48 .bf16) (h3 : M3.IsWhole) (M4 : Memref sig .tc .vmem S2304x256 .bf16) (h4 : M4.IsWhole)
    (M5 : Memref sig .tc .vmem S256x2304 .bf16) (h5 : M5.IsWhole) (M6 : Memref sig .tc .vmem S48x192 .bf16) (h6 : M6.IsWhole)
    (M7 : Memref sig .tc .vmem S48x192 .bf16) (h7 : M7.IsWhole) (M8 : Memref sig .tc .vmem S6144x192 .f32) (h8 : M8.IsWhole)
    (M9 : Memref sig .tc .vmem S32x2304 .bf16) (h9 : M9.IsWhole) (M10 : Memref sig .tc .vmem S32x48x48 .bf16) (h10 : M10.IsWhole)
    (x1 : Vec Ideal S6144x192 .f32) (x2 x3 : Vec Ideal S192x48 .bf16) (x4 : Vec Ideal S2304x256 .bf16) (x5 : Vec Ideal S256x2304 .bf16)
    (x6 x7 : Vec Ideal S48x192 .bf16)
    (X1 : Fin 6144 → Fin 192 → ℝ) (X2 X3 : Fin 192 → Fin 48 → ℝ) (X4 : Fin 2304 → Fin 256 → ℝ) (X5 : Fin 256 → Fin 2304 → ℝ)
    (X6 X7 : Fin 48 → Fin 192 → ℝ)
    (e1 : ∀ p j, x1 (ix2 p j) = (X1 p j : EReal)) (e2 : ∀ j r, x2 (ix2 j r) = (X2 j r : EReal))
    (e3 : ∀ k r, x3 (ix2 k r) = (X3 k r : EReal)) (e4 : ∀ p r, x4 (ix2 p r) = (X4 p r : EReal))
    (e5 : ∀ r p, x5 (ix2 r p) = (X5 r p : EReal)) (e6 : ∀ r k, x6 (ix2 r k) = (X6 r k : EReal))
    (e7 : ∀ r j, x7 (ix2 r j) = (X7 r j : EReal)) (nl : Fin 32) (k j : Fin 192) :
    outBlock (F := Ideal) c i M1 h1 M2 h2 M3 h3 M4 h4 M5 h5 M6 h6 M7 h7 M8 h8 M9 h9 M10 h10 x1 x2 x3 x4 x5 x6 x7
        (ix2 (row192 nl k) j)
      = ((outB X1 X2 X3 X4 X5 X6 X7 nl k j : ℝ) : EReal) := by
  rw [outBlock_eq]
  exact pay3_real _ x6 x7 (decB X1 X2 X3 X4 X5) X6 X7
    (v561_real c M1 h1 M2 h2 M3 h3 M4 h4 M5 h5 M9 M10 x1 x2 x3 x4 x5 X1 X2 X3 X4 X5 e1 e2 e3 e4 e5 hypZ hM _) e6 e7 nl k j

end Cert.KernelSide

end
-- ==== Proof.KernelValueSpec.lean ====
/-
  The tile's real output is the specification's.

  For a batch row n = t·32 + nl, when the tile's seven real blocks are the rearrangements of the seven real arrays
  that the host prepares (the batch rows of the tile; the two inverse factors transposed; the latent matrices with
  the two coordinates of their merged axis exchanged; the two softmax factors transposed), the tile's nested sums are
  the kernel-order encoding, its row softmax and the kernel-order decoding of the specification.
-/
import proofs.«129508_j67740224193011_2_alg».proof.Proof.KernelValueB

noncomputable section

open scoped BigOperators

namespace Cert.KernelSide

open Cert.KernelIdeal Cert.KernelIdeal.Gen Cert.Proof.KernelIdealBody

open Idealize.ShloMosaic
open Idealize.ShloMosaic.TcCoe Idealize.ShloMosaic.ValueIdx
open Idealize.SL Idealize.SL.Sem

open Cert.KronSpec Cert.KernelSide.Tile

/-- A row softmax depends on its own row only. -/
theorem smx_row_congr {a a' b : ℕ} (hb hb' : 0 < b) (M : Fin a → Fin b → ℝ) (M' : Fin a' → Fin b → ℝ) (i : Fin a) (i' : Fin a')
    (h : ∀ j, M i j = M' i' j) (j : Fin b) : smx hb M i j = smx hb' M' i' j := by
  have hrow : M i = M' i' := funext h
  unfold smx rowMax
  rw [hrow]

/-- Two coordinates below 48 merged, the first the major one, is the standard pairing. -/
theorem pair48_eq (a b : Fin 48) : pair48 a b = finProdFinEquiv (a, b) :=
  Fin.ext (by
    rw [finProdFinEquiv_apply_val]
    show a.val * 48 + b.val = b.val + 48 * a.val
    omega)

/-- The sum over the merged latent axis is the double sum over its two coordinates. -/
theorem latB_eq (X1 : Fin 6144 → Fin 192 → ℝ) (X2 X3 : Fin 192 → Fin 48 → ℝ) (X4 : Fin 2304 → Fin 256 → ℝ)
    (nl : Fin 32) (r1 : Fin 256) :
    latB X1 X2 X3 X4 nl r1 = ∑ r2 : Fin 48, ∑ r3 : Fin 48, encB X1 X2 X3 nl r2 r3 * X4 (pair48 r2 r3) r1 := by
  unfold latB
  rw [← finProdFinEquiv.sum_comp (fun pp : Fin (48 * 48) => encB X1 X2 X3 nl (hi48 pp) (lo48 pp) * X4 pp r1),
    Fintype.sum_prod_type]
  refine Finset.sum_congr rfl fun r2 _ => Finset.sum_congr rfl fun r3 _ => ?_
  rw [← pair48_eq, hi48_pair48, lo48_pair48]

section
variable (Xr : Fin 2048 → Fin 36864 → ℝ) (Br Cr : Fin 192 → Fin 48 → ℝ) (Gr : Fin 256 → Fin 2304 → ℝ)
  (Bir Cir : Fin 48 → Fin 192 → ℝ) (Gir : Fin 2304 → Fin 256 → ℝ)
  (X1 : Fin 6144 → Fin 192 → ℝ) (X2 X3 : Fin 192 → Fin 48 → ℝ) (X4 : Fin 2304 → Fin 256 → ℝ) (X5 : Fin 256 → Fin 2304 → ℝ)
  (X6 X7 : Fin 48 → Fin 192 → ℝ) (n : Fin 2048) (nl : Fin 32)
  (g1 : ∀ k j, X1 (row192 nl k) j = Xr n (finProdFinEquiv (k, j)))
  (g2 : ∀ j r2, X2 j r2 = Bir r2 j) (g3 : ∀ k r3, X3 k r3 = Cir r3 k)
  (g4 : ∀ r2 r3 r1, X4 (pair48 r2 r3) r1 = Gir (finProdFinEquiv (r3, r2)) r1)
  (g5 : ∀ r1 r2 r3, X5 r1 (pair48 r2 r3) = max (Gr r1 (finProdFinEquiv (r3, r2))) 0)
  (g6 : ∀ r3 k, X6 r3 k = smx (by norm_num) Cr k r3) (g7 : ∀ r2 j, X7 r2 j = smx (by norm_num) Br j r2)

include g1 g2 g3 in
/-- The tile's first stage is the inner double sum of the kernel-order encoding. -/
theorem encB_eq (r2 r3 : Fin 48) :
    encB X1 X2 X3 nl r2 r3 = ∑ k : Fin 192, (∑ j : Fin 192, xU Xr n k j * Bir r2 j) * Cir r3 k := by
  unfold encB xU
  refine Finset.sum_congr rfl fun k _ => ?_
  rw [g3]
  exact congrArg (· * Cir r3 k) (Finset.sum_congr rfl fun j _ => by rw [g1, g2])

include g1 g2 g3 g4 in
/-- The tile's latent product is the kernel-order encoding of batch row n. -/
theorem latB_eq_encK (r1 : Fin 256) : latB X1 X2 X3 X4 nl r1 = encK (xU Xr) Bir Cir (giU Gir) n r1 := by
  rw [latB_eq]
  unfold encK giU
  refine Finset.sum_congr rfl fun r2 _ => Finset.sum_congr rfl fun r3 _ => ?_
  rw [encB_eq Xr Bir Cir X1 X2 X3 n nl g1 g2 g3, g4]

include g1 g2 g3 g4 g5 in
/-- The tile's decoding product is the inner sum of the kernel-order decoding. -/
theorem decB_eq (r2 r3 : Fin 48) :
    decB X1 X2 X3 X4 X5 nl r2 r3
      = ∑ r1 : Fin 256, smx (by norm_num) (encK (xU Xr) Bir Cir (giU Gir)) n r1 * rgU Gr r1 r3 r2 := by
  unfold decB rgU
  refine Finset.sum_congr rfl fun r1 _ => ?_
  rw [g5, smx_row_congr (by norm_num) (by norm_num) (latB X1 X2 X3 X4) (encK (xU Xr) Bir Cir (giU Gir)) nl n
    (latB_eq_encK Xr Bir Cir Gir X1 X2 X3 X4 n nl g1 g2 g3 g4) r1]

include g1 g2 g3 g4 g5 g6 g7 in
/-- The tile's real output at (nl, k, j) is the specification's kernel-order result at batch row n and merged column
    (k, j). -/
theorem outB_eq_outK (k j : Fin 192) :
    outB X1 X2 X3 X4 X5 X6 X7 nl k j = outK Xr Br Cr Gr Bir Cir Gir n (finProdFinEquiv (k, j)) := by
  unfold outB outK decK
  simp only [Equiv.symm_apply_apply]
  refine Finset.sum_congr rfl fun r2 _ => ?_
  rw [g7]
  refine congrArg (· * smx _ Br j r2) (Finset.sum_congr rfl fun r3 _ => ?_)
  rw [g6, decB_eq Xr Gr Bir Cir Gir X1 X2 X3 X4 X5 n nl g1 g2 g3 g4 g5]

end

end Cert.KernelSide

end
-- ==== Proof.KernelValueD.lean ====
/-
  The kernel's value at a grid point is the specification's.

  At grid point t the body finds in its staging buffers the seven blocks of the prepared operands.  On argument arrays
  with real entries every block entry is real; the tile's arithmetic on real blocks gives the tile's nested real sums;
  and those, for the blocks the host prepares from the arguments, are the kernel-order result of the specification at
  batch row t·32 + nl and merged column (k, j).
-/
import proofs.«129508_j67740224193011_2_alg».proof.Proof.FinalHyp
import proofs.«129508_j67740224193011_2_alg».proof.Proof.BlocksArgs
import proofs.«129508_j67740224193011_2_alg».proof.Proof.KernelValueSpec

noncomputable section

open scoped BigOperators

namespace Cert.KernelSide

open Cert.KernelIdeal Cert.KernelIdeal.Gen Cert.Proof.KernelIdealBody

open Idealize.ShloMosaic
open Idealize.ShloMosaic.TcCoe Idealize.ShloMosaic.ValueIdx
open Idealize.SL Idealize.SL.Sem

open Cert.KronSpec Cert.KernelSide.Tile Cert.KernelSide.Blocks Cert.Finite Cert.Proof.Final

section
variable (m : (ℓ : Loc nD τ sig) → Buf (Elt Ideal) ℓ) (c : Dev nD) (t : Fin cfg0.N)

/-- The real parts of the seven argument arrays. -/
def aX : Fin 2048 → Fin 36864 → ℝ := fun n q => (m ((c.tc : Thread nD τ).loc main_arg0) (ix2 n q) : EReal).toReal
def aB : Fin 192 → Fin 48 → ℝ := fun a b => (m ((c.tc : Thread nD τ).loc main_arg1) (ix2 a b) : EReal).toReal
def aC : Fin 192 → Fin 48 → ℝ := fun a b => (m ((c.tc : Thread nD τ).loc main_arg2) (ix2 a b) : EReal).toReal
def aG : Fin 256 → Fin 2304 → ℝ := fun a b => (m ((c.tc : Thread nD τ).loc main_arg3) (ix2 a b) : EReal).toReal
def aBi : Fin 48 → Fin 192 → ℝ := fun a b => (m ((c.tc : Thread nD τ).loc main_arg4) (ix2 a b) : EReal).toReal
def aCi : Fin 48 → Fin 192 → ℝ := fun a b => (m ((c.tc : Thread nD τ).loc main_arg5) (ix2 a b) : EReal).toReal
def aGi : Fin 2304 → Fin 256 → ℝ := fun a b => (m ((c.tc : Thread nD τ).loc main_arg6) (ix2 a b) : EReal).toReal

/-- A merged pair with its two coordinates exchanged. -/
def swap48 (pp : Fin 2304) : Fin 2304 :=
  ⟨(pp.val % 48) * 48 + pp.val / 48, by have := pp.isLt; have : pp.val % 48 < 48 := Nat.mod_lt _ (by norm_num); omega⟩

/-- The tile's seven real blocks at grid point t. -/
def tX1 (p : Fin 6144) (j : Fin 192) : ℝ := aX m c ⟨t.val * 32 + p.val / 192, row_lt t p⟩ ⟨(p.val % 192) * 192 + j.val, col_lt p j⟩
def tX2 (j : Fin 192) (r2 : Fin 48) : ℝ := aBi m c r2 j
def tX3 (k : Fin 192) (r3 : Fin 48) : ℝ := aCi m c r3 k
def tX4 (pp : Fin 2304) (r1 : Fin 256) : ℝ := aGi m c (swap48 pp) r1
def tX5 (r1 : Fin 256) (pp : Fin 2304) : ℝ := max (aG m c r1 (swap48 pp)) 0
def tX6 (r3 : Fin 48) (k : Fin 192) : ℝ := smx (by norm_num) (aC m c) k r3
def tX7 (r2 : Fin 48) (j : Fin 192) : ℝ := smx (by norm_num) (aB m c) j r2

/-- A merged pair is the merge of its two coordinates. -/
theorem merged48 (pp : Fin 2304) :
    (⟨(hi48 pp).val * 48 + (lo48 pp).val, by have := (hi48 pp).isLt; have := (lo48 pp).isLt; omega⟩ : Fin 2304) = pp :=
  pair48_hi_lo pp

theorem swap48_eq (pp : Fin 2304) :
    (⟨(lo48 pp).val * 48 + (hi48 pp).val, by have := (hi48 pp).isLt; have := (lo48 pp).isLt; omega⟩ : Fin 2304) = swap48 pp := rfl

theorem swap48_pair48 (r2 r3 : Fin 48) : swap48 (pair48 r2 r3) = finProdFinEquiv (r3, r2) :=
  Fin.ext (by
    rw [finProdFinEquiv_apply_val]
    show (r2.val * 48 + r3.val) % 48 * 48 + (r2.val * 48 + r3.val) / 48 = r2.val + 48 * r3.val
    have := r3.isLt
    omega)

/-- The batch block's entries, on an X of real entries. -/
theorem e1 (h0 : RealEntries (s := S2048x36864) (m ((c.tc : Thread nD τ).loc main_arg0))) (p : Fin 6144) (j : Fin 192) :
    iblk m c 0 t (ix2 p j) = ((tX1 m c t p j : ℝ) : EReal) := by
  have hp := p.isLt
  have hdm : p.val / 192 * 192 + p.val % 192 = p.val := Nat.div_add_mod' p.val 192
  have e : (⟨p.val / 192 * 192 + p.val % 192, by omega⟩ : Fin 6144) = p := Fin.ext hdm
  have hb := blk0_apply_real m c h0 t (⟨p.val / 192, by omega⟩ : Fin 32) (⟨p.val % 192, Nat.mod_lt _ (by norm_num)⟩ : Fin 192) j
  exact (congrArg (fun q => iblk m c 0 t (ix2 q j)) e.symm).trans hb

theorem e4 (h6 : RealEntries (s := S2304x256) (m ((c.tc : Thread nD τ).loc main_arg6))) (pp : Fin 2304) (r1 : Fin 256) :
    iblk m c 3 t (ix2 pp r1) = ((tX4 m c pp r1 : ℝ) : EReal) :=
  (congrArg (fun q => iblk m c 3 t (ix2 q r1)) (merged48 pp).symm).trans (blk3_apply_real m c h6 t (hi48 pp) (lo48 pp) r1)

theorem e5 (h3 : RealEntries (s := S256x2304) (m ((c.tc : Thread nD τ).loc main_arg3))) (r1 : Fin 256) (pp : Fin 2304) :
    iblk m c 4 t (ix2 r1 pp) = ((tX5 m c r1 pp : ℝ) : EReal) :=
  (congrArg (fun q => iblk m c 4 t (ix2 r1 q)) (merged48 pp).symm).trans (blk4_apply_real m c h3 t r1 (hi48 pp) (lo48 pp))

end

/-- On argument arrays with real entries, entry (p, j) of the block the body leaves at grid point t is the
    specification's kernel-order result at batch row t·32 + p / 192 and merged column (p mod 192)·192 + j. -/
theorem kernel_value_of (hM : HypM) : Cert.Proof.Final.KernelValue := fun m c h0 h1 h2 h3 h4 h5 h6 t p j => by
  have hp := p.isLt
  have hdm : p.val / 192 * 192 + p.val % 192 = p.val := Nat.div_add_mod' p.val 192
  obtain ⟨nl, k, rfl⟩ : ∃ (nl : Fin 32) (k : Fin 192), p = row192 nl k :=
    ⟨⟨p.val / 192, by omega⟩, ⟨p.val % 192, Nat.mod_lt _ (by norm_num)⟩, Fin.ext hdm.symm⟩
  have ht : t.val < 64 := lt_of_lt_of_eq t.isLt N_0
  have hnl := nl.isLt
  have hk := k.isLt
  have a1 : ∀ k' : Fin 192, (⟨t.val * 32 + (row192 nl k').val / 192, row_lt t (row192 nl k')⟩ : Fin 2048)
      = (⟨t.val * 32 + nl.val, by omega⟩ : Fin 2048) := fun k' => Fin.ext (by
    show t.val * 32 + (nl.val * 192 + k'.val) / 192 = t.val * 32 + nl.val
    have := k'.isLt
    omega)
  have a2 : ∀ (k' j' : Fin 192), (⟨((row192 nl k').val % 192) * 192 + j'.val, col_lt (row192 nl k') j'⟩ : Fin 36864)
      = finProdFinEquiv (k', j') := fun k' j' => Fin.ext (by
    rw [finProdFinEquiv_apply_val]
    show (nl.val * 192 + k'.val) % 192 * 192 + j'.val = j'.val + 192 * k'.val
    have := k'.isLt
    omega)
  unfold Cert.Proof.KernelIdealBody.outsAt
  refine (outBlock_real hM _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (tX1 m c t) (tX2 m c) (tX3 m c) (tX4 m c) (tX5 m c) (tX6 m c) (tX7 m c)
    (e1 m c t h0) (blk1_apply_real m c h4 t) (blk2_apply_real m c h5 t) (e4 m c t h6) (e5 m c t h3)
    (blk5_apply_real m c h2 t) (blk6_apply_real m c h1 t) nl k j).trans ?_
  refine congrArg (fun r : ℝ => (r : EReal)) ?_
  refine (outB_eq_outK (aX m c) (aB m c) (aC m c) (aG m c) (aBi m c) (aCi m c) (aGi m c)
    (tX1 m c t) (tX2 m c) (tX3 m c) (tX4 m c) (tX5 m c) (tX6 m c) (tX7 m c)
    (⟨t.val * 32 + nl.val, by omega⟩ : Fin 2048) nl
    (fun k' j' => congrArg₂ (aX m c) (a1 k') (a2 k' j'))
    (fun _ _ => rfl) (fun _ _ => rfl)
    (fun r2 r3 r1 => congrArg (fun q => aGi m c q r1) (swap48_pair48 r2 r3))
    (fun r1 r2 r3 => congrArg (fun q => max (aG m c r1 q) 0) (swap48_pair48 r2 r3))
    (fun _ _ => rfl) (fun _ _ => rfl) k j).trans ?_
  exact congrArg₂ (outK (aX m c) (aB m c) (aC m c) (aG m c) (aBi m c) (aCi m c) (aGi m c)) (a1 k).symm (a2 k j).symm

end Cert.KernelSide

end
-- ==== Proof.LibShadow2.lean ====
/-
  Stores that hide stores, read at an entry.

  The contents a list of stores leaves (the canon: at each index the payload of the LAST store that covers it) do
  not see a store whose whole rectangle the next store overwrites.  A buffer filled two rows at a time, each pair
  of rows written by two read-modify-write stores of the same two-row rectangle (the first puts row 0 and keeps
  what it found in row 1, the second puts row 1 and keeps row 0), ends at contents that do not depend on what
  the buffer held before: the second store's payload is the first row and the second row, whatever was found.
-/
import proofs.«129508_j67740224193011_2_alg».proof.Proof.LibShadow
import Idealize.ShloMosaic.Lib.Pipeline.FrameBody
import Idealize.ShloMosaic.Lib.Pipeline.Value
import Idealize.ShloMosaic.Lib.ValueIdx

noncomputable section

namespace Cert.Shadow

open Idealize.ShloMosaic Idealize.ShloMosaic.View

variable {Val : EltTy → Type} {s : Shape} {e : EltTy} [∀ e, Nonempty (Val e)]

/-- A list of stores made in pairs, each pair into one rectangle, whose later store of every pair agrees with one
    function G of the buffer's index. -/
def PairsAgree (G : s.Idx → Val e) : List (Piece Val s e) → Prop
  | [] => True
  | [_] => False
  | p :: q :: L => q.1 = p.1 ∧ (∀ x, p.2 x = G (p.1.emb x)) ∧ PairsAgree G L

/-- Such a list leaves G wherever one of its stores covers: the earlier store of each pair is hidden. -/
theorem canon_apply_of_pairs (G : s.Idx → Val e) :
    ∀ (L : List (Piece Val s e)), PairsAgree G L → ∀ y, (∃ p ∈ L, y ∈ p.1.set) → canon L y = G y
  | [], _, y, hy => by obtain ⟨p, hp, _⟩ := hy; simp at hp
  | [_], h, _, _ => absurd h (by simp [PairsAgree])
  | ⟨r, w⟩ :: ⟨r1, w1⟩ :: L, h, y, hy => by
    obtain ⟨h1, h2, h3⟩ := h
    dsimp only at h1 h2
    subst h1
    rw [canon_cons_cons_same]
    by_cases hm : y ∈ r1.set
    · obtain ⟨x, rfl⟩ := r1.exists_idx_of_mem hm
      rw [show r1.idx x = r1.emb x from rfl, canon_cons_emb]; exact h2 x
    · rw [canon_cons_of_not_mem _ _ hm]
      refine canon_apply_of_pairs G L h3 y ?_
      obtain ⟨q, hq, hyq⟩ := hy
      rcases List.mem_cons.mp hq with rfl | hq'
      · exact absurd hyq hm
      · rcases List.mem_cons.mp hq' with rfl | hq''
        · exact absurd hyq hm
        · exact ⟨q, hq'', hyq⟩

/-- Two rows put one after the other into a two-row block, read at an entry: the first row put, or the second. -/
theorem updateSlice_rows_apply {α : Type} {n c : Nat} (o : (⟨3, ![n, 2, c]⟩ : Shape).Idx → α)
    (a b : (⟨3, ![n, 1, c]⟩ : Shape).Idx → α)
    (h0 : (⟨3, ![n, 2, c]⟩ : Shape).Slices ![0, 0, 0] (⟨3, ![n, 1, c]⟩ : Shape))
    (h1 : (⟨3, ![n, 2, c]⟩ : Shape).Slices ![0, 1, 0] (⟨3, ![n, 1, c]⟩ : Shape))
    (x : (⟨3, ![n, 2, c]⟩ : Shape).Idx) :
    updateSlice (updateSlice o a ![0, 0, 0] h0) b ![0, 1, 0] h1 x
      = if (x 1).val = 0 then a (ValueIdx.ix3 (x 0) (0 : Fin 1) (x 2)) else b (ValueIdx.ix3 (x 0) (0 : Fin 1) (x 2)) := by
  have hi1 : (x 1).val < 2 := (x 1).isLt
  have hi0 : (x 0).val < n := (x 0).isLt
  have hi2 : (x 2).val < c := (x 2).isLt
  by_cases hx : (x 1).val = 0
  · rw [if_pos hx]
    unfold updateSlice
    split_ifs with hb ha
    · exfalso
      have := (hb 1).1
      simp at this
      omega
    · congr 1
      funext d
      apply Fin.ext
      match d with
      | ⟨0, _⟩ => simp [ValueIdx.ix3]
      | ⟨1, _⟩ => simp [ValueIdx.ix3, hx]
      | ⟨2, _⟩ => simp [ValueIdx.ix3]
    · exfalso
      apply ha
      intro d
      match d with
      | ⟨0, _⟩ => exact ⟨Nat.zero_le _, by simpa using hi0⟩
      | ⟨1, _⟩ => exact ⟨Nat.zero_le _, by simp; omega⟩
      | ⟨2, _⟩ => exact ⟨Nat.zero_le _, by simpa using hi2⟩
  · rw [if_neg hx]
    unfold updateSlice
    have hb' : ∀ d : Fin 3, (![0, 1, 0] : Fin 3 → Nat) d ≤ (x d).val ∧ (x d).val < (![0, 1, 0] : Fin 3 → Nat) d + (![n, 1, c] : Fin 3 → Nat) d := by
      intro d
      match d with
      | ⟨0, _⟩ => exact ⟨Nat.zero_le _, by simpa using hi0⟩
      | ⟨1, _⟩ => exact ⟨by simp; omega, by simp; omega⟩
      | ⟨2, _⟩ => exact ⟨Nat.zero_le _, by simpa using hi2⟩
    split_ifs with hb ha
    · congr 1
      funext d
      apply Fin.ext
      match d with
      | ⟨0, _⟩ => simp [ValueIdx.ix3]
      | ⟨1, _⟩ => simp [ValueIdx.ix3]; omega
      | ⟨2, _⟩ => simp [ValueIdx.ix3]
    · exact absurd hb' hb
    · exact absurd hb' hb

end Cert.Shadow

end
-- ==== Proof.ScratchM.lean ====
/-
  The second scratch buffer read back whole, at the exact values.

  The buffer has shape [32, 48, 48] and is written two rows of its middle axis at a time: rows 2i and 2i + 1 by two
  read-modify-write stores of the rectangle of those two rows.  Row r2 put is columns 48·r2 … 48·r2 + 47 of the
  [32, 2304] matrix m computed just before.  Read back whole, entry (n, r2, r3) of the buffer is therefore entry
  (n, 48·r2 + r3) of m, whatever the buffer held before (a change of float format is the identity at the exact
  values).
-/
import proofs.«129508_j67740224193011_2_alg».proof.Proof.BodyKI
import proofs.«129508_j67740224193011_2_alg».proof.Proof.LibShadow2

noncomputable section

namespace Cert.Proof.KernelIdealBody

open Cert.KernelIdeal Cert.KernelIdeal.Gen

open Idealize.ShloMosaic
open Idealize.ShloMosaic.TcCoe Idealize.ShloMosaic.ValueIdx
open Idealize.SL Idealize.SL.Sem

/-- Rows 2i and 2i + 1 of the middle axis lie inside the buffer. -/
theorem inb10 (i : Fin 24) : ∀ a : Fin 3, (![0, 2 * i.val, 0] : Fin 3 → Nat) a + (![32, 2, 48] : Fin 3 → Nat) a ≤ S32x48x48.size a := by
  intro a
  have := i.isLt
  fin_cases a <;> simp <;> omega

/-- Every two-row rectangle of the middle axis is the rectangle of some store of the list. -/
theorem rects10 (c : Dev nD)
    (M1 : Memref sig .tc .vmem S6144x192 .f32) (M2 : Memref sig .tc .vmem S192x48 .bf16)
    (M3 : Memref sig .tc .vmem S192x48 .bf16) (M4 : Memref sig .tc .vmem S2304x256 .bf16)
    (M5 : Memref sig .tc .vmem S256x2304 .bf16) (M9 : Memref sig .tc .vmem S32x2304 .bf16) (M10 : Memref sig .tc .vmem S32x48x48 .bf16)
    (f1 : Bf (F := Ideal) c M1) (f2 : Bf (F := Ideal) c M2) (f3 : Bf (F := Ideal) c M3) (f4 : Bf (F := Ideal) c M4) (f5 : Bf (F := Ideal) c M5)
    (f10 : Bf (F := Ideal) c M10) (i : Fin 24) :
    ∃ p ∈ kernelRunP.sl.H10_48 (F := Ideal) c M1 M2 M3 M4 M5 M9 M10 f1 f2 f3 f4 f5 f10,
      p.1 = Rect.unit (s := S32x48x48) ![0, 2 * i.val, 0] ![32, 2, 48] (inb10 i) := by
  simp only [kernelRunP.sl.H10_19, kernelRunP.sl.H10_43, kernelRunP.sl.H10_1, kernelRunP.sl.H10_27, kernelRunP.sl.H10_5, kernelRunP.sl.H10_47, kernelRunP.sl.H10_13, kernelRunP.sl.H10_25, kernelRunP.sl.H10_21, kernelRunP.sl.H10_9, kernelRunP.sl.H10_15, kernelRunP.sl.H10_29, kernelRunP.sl.H10_23, kernelRunP.sl.H10_33, kernelRunP.sl.H10_37, kernelRunP.sl.H10_17, kernelRunP.sl.H10_3, kernelRunP.sl.H10_12, kernelRunP.sl.H10_39, kernelRunP.sl.H10_35, kernelRunP.sl.H10_32, kernelRunP.sl.H10_11, kernelRunP.sl.H10_31, kernelRunP.sl.H10_41, kernelRunP.sl.H10_48, kernelRunP.sl.H10_45, kernelRunP.sl.H10_7, kernelRunP.sl.H10_26, kernelRunP.sl.H10_6]
  fin_cases i <;>
    exact ⟨⟨_, _⟩, by repeat (first | exact List.mem_cons_self | apply List.mem_cons_of_mem), rfl⟩

/-- The matrix m read where the buffer's entry y comes from: entry (y0, 48·y1 + y2). -/
def fromFlat (R : FVec Ideal S32x2304 .f32) (y : S32x48x48.Idx) : Ideal .bf16 :=
  R (ix2 (⟨(y 0).val, (y 0).isLt⟩ : Fin 32) (⟨(y 1).val * 48 + (y 2).val, by
    have h1 : (y 1).val < 48 := (y 1).isLt
    have h2 : (y 2).val < 48 := (y 2).isLt
    omega⟩ : Fin 2304))

/-- One row put: columns K … K + 47 of m as a [32, 1, 48] block, read at (p, 0, q), is m at (p, K + q). -/
theorem rowPut_apply (R : FVec Ideal S32x2304 .f32) (K : Nat) (h : S32x2304.Slices ![0, K] S32x48) (hK : K + 48 ≤ 2304)
    (p : Fin 32) (q : Fin 48) :
    shapeCast S32x1x48 (truncf .bf16 (extractStridedSlice S32x48 ![0, K] R h) bitsLt_bf16_f32) shapeCasts_S32x48_S32x1x48
        (ix3 p (0 : Fin 1) q)
      = R (ix2 p (⟨K + q.val, by have := q.isLt; omega⟩ : Fin 2304)) := by
  refine (shapeCast_apply _ _ (ix3 p (0 : Fin 1) q) (ix2 p q) ?_).trans ?_
  · rw [Shape.rowMajor_val_two, Shape.rowMajor_val_three]; simp
  · rw [truncf_apply (ψ := .bf16) (φ := .f32)]
    exact extractStridedSlice_apply _ _ _ _ _ (fun a => by fin_cases a <;> simp)

set_option maxHeartbeats 8000000 in
set_option maxRecDepth 100000 in
/-- The later store of every pair of the list puts, in its two rows, the matching columns of m. -/
theorem agree10 (c : Dev nD)
    (M1 : Memref sig .tc .vmem S6144x192 .f32) (M2 : Memref sig .tc .vmem S192x48 .bf16)
    (M3 : Memref sig .tc .vmem S192x48 .bf16) (M4 : Memref sig .tc .vmem S2304x256 .bf16)
    (M5 : Memref sig .tc .vmem S256x2304 .bf16) (M9 : Memref sig .tc .vmem S32x2304 .bf16) (M10 : Memref sig .tc .vmem S32x48x48 .bf16)
    (f1 : Bf (F := Ideal) c M1) (f2 : Bf (F := Ideal) c M2) (f3 : Bf (F := Ideal) c M3) (f4 : Bf (F := Ideal) c M4) (f5 : Bf (F := Ideal) c M5)
    (f10 : Bf (F := Ideal) c M10) :
    Cert.Shadow.PairsAgree (fromFlat (kernelRunP.sl.r_9 (F := Ideal) c M1 M2 M3 M4 M5 M9 f1 f2 f3 f4 f5))
      (kernelRunP.sl.H10_48 (F := Ideal) c M1 M2 M3 M4 M5 M9 M10 f1 f2 f3 f4 f5 f10) := by
  simp only [kernelRunP.sl.H10_19, kernelRunP.sl.H10_43, kernelRunP.sl.H10_1, kernelRunP.sl.H10_27, kernelRunP.sl.H10_5, kernelRunP.sl.H10_47, kernelRunP.sl.H10_13, kernelRunP.sl.H10_25, kernelRunP.sl.H10_21, kernelRunP.sl.H10_9, kernelRunP.sl.H10_15, kernelRunP.sl.H10_29, kernelRunP.sl.H10_23, kernelRunP.sl.H10_33, kernelRunP.sl.H10_37, kernelRunP.sl.H10_17, kernelRunP.sl.H10_3, kernelRunP.sl.H10_12, kernelRunP.sl.H10_39, kernelRunP.sl.H10_35, kernelRunP.sl.H10_32, kernelRunP.sl.H10_11, kernelRunP.sl.H10_31, kernelRunP.sl.H10_41, kernelRunP.sl.H10_48, kernelRunP.sl.H10_45, kernelRunP.sl.H10_7, kernelRunP.sl.H10_26, kernelRunP.sl.H10_6, kernelRunP.sl.old_28, kernelRunP.sl.old_12, kernelRunP.sl.old_4, kernelRunP.sl.old_42, kernelRunP.sl.old, kernelRunP.sl.old_6, kernelRunP.sl.old_44, kernelRunP.sl.old_36, kernelRunP.sl.old_30, kernelRunP.sl.old_2, kernelRunP.sl.old_26, kernelRunP.sl.old_34, kernelRunP.sl.old_40, kernelRunP.sl.old_38, kernelRunP.sl.old_18, kernelRunP.sl.old_16, kernelRunP.sl.old_22, kernelRunP.sl.old_20, kernelRunP.sl.old_46, kernelRunP.sl.old_24, kernelRunP.sl.old_10, kernelRunP.sl.old_32, kernelRunP.sl.old_14, kernelRunP.sl.old_8, View.readCov_cons_toLoadRect, Cert.Shadow.PairsAgree, true_and, and_true]
  repeat' (first | exact trivial | apply And.intro)
  all_goals
    intro x
    rw [Cert.Shadow.updateSlice_rows_apply]
    simp only [Cert.KernelIdeal.Gen.k0_pay1, Cert.KernelIdeal.Gen.k0_pay2, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, Cert.KernelIdeal.Gen.k0_pay74, Cert.KernelIdeal.Gen.k0_pay75, Cert.KernelIdeal.Gen.k0_pay76, Cert.KernelIdeal.Gen.k0_pay77, Cert.KernelIdeal.Gen.k0_pay78, Cert.KernelIdeal.Gen.k0_pay79, Cert.KernelIdeal.Gen.k0_pay80, Cert.KernelIdeal.Gen.k0_pay81, Cert.KernelIdeal.Gen.k0_pay82, Cert.KernelIdeal.Gen.k0_pay83, Cert.KernelIdeal.Gen.k0_pay84, Cert.KernelIdeal.Gen.k0_pay85, Cert.KernelIdeal.Gen.k0_pay86, Cert.KernelIdeal.Gen.k0_pay87, Cert.KernelIdeal.Gen.k0_pay88, Cert.KernelIdeal.Gen.k0_pay89, Cert.KernelIdeal.Gen.k0_pay90, Cert.KernelIdeal.Gen.k0_pay91, Cert.KernelIdeal.Gen.k0_pay92, Cert.KernelIdeal.Gen.k0_pay93, Cert.KernelIdeal.Gen.k0_pay94, Cert.KernelIdeal.Gen.k0_pay95, Cert.KernelIdeal.Gen.k0_pay96, Cert.KernelIdeal.Gen.k0_pay97, Cert.KernelIdeal.Gen.k0_pay98, Cert.KernelIdeal.Gen.k0_pay99, Cert.KernelIdeal.Gen.k0_pay100, Cert.KernelIdeal.Gen.k0_pay101, Cert.KernelIdeal.Gen.k0_pay102, Cert.KernelIdeal.Gen.k0_pay103, Cert.KernelIdeal.Gen.k0_pay104, Cert.KernelIdeal.Gen.k0_pay105, Cert.KernelIdeal.Gen.k0_pay106, Cert.KernelIdeal.Gen.k0_pay107, Cert.KernelIdeal.Gen.k0_pay108, Cert.KernelIdeal.Gen.k0_pay109, Cert.KernelIdeal.Gen.k0_pay110, Cert.KernelIdeal.Gen.k0_pay111, Cert.KernelIdeal.Gen.k0_pay112, Cert.KernelIdeal.Gen.k0_pay113, Cert.KernelIdeal.Gen.k0_pay114, kernelRunP.sl.r_10, kernelRunP.sl.r_11, kernelRunP.sl.r_12, kernelRunP.sl.r_13, kernelRunP.sl.r_14, kernelRunP.sl.r_15, kernelRunP.sl.r_16]
    have hx1 : (x 1).val < 2 := (x 1).isLt
    have hx0 : (x 0).val < 32 := (x 0).isLt
    have hx2 : (x 2).val < 48 := (x 2).isLt
    split_ifs with hx
    · refine (rowPut_apply _ _ _ (by norm_num) ⟨(x 0).val, hx0⟩ ⟨(x 2).val, hx2⟩).trans ?_
      unfold fromFlat
      refine congrArg _ ?_
      funext a
      apply Fin.ext
      fin_cases a <;> simp [hx]
    · refine (rowPut_apply _ _ _ (by norm_num) ⟨(x 0).val, hx0⟩ ⟨(x 2).val, hx2⟩).trans ?_
      unfold fromFlat
      refine congrArg _ ?_
      funext a
      apply Fin.ext
      fin_cases a <;> simp <;> omega

/-- The second scratch buffer read back whole: entry (nl, r2, r3) is entry (nl, 48·r2 + r3) of the matrix m,
    whatever the buffer held before. -/
theorem v561_eq (c : Dev nD)
    (M1 : Memref sig .tc .vmem S6144x192 .f32) (M2 : Memref sig .tc .vmem S192x48 .bf16)
    (M3 : Memref sig .tc .vmem S192x48 .bf16) (M4 : Memref sig .tc .vmem S2304x256 .bf16)
    (M5 : Memref sig .tc .vmem S256x2304 .bf16) (M9 : Memref sig .tc .vmem S32x2304 .bf16) (M10 : Memref sig .tc .vmem S32x48x48 .bf16)
    (f1 : Bf (F := Ideal) c M1) (f2 : Bf (F := Ideal) c M2) (f3 : Bf (F := Ideal) c M3) (f4 : Bf (F := Ideal) c M4) (f5 : Bf (F := Ideal) c M5)
    (f10 : Bf (F := Ideal) c M10) (nl : Fin 32) (r2 r3 : Fin 48) :
    kernelRunP.sl.v561 (F := Ideal) c M1 M2 M3 M4 M5 M9 M10 f1 f2 f3 f4 f5 f10 (ix3 nl r2 r3)
      = kernelRunP.sl.r_9 (F := Ideal) c M1 M2 M3 M4 M5 M9 f1 f2 f3 f4 f5
          (ix2 nl (⟨r2.val * 48 + r3.val, by have := r2.isLt; have := r3.isLt; omega⟩ : Fin 2304)) := by
  unfold kernelRunP.sl.v561
  rw [View.readCov_eq_canon']
  have h0 : (![0, 0, 0] : Fin S32x48x48.rank → Nat) = fun _ => 0 := by
    funext a; fin_cases a <;> rfl
  have e := View.ld_unit_zero (Val := Elt Ideal) (e := .bf16) h0 inb_S32x48x48_S32x48x48_0_0_0
    (View.canon (kernelRunP.sl.H10_48 (F := Ideal) c M1 M2 M3 M4 M5 M9 M10 f1 f2 f3 f4 f5 f10))
  refine (congrFun e (ix3 nl r2 r3)).trans ?_
  refine (Cert.Shadow.canon_apply_of_pairs _ _ (agree10 c M1 M2 M3 M4 M5 M9 M10 f1 f2 f3 f4 f5 f10) _ ?_).trans rfl
  have hr2 := r2.isLt
  obtain ⟨p, hp, hr⟩ := rects10 c M1 M2 M3 M4 M5 M9 M10 f1 f2 f3 f4 f5 f10 ⟨r2.val / 2, by omega⟩
  refine ⟨p, hp, ?_⟩
  rw [hr, Rect.mem_set_unit]
  intro a
  have hnl := nl.isLt
  have hr3 := r3.isLt
  have e1 : ((ix3 nl r2 r3 : S32x48x48.Idx) 1).val = r2.val := rfl
  have e0 : ((ix3 nl r2 r3 : S32x48x48.Idx) 0).val = nl.val := rfl
  have e2 : ((ix3 nl r2 r3 : S32x48x48.Idx) 2).val = r3.val := rfl
  fin_cases a <;> simp <;> omega

end Cert.Proof.KernelIdealBody

end
-- ==== Proof.KernelValue.lean ====
/-
  The kernel's value, with both scratch buffers' facts discharged.
-/
import proofs.«129508_j67740224193011_2_alg».proof.Proof.KernelValueD
import proofs.«129508_j67740224193011_2_alg».proof.Proof.ScratchM

noncomputable section

open scoped BigOperators

namespace Cert.KernelSide

open Cert.KernelIdeal Cert.KernelIdeal.Gen Cert.Proof.KernelIdealBody

open Idealize.ShloMosaic
open Idealize.ShloMosaic.TcCoe Idealize.ShloMosaic.ValueIdx
open Idealize.SL Idealize.SL.Sem

/-- The second scratch buffer's fact holds. -/
theorem hypM : HypM := fun c M1 M2 M3 M4 M5 M9 M10 f1 f2 f3 f4 f5 f10 nl r2 r3 =>
  Cert.Proof.KernelIdealBody.v561_eq c M1 M2 M3 M4 M5 M9 M10 f1 f2 f3 f4 f5 f10 nl r2 r3

/-- On argument arrays with real entries, entry (p, j) of the block the body leaves at grid point t is the
    specification's kernel-order result at batch row t·32 + p / 192 and merged column (p mod 192)·192 + j. -/
theorem kernel_value : Cert.Proof.Final.KernelValue := kernel_value_of hypM

end Cert.KernelSide

end
-- ==== Proof.lean ====
/-
  The word-level kernel program, its idealization and the reference each run to the end and keep their arguments, and the
  two idealized programs, run from memories agreeing on the arguments, end with equal results: contracting one Kronecker
  factor at a time and contracting against the Kronecker matrices are two orders of summation of one real number.
-/
import proofs.«129508_j67740224193011_2_alg».proof.Defs
import proofs.«129508_j67740224193011_2_alg».proof.Proof.FinalAlg
import proofs.«129508_j67740224193011_2_alg».proof.Proof.KernelValue

namespace Cert.Proof

theorem claim : Cert.Claim := Cert.Proof.Final.claim_of Cert.KernelSide.kernel_value

end Cert.Proof
